-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1 : Shape := ⟨2, ![8192, 1]⟩
abbrev S8192x128 : Shape := ⟨2, ![8192, 128]⟩
abbrev S_ : Shape := ⟨0, ![]⟩

class Facts : Prop where
  bcast_S_S8192x1 : S_.BroadcastsInDim S8192x1 (![] : Fin 0 → Fin S8192x1.rank)
  reducesTo_S8192x1_S_d0_1 : S8192x1.ReducesTo [0, 1] S_
  h_S_ : 0 < S_.numel
  bcast_S_S8192x128 : S_.BroadcastsInDim S8192x128 (![] : Fin 0 → Fin S8192x128.rank)
  reducesTo_S8192x128_S_d0_1 : S8192x128.ReducesTo [0, 1] S_

variable [Facts]

def fn {F : FTy → Type} [FloatOps F] (main_arg0 : FVec F S8192x1 .f32) (main_arg1 : FVec F S8192x128 .f32) : IVec S_ 1 :=
  let main_v0 : FVec F S8192x1 .f32 := Host.absf main_arg0
  let main_cst : FVec F S_ .f32 := constant S_ .f32 0x7F800000#32
  let main_v1 : FVec F S8192x1 .f32 := broadcastInDim S8192x1 ![] bcast_S_S8192x1 main_cst
  let main_v2 : IVec S8192x1 1 := cmpf .olt main_v0 main_v1
  let main_c : IVec S_ 1 := constantI S_ 1 1#1
  let main_v3 : IVec S_ 1 := (fun x v => Host.reduce IntOp.andi x v reducesTo_S8192x1_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  main_v8
-- ==== Kernel.lean ====
abbrev S8192x1 : Shape := ⟨2, ![8192, 1]⟩
abbrev S8192x128 : Shape := ⟨2, ![8192, 128]⟩
abbrev S1x8192 : Shape := ⟨2, ![1, 8192]⟩
abbrev S_ : Shape := ⟨0, ![]⟩
abbrev S8192 : Shape := ⟨1, ![8192]⟩
abbrev S1x1 : Shape := ⟨2, ![1, 1]⟩
abbrev S64x1 : Shape := ⟨2, ![64, 1]⟩
abbrev S64x128 : Shape := ⟨2, ![64, 128]⟩
abbrev S64x8192 : Shape := ⟨2, ![64, 8192]⟩
abbrev S64 : Shape := ⟨1, ![64]⟩
abbrev S1 : Shape := ⟨1, ![1]⟩

abbrev nBuf : Space → Nat
  | .hbm => 12
  | .vmem => 22
  | .smem => 0
  | _ => 0

abbrev bufTy : (tb : Table) → Fin (tcTables nBuf tb) → BufTy
  | .hbm, ⟨0, _⟩ => ⟨S8192x1, .f32⟩
  | .hbm, ⟨1, _⟩ => ⟨S8192x128, .f32⟩
  | .hbm, ⟨2, _⟩ => ⟨S1x8192, .f32⟩
  | .hbm, ⟨3, _⟩ => ⟨S8192x128, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S1x8192, .f32⟩
  | .hbm, ⟨8, _⟩ => ⟨S1x1, .f32⟩
  | .hbm, ⟨9, _⟩ => ⟨S1x1, .f32⟩
  | .hbm, ⟨10, _⟩ => ⟨S1x1, .f32⟩
  | .hbm, ⟨11, _⟩ => ⟨S_, .f32⟩
  | .local _ .vmem, ⟨0, _⟩ => ⟨S64x1, .f32⟩
  | .local _ .vmem, ⟨1, _⟩ => ⟨S64x1, .f32⟩
  | .local _ .vmem, ⟨2, _⟩ => ⟨S1x8192, .f32⟩
  | .local _ .vmem, ⟨3, _⟩ => ⟨S64x128, .f32⟩
  | .local _ .vmem, ⟨4, _⟩ => ⟨S64x128, .f32⟩
  | .local _ .vmem, ⟨5, _⟩ => ⟨S8192x128, .f32⟩
  | .local _ .vmem, ⟨6, _⟩ => ⟨S1x8192, .f32⟩
  | .local _ .vmem, ⟨7, _⟩ => ⟨S1x1, .f32⟩
  | .local _ .vmem, ⟨8, _⟩ => ⟨S1x1, .f32⟩
  | .local _ .vmem, ⟨9, _⟩ => ⟨S1x1, .f32⟩
  | .local _ .vmem, ⟨10, _⟩ => ⟨S1x1, .f32⟩
  | .local _ .vmem, ⟨11, _⟩ => ⟨S64x1, .f32⟩
  | .local _ .vmem, ⟨12, _⟩ => ⟨S64x1, .f32⟩
  | .local _ .vmem, ⟨13, _⟩ => ⟨S1x8192, .f32⟩
  | .local _ .vmem, ⟨14, _⟩ => ⟨S64x128, .f32⟩
  | .local _ .vmem, ⟨15, _⟩ => ⟨S64x128, .f32⟩
  | .local _ .vmem, ⟨16, _⟩ => ⟨S8192x128, .f32⟩
  | .local _ .vmem, ⟨17, _⟩ => ⟨S1x8192, .f32⟩
  | .local _ .vmem, ⟨18, _⟩ => ⟨S1x1, .f32⟩
  | .local _ .vmem, ⟨19, _⟩ => ⟨S1x1, .f32⟩
  | .local _ .vmem, ⟨20, _⟩ => ⟨S1x1, .f32⟩
  | .local _ .vmem, ⟨21, _⟩ => ⟨S1x1, .f32⟩
  | _, _ => ⟨S8192x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_scratch0 : Ref sig .tc := ⟨.vmem, 9, rfl⟩
abbrev cc0_scratch1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_scratch0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8192x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S64x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x8192 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S64x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S8192x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x8192 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

class Facts₀ : Prop where
  shapeCasts_S8192x1_S1x8192 : S8192x1.ShapeCasts S1x8192
  reducesTo_S8192x128_S8192_d1 : S8192x128.ReducesTo [1] S8192
  h_S_ : 0 < S_.numel
  bcast_S8192_S8192x1_0 : S8192.BroadcastsInDim S8192x1 (![0] : Fin 1 → Fin S8192x1.rank)
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S64x1_S64x1_0_0 : ∀ a, (![0, 0] : Fin 2 → Nat) a + S64x1.size a ≤ S64x1.size a
  h_S64x1 : 0 < S64x1.numel
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  inb_S64x128_S64x128_0_0 : ∀ a, (![0, 0] : Fin 2 → Nat) a + S64x128.size a ≤ S64x128.size a
  h_S64x128 : 0 < S64x128.numel
  inb_S8192x128_S8192x128_0_0 : ∀ a, (![0, 0] : Fin 2 → Nat) a + S8192x128.size a ≤ S8192x128.size a
  h_S8192x128 : 0 < S8192x128.numel
  broadcasts_S64x1_S64x8192 : S64x1.Broadcasts S64x8192
  broadcasts_S1x8192_S64x8192 : S1x8192.Broadcasts S64x8192
  reduces_S64x128_S64 : S64x128.Reduces [1] S64
  shapeCasts_S64_S64x1 : S64.ShapeCasts S64x1
  bitsLt_bf16_f32 : FTy.bits .bf16 < FTy.bits .f32
  reduces_S64x8192_S64 : S64x8192.Reduces [1] S64
  reduces_S64x1_S1 : S64x1.Reduces [0] S1
  shapeCasts_S1_S1x1 : S1.ShapeCasts S1x1
  broadcasts_S1x1_S64x8192 : S1x1.Broadcasts S64x8192
  shapeCasts_S1x1_S_ : S1x1.ShapeCasts S_
  dot_S64x128_S8192x128_S64x8192_1_1_0_0_n_n_wf : DotDims.WF S64x128 S8192x128 S64x8192 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x1.size a ≤ S8192x1.size a
  hwx0_0 : ∀ i : grid0.Coords, EltTy.bits .f32 = 32 ∨ (Rect.block (s := S8192x1) S64x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x8192.size a ≤ S1x8192.size a
  hwx0_1 : ∀ i : grid0.Coords, EltTy.bits .f32 = 32 ∨ (Rect.block (s := S1x8192) S1x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S8192x128.size a
  hwx0_2 : ∀ i : grid0.Coords, EltTy.bits .f32 = 32 ∨ (Rect.block (s := S8192x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8192x128.size a ≤ S8192x128.size a
  hwx0_3 : ∀ i : grid0.Coords, EltTy.bits .f32 = 32 ∨ (Rect.block (s := S8192x128) S8192x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x8192.size a ≤ S1x8192.size a
  hwx0_4 : ∀ i : grid0.Coords, EltTy.bits .f32 = 32 ∨ (Rect.block (s := S1x8192) S1x8192.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x1.size a ≤ S8192x1.size a
  hwx1_0 : ∀ i : grid1.Coords, EltTy.bits .f32 = 32 ∨ (Rect.block (s := S8192x1) S64x1.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x8192.size a ≤ S1x8192.size a
  hwx1_1 : ∀ i : grid1.Coords, EltTy.bits .f32 = 32 ∨ (Rect.block (s := S1x8192) S1x8192.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S8192x128.size a
  hwx1_2 : ∀ i : grid1.Coords, EltTy.bits .f32 = 32 ∨ (Rect.block (s := S8192x128) S64x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8192x128.size a ≤ S8192x128.size a
  hwx1_3 : ∀ i : grid1.Coords, EltTy.bits .f32 = 32 ∨ (Rect.block (s := S8192x128) S8192x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x8192.size a ≤ S1x8192.size a
  hwx1_4 : ∀ i : grid1.Coords, EltTy.bits .f32 = 32 ∨ (Rect.block (s := S1x8192) S1x8192.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1.size a ≤ S1x1.size a
  hwx1_5 : ∀ i : grid1.Coords, EltTy.bits .f32 = 32 ∨ (Rect.block (s := S1x1) S1x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1.size a ≤ S1x1.size a
  hwx1_6 : ∀ i : grid1.Coords, EltTy.bits .f32 = 32 ∨ (Rect.block (s := S1x1) S1x1.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x1.size a ≤ S1x1.size a
  hwx1_7 : ∀ i : grid1.Coords, EltTy.bits .f32 = 32 ∨ (Rect.block (s := S1x1) S1x1.size (cc1_transform_7 i) (hinb1_7 i)).WholeWords (EltTy.packing .f32)

variable [Facts₀]

def dot_S64x128_S8192x128_S64x8192_1_1_0_0_n_n : DotDims S64x128 S8192x128 S64x8192 where
  lhsContracting := [1]
  rhsContracting := [1]
  lhsNonContracting := [0]
  rhsNonContracting := [0]
  lhsBatch := []
  rhsBatch := []
  wf := dot_S64x128_S8192x128_S64x8192_1_1_0_0_n_n_wf

abbrev win0_0 : Pipeline.Window sig grid0 :=
  Pipeline.Window.ofSpec (Memref.whole main_arg0) S64x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S64x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S8192x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x8192.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5_0) S1x1.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5_1) S1x1.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S64x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1x8192.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S64x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S8192x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1x8192.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5_0) S1x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v5_1) S1x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v6) S1x1.size cc1_transform_7 reads1_7 true true 1 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S8192x1 : Shape := ⟨2, ![8192, 1]⟩
abbrev S8192x128 : Shape := ⟨2, ![8192, 128]⟩
abbrev S_ : Shape := ⟨0, ![]⟩
abbrev S8192 : Shape := ⟨1, ![8192]⟩
abbrev S1x8192 : Shape := ⟨2, ![1, 8192]⟩
abbrev S8192x8192 : Shape := ⟨2, ![8192, 8192]⟩
abbrev S128x8192 : Shape := ⟨2, ![128, 8192]⟩

abbrev nBuf : Space → Nat
  | .hbm => 96
  | .vmem => 0
  | .smem => 0
  | _ => 0

abbrev bufTy : (tb : Table) → Fin (tcTables nBuf tb) → BufTy
  | .hbm, ⟨0, _⟩ => ⟨S8192x1, .f32⟩
  | .hbm, ⟨1, _⟩ => ⟨S8192x128, .f32⟩
  | .hbm, ⟨2, _⟩ => ⟨S8192x1, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S1x8192, .f32⟩
  | .hbm, ⟨7, _⟩ => ⟨S8192x8192, .f32⟩
  | .hbm, ⟨8, _⟩ => ⟨S8192x8192, .f32⟩
  | .hbm, ⟨9, _⟩ => ⟨S8192x8192, .f32⟩
  | .hbm, ⟨10, _⟩ => ⟨S1x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .i1⟩
  | .hbm, ⟨22, _⟩ => ⟨S_, .f32⟩
  | .hbm, ⟨23, _⟩ => ⟨S_, .f32⟩
  | .hbm, ⟨24, _⟩ => ⟨S8192x8192, .f32⟩
  | .hbm, ⟨25, _⟩ => ⟨S8192x8192, .f32⟩
  | .hbm, ⟨26, _⟩ => ⟨S_, .f32⟩
  | .hbm, ⟨27, _⟩ => ⟨S8192x8192, .f32⟩
  | .hbm, ⟨28, _⟩ => ⟨S8192x8192, .i1⟩
  | .hbm, ⟨29, _⟩ => ⟨S8192x8192, .f32⟩
  | .hbm, ⟨30, _⟩ => ⟨S_, .f32⟩
  | .hbm, ⟨31, _⟩ => ⟨S_, .f32⟩
  | .hbm, ⟨32, _⟩ => ⟨S8192x8192, .f32⟩
  | .hbm, ⟨33, _⟩ => ⟨S8192x8192, .f32⟩
  | .hbm, ⟨34, _⟩ => ⟨S8192x128, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S1x8192, .f32⟩
  | .hbm, ⟨39, _⟩ => ⟨S8192x8192, .f32⟩
  | .hbm, ⟨40, _⟩ => ⟨S8192x8192, .f32⟩
  | .hbm, ⟨41, _⟩ => ⟨S8192x8192, .f32⟩
  | .hbm, ⟨42, _⟩ => ⟨S128x8192, .f32⟩
  | .hbm, ⟨43, _⟩ => ⟨S8192x8192, .f32⟩
  | .hbm, ⟨44, _⟩ => ⟨S_, .f32⟩
  | .hbm, ⟨45, _⟩ => ⟨S8192x8192, .f32⟩
  | .hbm, ⟨46, _⟩ => ⟨S8192x8192, .f32⟩
  | .hbm, ⟨47, _⟩ => ⟨S8192x8192, .f32⟩
  | .hbm, ⟨48, _⟩ => ⟨S_, .f32⟩
  | .hbm, ⟨49, _⟩ => ⟨S8192x8192, .f32⟩
  | .hbm, ⟨50, _⟩ => ⟨S8192x8192, .f32⟩
  | .hbm, ⟨51, _⟩ => ⟨S_, .f32⟩
  | .hbm, ⟨52, _⟩ => ⟨S8192x8192, .f32⟩
  | .hbm, ⟨53, _⟩ => ⟨S8192x8192, .i1⟩
  | .hbm, ⟨54, _⟩ => ⟨S_, .f32⟩
  | .hbm, ⟨55, _⟩ => ⟨S_, .f32⟩
  | .hbm, ⟨56, _⟩ => ⟨S8192x8192, .f32⟩
  | .hbm, ⟨57, _⟩ => ⟨S8192x8192, .f32⟩
  | .hbm, ⟨58, _⟩ => ⟨S_, .f32⟩
  | .hbm, ⟨59, _⟩ => ⟨S8192x8192, .f32⟩
  | .hbm, ⟨60, _⟩ => ⟨S8192x8192, .i1⟩
  | .hbm, ⟨61, _⟩ => ⟨S8192x8192, .f32⟩
  | .hbm, ⟨62, _⟩ => ⟨S_, .f32⟩
  | .hbm, ⟨63, _⟩ => ⟨S_, .f32⟩
  | .hbm, ⟨64, _⟩ => ⟨S8192x8192, .f32⟩
  | .hbm, ⟨65, _⟩ => ⟨S8192x8192, .f32⟩
  | .hbm, ⟨66, _⟩ => ⟨S8192x8192, .f32⟩
  | .hbm, ⟨67, _⟩ => ⟨S_, .f32⟩
  | .hbm, ⟨68, _⟩ => ⟨S8192x8192, .f32⟩
  | .hbm, ⟨69, _⟩ => ⟨S8192x8192, .f32⟩
  | .hbm, ⟨70, _⟩ => ⟨S8192x8192, .f32⟩
  | .hbm, ⟨71, _⟩ => ⟨S8192x8192, .f32⟩
  | .hbm, ⟨72, _⟩ => ⟨S_, .f32⟩
  | .hbm, ⟨73, _⟩ => ⟨S8192x8192, .f32⟩
  | .hbm, ⟨74, _⟩ => ⟨S8192x8192, .f32⟩
  | .hbm, ⟨75, _⟩ => ⟨S8192x8192, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S8192x8192, .f32⟩
  | .hbm, ⟨81, _⟩ => ⟨S8192x8192, .f32⟩
  | .hbm, ⟨82, _⟩ => ⟨S_, .f32⟩
  | .hbm, ⟨83, _⟩ => ⟨S8192x8192, .f32⟩
  | .hbm, ⟨84, _⟩ => ⟨S8192x8192, .f32⟩
  | .hbm, ⟨85, _⟩ => ⟨S8192x8192, .f32⟩
  | .hbm, ⟨86, _⟩ => ⟨S8192x8192, .f32⟩
  | .hbm, ⟨87, _⟩ => ⟨S_, .f32⟩
  | .hbm, ⟨88, _⟩ => ⟨S8192x8192, .f32⟩
  | .hbm, ⟨89, _⟩ => ⟨S8192x8192, .f32⟩
  | .hbm, ⟨90, _⟩ => ⟨S8192x8192, .f32⟩
  | .hbm, ⟨91, _⟩ => ⟨S8192x8192, .f32⟩
  | .hbm, ⟨92, _⟩ => ⟨S8192x8192, .f32⟩
  | .hbm, ⟨93, _⟩ => ⟨S8192x8192, .f32⟩
  | .hbm, ⟨94, _⟩ => ⟨S_, .f32⟩
  | .hbm, ⟨95, _⟩ => ⟨S_, .f32⟩
  | _, _ => ⟨S8192x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_call0_v0 : Ref sig .tc := ⟨.hbm, 23, rfl⟩
abbrev main_call0_v1 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_call1_v0 : Ref sig .tc := ⟨.hbm, 31, rfl⟩
abbrev main_call1_v1 : Ref sig .tc := ⟨.hbm, 32, rfl⟩
abbrev main_v20 : Ref sig .tc := ⟨.hbm, 33, rfl⟩
abbrev main_v21 : Ref sig .tc := ⟨.hbm, 34, rfl⟩
abbrev main_cst_6 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_7 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_8 : Ref sig .tc := ⟨.hbm, 48, rfl⟩
abbrev main_v33 : Ref sig .tc := ⟨.hbm, 49, rfl⟩
abbrev main_v34 : Ref sig .tc := ⟨.hbm, 50, rfl⟩
abbrev main_cst_9 : Ref sig .tc := ⟨.hbm, 51, rfl⟩
abbrev main_v35 : Ref sig .tc := ⟨.hbm, 52, rfl⟩
abbrev main_v36 : Ref sig .tc := ⟨.hbm, 53, rfl⟩
abbrev main_cst_10 : Ref sig .tc := ⟨.hbm, 54, rfl⟩
abbrev main_call2_v0 : Ref sig .tc := ⟨.hbm, 55, rfl⟩
abbrev main_call2_v1 : Ref sig .tc := ⟨.hbm, 56, rfl⟩
abbrev main_v37 : Ref sig .tc := ⟨.hbm, 57, rfl⟩
abbrev main_cst_11 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_12 : Ref sig .tc := ⟨.hbm, 62, rfl⟩
abbrev main_call3_v0 : Ref sig .tc := ⟨.hbm, 63, rfl⟩
abbrev main_call3_v1 : Ref sig .tc := ⟨.hbm, 64, rfl⟩
abbrev main_v41 : Ref sig .tc := ⟨.hbm, 65, rfl⟩
abbrev main_v42 : Ref sig .tc := ⟨.hbm, 66, rfl⟩
abbrev main_cst_13 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_14 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_15 : Ref sig .tc := ⟨.hbm, 76, rfl⟩
abbrev main_v50 : Ref sig .tc := ⟨.hbm, 77, rfl⟩
abbrev main_cst_16 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_17 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_18 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_19 : Ref sig .tc := ⟨.hbm, 94, rfl⟩
abbrev main_v64 : Ref sig .tc := ⟨.hbm, 95, rfl⟩

abbrev nD : Nat := 1
abbrev τ : Topo := Topo.v7x

variable {F : FTy → Type} [FloatOps F]

class Facts₀ : Prop where
  reducesTo_S8192x1_S8192_d1 : S8192x1.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x1_S1x8192_1_0 : S8192x1.Transposes [1, 0] S1x8192
  bcast_S_S8192x8192 : S_.BroadcastsInDim S8192x8192 (![] : Fin 0 → Fin S8192x8192.rank)
  reducesTo_S8192x128_S8192_d1 : S8192x128.ReducesTo [1] S8192
  transposes_S8192x128_S128x8192_1_0 : S8192x128.Transposes [1, 0] S128x8192
  reducesTo_S8192x8192_S_d0_1 : S8192x8192.ReducesTo [0, 1] S_
  dot_S8192x1_S1x8192_S8192x8192_1_0_0_1_n_n_wf : DotDims.WF S8192x1 S1x8192 S8192x8192 [1] [0] [0] [1] [] []
  dot_S8192x128_S128x8192_S8192x8192_1_0_0_1_n_n_wf : DotDims.WF S8192x128 S128x8192 S8192x8192 [1] [0] [0] [1] [] []

variable [Facts₀]

def dot_S8192x1_S1x8192_S8192x8192_1_0_0_1_n_n : DotDims S8192x1 S1x8192 S8192x8192 where
  lhsContracting := [1]
  rhsContracting := [0]
  lhsNonContracting := [0]
  rhsNonContracting := [1]
  lhsBatch := []
  rhsBatch := []
  wf := dot_S8192x1_S1x8192_S8192x8192_1_0_0_1_n_n_wf
def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.K.Data.lean ====
/-
  The proof data of the two pipelined regions, stated once for any float instance.

  Region 0 (the partial sums) visits 128 row tiles.  At tile t it reads rows 64t … 64t+63 of y and of l (windows 0 and 2),
  the whole row vector of y, the whole of l and the whole row vector of the squared norms (windows 1, 3, 4), and adds
  the tile's two sums of exponentials to two one-entry scratch cells, which it copies to the two one-entry outputs
  (windows 5 and 6).  What the cells hold after t tiles is a fold over the tiles (`accY0`, `accL0`), started from
  the zero the first tile stores.  Region 1 (the divergence) is the same walk with one cell (`acc1`), its tile term
  reading the two normalisers region 0 left (windows 5 and 6) besides.

  Windows 2 and 3 of either region read the same array (l): each holds one half of its share.
-/
import proofs.«122636_j18751827214982_1_alg».proof.Proof.Gen.Kernel.Launch
import proofs.«122636_j18751827214982_1_alg».proof.Proof.Gen.Kernel.Skeleton
import proofs.«122636_j18751827214982_1_alg».proof.Proof.Gen.Kernel.Points
import Idealize.ShloMosaic.Lib.Pipeline.FrameBody
import Idealize.ShloMosaic.Lib.Pipeline.Frame
import Idealize.ShloMosaic.Lib.Pipeline.Kit
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the contents of the TensorCore's buffers when a region is entered: the parameter both regions are stated at
variable (V : (c : Dev nD) → (b : Ref sig .tc) → Buf (Elt F) ((c : Thread nD τ).loc b))

/-! ## Region 0 -/

/-- Window `w`'s block at tile `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- One tile's update of the first cell: the cell plus the sum over the tile's 64 × 8192 pairs of exp(−|y_i − y_j|). -/
def stepY0 (x0 : Vec F S64x1 .f32) (x1 : Vec F S1x8192 .f32) (s : Vec F S1x1 .f32) : Vec F S1x1 .f32 :=
  k0_pay7 (k0_pay5 x0 x1) s

/-- One tile's update of the second cell: the cell plus the sum over the tile's pairs of exp(−‖l_i − l_j‖). -/
def stepL0 (x2 : Vec F S64x128 .f32) (x3 : Vec F S8192x128 .f32) (x4 : Vec F S1x8192 .f32) (s : Vec F S1x1 .f32) : Vec F S1x1 .f32 :=
  k0_pay1 s (k0_pay8 x2 x3 (k0_pay4 x4) (k0_pay6 x2))

/-- The first cell after `n` tiles: zero, then one update per tile. -/
def accY0 (c : Dev nD) : ℕ → Vec F S1x1 .f32
  | 0 => k0_pay2
  | n + 1 => if h : n < cfg0.N then stepY0 (iblk0 V c 0 ⟨n, h⟩) (iblk0 V c 1 ⟨n, h⟩) (accY0 c n) else accY0 c n

/-- The second cell after `n` tiles. -/
def accL0 (c : Dev nD) : ℕ → Vec F S1x1 .f32
  | 0 => k0_pay3
  | n + 1 => if h : n < cfg0.N then stepL0 (iblk0 V c 2 ⟨n, h⟩) (iblk0 V c 3 ⟨n, h⟩) (iblk0 V c 4 ⟨n, h⟩) (accL0 c n) else accL0 c n

theorem accY0_succ (c : Dev nD) (t : Fin cfg0.N) :
    accY0 V c (t.val + 1) = stepY0 (iblk0 V c 0 t) (iblk0 V c 1 t) (accY0 V c t.val) := by
  rw [accY0, dif_pos t.isLt]
theorem accL0_succ (c : Dev nD) (t : Fin cfg0.N) :
    accL0 V c (t.val + 1) = stepL0 (iblk0 V c 2 t) (iblk0 V c 3 t) (iblk0 V c 4 t) (accL0 V c t.val) := by
  rw [accL0, dif_pos t.isLt]

/-- The two scratch cells of region 0, as whole memrefs. -/
abbrev sc0_0 : Memref sig .tc .vmem S1x1 .f32 := Memref.whole cc0_scratch0
abbrev sc0_1 : Memref sig .tc .vmem S1x1 .f32 := Memref.whole cc0_scratch1

/-- The core's scoped buffers that region 0 never touches (the other region's staging buffers and scratch). -/
abbrev rest0 (c : Dev nD) : sProp 𝕄 :=
  Pipeline.scopedRestBut (Ix := Unit) (Name := ℕ) (U := UR sig nD τ) (Lvl := ℕ) (Val := Elt F) spec0 c [cc0_scratch0, cc0_scratch1]

/-- The region's invariant before tile `n`: at the start every scratch cell holds anything; after `n ≥ 1` tiles the two
    cells hold the folds. -/
def PhiS0 (c : Dev nD) : ℕ → sProp 𝕄
  | 0 => Pipeline.ΦA spec0 c
  | n + 1 => iprop(owns (c : Thread nD τ) sc0_0 fullShare (accY0 V c (n + 1)) ∗ owns (c : Thread nD τ) sc0_1 fullShare (accL0 V c (n + 1))
      ∗ rest0 c ∗ ∃ r, prngReg c r)

/-- The shares of the windows' arrays: windows 2 and 3 read one array, a half each. -/
def q0 (w : Fin cfg0.W) : PosShare TreeShare :=
  match w with
  | ⟨0, _⟩ => fullShare
  | ⟨1, _⟩ => fullShare
  | ⟨2, _⟩ => fullShare.left
  | ⟨3, _⟩ => fullShare.right
  | ⟨4, _⟩ => fullShare
  | ⟨5, _⟩ => fullShare
  | ⟨6, _⟩ => fullShare

/-- Region 0's proof data on core `c`: every input's staging buffer holds its block after the body as before it; the
    two outputs' hold the folds after this tile; the invariant carries the cells; nothing is owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => accY0 V c (t.val + 1)
    | ⟨6, _⟩ => accL0 V c (t.val + 1)
  Φ j := PhiS0 V c j.val
  q := q0
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = accY0 V c (t.val + 1) := by dsimp only [dat0]
theorem after0_6 (c : Dev nD) (t : Fin cfg0.N) : (dat0 V c).after 6 t = accL0 V c (t.val + 1) := by dsimp only [dat0]
theorem Phi0_eq (c : Dev nD) (j : Fin (cfg0.N + 1)) : (dat0 V c).Φ j = PhiS0 V c j.val := by dsimp only [dat0]
theorem owed0 (c : Dev nD) (j : Fin (cfg0.N + 1)) : (dat0 V c).owed j = 0 := by dsimp only [dat0]

/-! ## Region 1 -/

/-- Window `w`'s block at tile `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- One tile's update of the cell: the cell plus the sum over the tile's pairs of p·(log p − log q), the two
    normalisers read from windows 5 and 6. -/
def step1 (x0 : Vec F S64x1 .f32) (x1 : Vec F S1x8192 .f32) (x2 : Vec F S64x128 .f32) (x3 : Vec F S8192x128 .f32)
    (x4 : Vec F S1x8192 .f32) (x5 : Vec F S1x1 .f32) (x6 : Vec F S1x1 .f32) (s : Vec F S1x1 .f32) : Vec F S1x1 .f32 :=
  k1_pay1 (k1_pay6 x2 x3 (k1_pay3 x4) (k1_pay4 x0 x1) (k1_pay5 x2) x5 x6) s

/-- The cell after `n` tiles. -/
def acc1 (c : Dev nD) : ℕ → Vec F S1x1 .f32
  | 0 => k1_pay2
  | n + 1 => if h : n < cfg1.N then step1 (iblk1 V c 0 ⟨n, h⟩) (iblk1 V c 1 ⟨n, h⟩) (iblk1 V c 2 ⟨n, h⟩) (iblk1 V c 3 ⟨n, h⟩)
      (iblk1 V c 4 ⟨n, h⟩) (iblk1 V c 5 ⟨n, h⟩) (iblk1 V c 6 ⟨n, h⟩) (acc1 c n) else acc1 c n

theorem acc1_succ (c : Dev nD) (t : Fin cfg1.N) :
    acc1 V c (t.val + 1) = step1 (iblk1 V c 0 t) (iblk1 V c 1 t) (iblk1 V c 2 t) (iblk1 V c 3 t) (iblk1 V c 4 t) (iblk1 V c 5 t)
      (iblk1 V c 6 t) (acc1 V c t.val) := by
  rw [acc1, dif_pos t.isLt]

/-- Region 1's scratch cell, as a whole memref. -/
abbrev sc1_0 : Memref sig .tc .vmem S1x1 .f32 := Memref.whole cc1_scratch0

/-- The core's scoped buffers that region 1 never touches. -/
abbrev rest1 (c : Dev nD) : sProp 𝕄 :=
  Pipeline.scopedRestBut (Ix := Unit) (Name := ℕ) (U := UR sig nD τ) (Lvl := ℕ) (Val := Elt F) spec1 c [cc1_scratch0]

def PhiS1 (c : Dev nD) : ℕ → sProp 𝕄
  | 0 => Pipeline.ΦA spec1 c
  | n + 1 => iprop(owns (c : Thread nD τ) sc1_0 fullShare (acc1 V c (n + 1)) ∗ rest1 c ∗ ∃ r, prngReg c r)

def q1 (w : Fin cfg1.W) : PosShare TreeShare :=
  match w with
  | ⟨0, _⟩ => fullShare
  | ⟨1, _⟩ => fullShare
  | ⟨2, _⟩ => fullShare.left
  | ⟨3, _⟩ => fullShare.right
  | ⟨4, _⟩ => fullShare
  | ⟨5, _⟩ => fullShare
  | ⟨6, _⟩ => fullShare
  | ⟨7, _⟩ => fullShare

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => acc1 V c (t.val + 1)
  Φ j := PhiS1 V c j.val
  q := q1
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = acc1 V c (t.val + 1) := by dsimp only [dat1]
theorem Phi1_eq (c : Dev nD) (j : Fin (cfg1.N + 1)) : (dat1 V c).Φ j = PhiS1 V c j.val := by dsimp only [dat1]
theorem owed1 (c : Dev nD) (j : Fin (cfg1.N + 1)) : (dat1 V c).owed j = 0 := by dsimp only [dat1]

end Cert.Kernel.Hand

end
-- ==== Proof.K.Run.lean ====
/-
  The two pipelined regions as segments of the program's run, and the run itself.

  Between the items of the program (host operations, region 0, region 1, host operations) a core holds every unscoped
  buffer whole at a known valuation: the launch memory, then the host operations' results, then what a region leaves in
  its output arrays.  A region takes out of these buffers its windows' arrays — the array l stands behind two windows,
  and its one buffer is dealt to them a half each —, runs, and puts them back with its outputs at what the last tile
  wrote.  From the last valuation every buffer of the final memory is read.
-/
import proofs.«122636_j18751827214982_1_alg».proof.Proof.K.Data
import proofs.«122636_j18751827214982_1_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The arrays of a region, one by one -/

section Arrays

variable (V : (c : Dev nD) → (b : Ref sig .tc) → Buf (Elt F) ((c : Thread nD τ).loc b))

theorem share0_0 (c : Dev nD) : (dat0 V c).share 0 = fullShare := rfl
theorem share0_1 (c : Dev nD) : (dat0 V c).share 1 = fullShare := rfl
theorem share0_2 (c : Dev nD) : (dat0 V c).share 2 = fullShare.left := rfl
theorem share0_3 (c : Dev nD) : (dat0 V c).share 3 = fullShare.right := rfl
theorem share0_4 (c : Dev nD) : (dat0 V c).share 4 = fullShare := rfl
theorem share0_5 (c : Dev nD) : (dat0 V c).share 5 = fullShare := rfl
theorem share0_6 (c : Dev nD) : (dat0 V c).share 6 = fullShare := rfl

theorem set0 (w : Fin cfg0.W) : (cfg0.win w).arr.view.set = Finset.univ := (arr_whole0 w).set_eq_univ

/-- Region 0's arrays one by one: the array l is behind windows 2 and 3, a half each. -/
theorem arrays0_eq (c : Dev nD) (Fn : (w : Fin cfg0.W) → Buf (Elt F) ((cfg0.win w).arr.view.loc (c : Thread nD τ))) :
    (dat0 V c).arrays Fn = (iprop((((c : Thread nD τ).loc main_arg0) ↦{fullShare} Fn 0) ∗ (((c : Thread nD τ).loc main_v0) ↦{fullShare} Fn 1)
      ∗ (((c : Thread nD τ).loc main_arg1) ↦{fullShare.left} Fn 2) ∗ (((c : Thread nD τ).loc main_arg1) ↦{fullShare.right} Fn 3)
      ∗ (((c : Thread nD τ).loc main_v4) ↦{fullShare} Fn 4) ∗ (((c : Thread nD τ).loc main_v5_0) ↦{fullShare} Fn 5)
      ∗ (((c : Thread nD τ).loc main_v5_1) ↦{fullShare} Fn 6)) : sProp 𝕄) := by
  unfold Dat.arrays
  rw [bigSep_W0, set0 0, set0 1, set0 2, set0 4, set0 5, set0 6, share0_0, share0_1, share0_2, share0_3, share0_4, share0_5, share0_6]

/-- The buffers behind region 0's arrays, one by one. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_v0) ↦{fullShare} W main_v0)
        ∗ (((c : Thread nD τ).loc main_arg1) ↦{fullShare} W main_arg1) ∗ (((c : Thread nD τ).loc main_v4) ↦{fullShare} W main_v4)
        ∗ (((c : Thread nD τ).loc main_v5_0) ↦{fullShare} W main_v5_0) ∗ (((c : Thread nD τ).loc main_v5_1) ↦{fullShare} W main_v5_1)) := by
  unfold Pipeline.arrBufs
  exact bigSep_eq_bigSepL_of_eq [main_arg0, main_v0, main_arg1, main_v4, main_v5_0, main_v5_1] (by decide) (by decide) _

theorem share1_0 (c : Dev nD) : (dat1 V c).share 0 = fullShare := rfl
theorem share1_1 (c : Dev nD) : (dat1 V c).share 1 = fullShare := rfl
theorem share1_2 (c : Dev nD) : (dat1 V c).share 2 = fullShare.left := rfl
theorem share1_3 (c : Dev nD) : (dat1 V c).share 3 = fullShare.right := rfl
theorem share1_4 (c : Dev nD) : (dat1 V c).share 4 = fullShare := rfl
theorem share1_5 (c : Dev nD) : (dat1 V c).share 5 = fullShare := rfl
theorem share1_6 (c : Dev nD) : (dat1 V c).share 6 = fullShare := rfl
theorem share1_7 (c : Dev nD) : (dat1 V c).share 7 = fullShare := rfl

theorem set1 (w : Fin cfg1.W) : (cfg1.win w).arr.view.set = Finset.univ := (arr_whole1 w).set_eq_univ

/-- Region 1's arrays one by one. -/
theorem arrays1_eq (c : Dev nD) (Fn : (w : Fin cfg1.W) → Buf (Elt F) ((cfg1.win w).arr.view.loc (c : Thread nD τ))) :
    (dat1 V c).arrays Fn = (iprop((((c : Thread nD τ).loc main_arg0) ↦{fullShare} Fn 0) ∗ (((c : Thread nD τ).loc main_v0) ↦{fullShare} Fn 1)
      ∗ (((c : Thread nD τ).loc main_arg1) ↦{fullShare.left} Fn 2) ∗ (((c : Thread nD τ).loc main_arg1) ↦{fullShare.right} Fn 3)
      ∗ (((c : Thread nD τ).loc main_v4) ↦{fullShare} Fn 4) ∗ (((c : Thread nD τ).loc main_v5_0) ↦{fullShare} Fn 5)
      ∗ (((c : Thread nD τ).loc main_v5_1) ↦{fullShare} Fn 6) ∗ (((c : Thread nD τ).loc main_v6) ↦{fullShare} Fn 7)) : sProp 𝕄) := by
  unfold Dat.arrays
  rw [bigSep_W1, set1 0, set1 1, set1 2, set1 4, set1 5, set1 6, set1 7, share1_0, share1_1, share1_2, share1_3, share1_4, share1_5, share1_6, share1_7]

/-- The buffers behind region 1's arrays, one by one. -/
theorem arrBufs1_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_arg0) ↦{fullShare} W main_arg0) ∗ (((c : Thread nD τ).loc main_v0) ↦{fullShare} W main_v0)
        ∗ (((c : Thread nD τ).loc main_arg1) ↦{fullShare} W main_arg1) ∗ (((c : Thread nD τ).loc main_v4) ↦{fullShare} W main_v4)
        ∗ (((c : Thread nD τ).loc main_v5_0) ↦{fullShare} W main_v5_0) ∗ (((c : Thread nD τ).loc main_v5_1) ↦{fullShare} W main_v5_1)
        ∗ (((c : Thread nD τ).loc main_v6) ↦{fullShare} W main_v6)) := by
  unfold Pipeline.arrBufs
  exact bigSep_eq_bigSepL_of_eq [main_arg0, main_v0, main_arg1, main_v4, main_v5_0, main_v5_1, main_v6] (by decide) (by decide) _

/-- A buffer held whole is its two halves, and back. -/
theorem halves (ℓ : Loc nD τ sig) (f : Buf (Elt F) ℓ) :
    ((ℓ ↦{fullShare} f) : sProp 𝕄) ⊣⊢ iprop((ℓ ↦{fullShare.left} f) ∗ ℓ ↦{fullShare.right} f) :=
  pointsTo_share (PosShare.mem_left_op_right fullShare)

/-- ENTRY of region 0: the buffers behind its arrays, at the contents the region is entered with, are its arrays. -/
theorem split0 (c : Dev nD) :
    (Pipeline.arrBufs (Ix := Unit) (Name := ℕ) (U := UR sig nD τ) (Lvl := ℕ) spec0 c (V c) : sProp 𝕄)
      ⊢ (dat0 V c).arrays ((dat0 V c).arrAt · 0) := by
  rw [arrBufs0_eq, arrays0_eq]
  iintro ⟨H0, H1, H2, H4, H5, H6⟩
  ihave H23 := (halves _ _).1 $$ H2
  icases H23 with ⟨H2, H3⟩
  isplitl [H0]; · iexact H0
  isplitl [H1]; · iexact H1
  isplitl [H2]; · iexact H2
  isplitl [H3]; · iexact H3
  isplitl [H4]; · iexact H4
  isplitl [H5]; · iexact H5
  iexact H6

/-- EXIT of region 0: its arrays after the last tile are the buffers behind them at any contents that keep the inputs
    and hold the two outputs' last write-back. -/
theorem join0 (V : (c : Dev nD) → (b : Ref sig .tc) → Buf (Elt F) ((c : Thread nD τ).loc b)) (c : Dev nD)
    (W' : (b : Ref sig .tc) → Buf (Elt F) ((c : Thread nD τ).loc b))
    (h0 : W' main_arg0 = V c main_arg0) (h1 : W' main_v0 = V c main_v0) (h2 : W' main_arg1 = V c main_arg1) (h4 : W' main_v4 = V c main_v4)
    (h5 : W' main_v5_0 = (dat0 V c).arrAt 5 cfg0.N) (h6 : W' main_v5_1 = (dat0 V c).arrAt 6 cfg0.N) :
    (dat0 V c).arrays ((dat0 V c).arrAt · cfg0.N)
      ⊢ (Pipeline.arrBufs (Ix := Unit) (Name := ℕ) (U := UR sig nD τ) (Lvl := ℕ) spec0 c W' : sProp 𝕄) := by
  have e0 : (dat0 V c).arrAt 0 cfg0.N = W' main_arg0 := ((dat0 V c).arrAt_in 0 rfl _).trans ((A_eq0 V c 0).trans h0.symm)
  have e1 : (dat0 V c).arrAt 1 cfg0.N = W' main_v0 := ((dat0 V c).arrAt_in 1 rfl _).trans ((A_eq0 V c 1).trans h1.symm)
  have e2 : (dat0 V c).arrAt 2 cfg0.N = W' main_arg1 := ((dat0 V c).arrAt_in 2 rfl _).trans ((A_eq0 V c 2).trans h2.symm)
  have e3 : (dat0 V c).arrAt 3 cfg0.N = W' main_arg1 := ((dat0 V c).arrAt_in 3 rfl _).trans ((A_eq0 V c 3).trans h2.symm)
  have e4 : (dat0 V c).arrAt 4 cfg0.N = W' main_v4 := ((dat0 V c).arrAt_in 4 rfl _).trans ((A_eq0 V c 4).trans h4.symm)
  rw [arrBufs0_eq, arrays0_eq, e0, e1, e2, e3, e4, ← h5, ← h6]
  iintro ⟨H0, H1, H2, H3, H4, H5, H6⟩
  isplitl [H0]; · iexact H0
  isplitl [H1]; · iexact H1
  isplitl [H2 H3]
  · iapply (halves _ _).2; isplitl [H2]; · iexact H2
    iexact H3
  isplitl [H4]; · iexact H4
  isplitl [H5]; · iexact H5
  iexact H6

/-- ENTRY of region 1: the buffers behind its arrays, at the contents the region is entered with, are its arrays. -/
theorem split1 (V : (c : Dev nD) → (b : Ref sig .tc) → Buf (Elt F) ((c : Thread nD τ).loc b)) (c : Dev nD) :
    (Pipeline.arrBufs (Ix := Unit) (Name := ℕ) (U := UR sig nD τ) (Lvl := ℕ) spec1 c (V c) : sProp 𝕄)
      ⊢ (dat1 V c).arrays ((dat1 V c).arrAt · 0) := by
  rw [arrBufs1_eq, arrays1_eq]
  iintro ⟨H0, H1, H2, H4, H5, H6, H7⟩
  ihave H23 := (halves _ _).1 $$ H2
  icases H23 with ⟨H2, H3⟩
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- EXIT of region 1: its arrays after the last tile are the buffers behind them at any contents that keep the inputs
    and hold the output's last write-back. -/
theorem join1 (V : (c : Dev nD) → (b : Ref sig .tc) → Buf (Elt F) ((c : Thread nD τ).loc b)) (c : Dev nD)
    (W' : (b : Ref sig .tc) → Buf (Elt F) ((c : Thread nD τ).loc b))
    (h0 : W' main_arg0 = V c main_arg0) (h1 : W' main_v0 = V c main_v0) (h2 : W' main_arg1 = V c main_arg1) (h4 : W' main_v4 = V c main_v4)
    (h5 : W' main_v5_0 = V c main_v5_0) (h6 : W' main_v5_1 = V c main_v5_1)
    (h7 : W' main_v6 = (dat1 V c).arrAt 7 cfg1.N) :
    (dat1 V c).arrays ((dat1 V c).arrAt · cfg1.N)
      ⊢ (Pipeline.arrBufs (Ix := Unit) (Name := ℕ) (U := UR sig nD τ) (Lvl := ℕ) spec1 c W' : sProp 𝕄) := by
  have e0 : (dat1 V c).arrAt 0 cfg1.N = W' main_arg0 := ((dat1 V c).arrAt_in 0 rfl _).trans ((A_eq1 V c 0).trans h0.symm)
  have e1 : (dat1 V c).arrAt 1 cfg1.N = W' main_v0 := ((dat1 V c).arrAt_in 1 rfl _).trans ((A_eq1 V c 1).trans h1.symm)
  have e2 : (dat1 V c).arrAt 2 cfg1.N = W' main_arg1 := ((dat1 V c).arrAt_in 2 rfl _).trans ((A_eq1 V c 2).trans h2.symm)
  have e3 : (dat1 V c).arrAt 3 cfg1.N = W' main_arg1 := ((dat1 V c).arrAt_in 3 rfl _).trans ((A_eq1 V c 3).trans h2.symm)
  have e4 : (dat1 V c).arrAt 4 cfg1.N = W' main_v4 := ((dat1 V c).arrAt_in 4 rfl _).trans ((A_eq1 V c 4).trans h4.symm)
  have e5 : (dat1 V c).arrAt 5 cfg1.N = W' main_v5_0 := ((dat1 V c).arrAt_in 5 rfl _).trans ((A_eq1 V c 5).trans h5.symm)
  have e6 : (dat1 V c).arrAt 6 cfg1.N = W' main_v5_1 := ((dat1 V c).arrAt_in 6 rfl _).trans ((A_eq1 V c 6).trans h6.symm)
  rw [arrBufs1_eq, arrays1_eq, e0, e1, e2, e3, e4, e5, e6, ← h7]
  iintro ⟨H0, H1, H2, H3, H4, H5, H6, H7⟩
  isplitl [H0]; · iexact H0
  isplitl [H1]; · iexact H1
  isplitl [H2 H3]
  · iapply (halves _ _).2; isplitl [H2]; · iexact H2
    iexact H3
  isplitl [H4]; · iexact H4
  isplitl [H5]; · iexact H5
  isplitl [H6]; · iexact H6
  iexact H7

end Arrays

/-! ## The buffers' contents between the program's items -/

section Run

variable (m : (ℓ : Loc nD τ sig) → Buf (Elt F) ℓ)

/-- Core `c`'s buffers at launch. -/
abbrev W0 (c : Dev nD) : Valuation τ sig (Elt F) := fun b => m (c, b)
/-- After the host operations before region 0 (y as a row vector; the squared norms of l's rows as a row vector). -/
abbrev W1 (c : Dev nD) : Valuation τ sig (Elt F) := StableHlo.after hostOps0 (W0 m c)
/-- The same read at the TensorCore's references: what region 0 is entered with. -/
abbrev VR1 : (c : Dev nD) → (b : Ref sig .tc) → Buf (Elt F) ((c : Thread nD τ).loc b) := fun c b => W1 m c b
/-- After region 0: its two output arrays at what its last tile wrote back, every other buffer as entered. -/
def W2 (c : Dev nD) : Valuation τ sig (Elt F) :=
  Function.update (Function.update (W1 m c) main_v5_0 ((dat0 (VR1 m) c).arrAt 5 cfg0.N)) main_v5_1 ((dat0 (VR1 m) c).arrAt 6 cfg0.N)
/-- The same read at the TensorCore's references: what region 1 is entered with. -/
abbrev VR2 : (c : Dev nD) → (b : Ref sig .tc) → Buf (Elt F) ((c : Thread nD τ).loc b) := fun c b => W2 m c b
/-- After region 1: its output array at what its last tile wrote back. -/
def W3 (c : Dev nD) : Valuation τ sig (Elt F) :=
  Function.update (W2 m c) main_v6 ((dat1 (VR2 m) c).arrAt 7 cfg1.N)
/-- The same read at the TensorCore's references. -/
abbrev VR3 : (c : Dev nD) → (b : Ref sig .tc) → Buf (Elt F) ((c : Thread nD τ).loc b) := fun c b => W3 m c b
/-- After the last host operation (the result as a scalar). -/
abbrev W4 (c : Dev nD) : Valuation τ sig (Elt F) := StableHlo.after hostOps2 (W3 m c)

theorem W2_v5_0 (c : Dev nD) : W2 m c main_v5_0 = (dat0 (VR1 m) c).arrAt 5 cfg0.N := by
  unfold W2
  rw [Function.update_of_ne (StableHlo.devRef_ne_of_ne (by decide) : (Proc.devRef .tc main_v5_0 : DevRef τ sig) ≠ Proc.devRef .tc main_v5_1), Function.update_self]
theorem W2_v5_1 (c : Dev nD) : W2 m c main_v5_1 = (dat0 (VR1 m) c).arrAt 6 cfg0.N := by
  unfold W2; rw [Function.update_self]
theorem W2_of (c : Dev nD) (r : Ref sig .tc) (h : r ∉ ([main_v5_0, main_v5_1] : List (Ref sig .tc))) : W2 m c r = W1 m c r := by
  unfold W2
  rw [Function.update_of_ne (StableHlo.devRef_ne_of_ne (List.ne_of_not_mem_cons (List.not_mem_of_not_mem_cons h)) : (Proc.devRef .tc r : DevRef τ sig) ≠ Proc.devRef .tc main_v5_1),
    Function.update_of_ne (StableHlo.devRef_ne_of_ne (List.ne_of_not_mem_cons h) : (Proc.devRef .tc r : DevRef τ sig) ≠ Proc.devRef .tc main_v5_0)]
theorem W3_v6 (c : Dev nD) : W3 m c main_v6 = (dat1 (VR2 m) c).arrAt 7 cfg1.N := by
  unfold W3; rw [Function.update_self]
theorem W3_of (c : Dev nD) (r : Ref sig .tc) (h : r ∉ ([main_v6] : List (Ref sig .tc))) : W3 m c r = W2 m c r := by
  unfold W3
  rw [Function.update_of_ne (StableHlo.devRef_ne_of_ne (List.ne_of_not_mem_cons h) : (Proc.devRef .tc r : DevRef τ sig) ≠ Proc.devRef .tc main_v6)]

theorem VR2_of (c : Dev nD) (r : Ref sig .tc) (h : r ∉ ([main_v5_0, main_v5_1] : List (Ref sig .tc))) : VR2 m c r = VR1 m c r := W2_of m c r h
theorem VR3_of (c : Dev nD) (r : Ref sig .tc) (h : r ∉ ([main_v6] : List (Ref sig .tc))) : VR3 m c r = VR2 m c r := W3_of m c r h

/-- The unscoped buffers that are no array of region 0 are the same before and after it. -/
theorem rest0_keep (c : Dev nD) :
    (Pipeline.unscopedRest (Ix := Unit) (Name := ℕ) (U := UR sig nD τ) (Lvl := ℕ) spec0 c (VR2 m c) : sProp 𝕄)
      = Pipeline.unscopedRest (Ix := Unit) (Name := ℕ) (U := UR sig nD τ) (Lvl := ℕ) spec0 c (VR1 m c) := by
  rw [unscopedRest0_eq, unscopedRest0_eq]
  rw [VR2_of m c main_v1 (by decide), VR2_of m c main_cst (by decide), VR2_of m c main_v2 (by decide), VR2_of m c main_v3 (by decide),
    VR2_of m c main_v6 (by decide), VR2_of m c main_v7 (by decide)]

/-- The unscoped buffers that are no array of region 1 are the same before and after it. -/
theorem rest1_keep (c : Dev nD) :
    (Pipeline.unscopedRest (Ix := Unit) (Name := ℕ) (U := UR sig nD τ) (Lvl := ℕ) spec1 c (VR3 m c) : sProp 𝕄)
      = Pipeline.unscopedRest (Ix := Unit) (Name := ℕ) (U := UR sig nD τ) (Lvl := ℕ) spec1 c (VR2 m c) := by
  rw [unscopedRest1_eq, unscopedRest1_eq]
  rw [VR3_of m c main_v1 (by decide), VR3_of m c main_cst (by decide), VR3_of m c main_v2 (by decide), VR3_of m c main_v3 (by decide),
    VR3_of m c main_v7 (by decide)]

/-- EXIT of region 0, whole: its arrays after the last tile beside the buffers it bypassed are every unscoped buffer at
    the valuation after the region. -/
theorem exit0 (c : Dev nD) :
    iprop((dat0 (VR1 m) c).arrays ((dat0 (VR1 m) c).arrAt · cfg0.N)
        ∗ Pipeline.unscopedRest (Ix := Unit) (Name := ℕ) (U := UR sig nD τ) (Lvl := ℕ) spec0 c (VR1 m c))
      ⊢ (StableHlo.held (c : Thread nD τ) (Pipeline.ucRefs τ sig) (W2 m c) : sProp 𝕄) := by
  rw [← Pipeline.unscopedBufs_held c (W2 m c), Pipeline.unscopedBufs_split₀ cfgs 0 winFacts₀0.arr_unscoped c (VR2 m c)]
  show _ ⊢ iprop(Pipeline.arrBufs spec0 c (VR2 m c) ∗ Pipeline.unscopedRest spec0 c (VR2 m c))
  rw [rest0_keep]
  exact sep_mono (join0 (VR1 m) c (VR2 m c) (W2_of m c main_arg0 (by decide)) (W2_of m c main_v0 (by decide)) (W2_of m c main_arg1 (by decide))
    (W2_of m c main_v4 (by decide)) (W2_v5_0 m c) (W2_v5_1 m c)) .rfl

/-- EXIT of region 1, whole. -/
theorem exit1 (c : Dev nD) :
    iprop((dat1 (VR2 m) c).arrays ((dat1 (VR2 m) c).arrAt · cfg1.N)
        ∗ Pipeline.unscopedRest (Ix := Unit) (Name := ℕ) (U := UR sig nD τ) (Lvl := ℕ) spec1 c (VR2 m c))
      ⊢ (StableHlo.held (c : Thread nD τ) (Pipeline.ucRefs τ sig) (W3 m c) : sProp 𝕄) := by
  rw [← Pipeline.unscopedBufs_held c (W3 m c), Pipeline.unscopedBufs_split₀ cfgs 1 winFacts₀1.arr_unscoped c (VR3 m c)]
  show _ ⊢ iprop(Pipeline.arrBufs spec1 c (VR3 m c) ∗ Pipeline.unscopedRest spec1 c (VR3 m c))
  rw [rest1_keep]
  exact sep_mono (join1 (VR2 m) c (VR3 m c) (W3_of m c main_arg0 (by decide)) (W3_of m c main_v0 (by decide)) (W3_of m c main_arg1 (by decide))
    (W3_of m c main_v4 (by decide)) (W3_of m c main_v5_0 (by decide)) (W3_of m c main_v5_1 (by decide)) (W3_v6 m c)) .rfl

/-- ENTRY of a region, whole: every unscoped buffer at the valuation before it is its arrays at their entry contents
    beside the buffers it bypasses. -/
theorem entry0 (c : Dev nD) :
    (StableHlo.held (c : Thread nD τ) (Pipeline.ucRefs τ sig) (W1 m c) : sProp 𝕄)
      ⊢ iprop((dat0 (VR1 m) c).arrays ((dat0 (VR1 m) c).arrAt · 0)
          ∗ Pipeline.unscopedRest (Ix := Unit) (Name := ℕ) (U := UR sig nD τ) (Lvl := ℕ) spec0 c (VR1 m c)) := by
  rw [← Pipeline.unscopedBufs_held c (W1 m c), Pipeline.unscopedBufs_split₀ cfgs 0 winFacts₀0.arr_unscoped c (VR1 m c)]
  show iprop(Pipeline.arrBufs spec0 c (VR1 m c) ∗ Pipeline.unscopedRest spec0 c (VR1 m c)) ⊢ _
  exact sep_mono (split0 (VR1 m) c) .rfl
theorem entry1 (c : Dev nD) :
    (StableHlo.held (c : Thread nD τ) (Pipeline.ucRefs τ sig) (W2 m c) : sProp 𝕄)
      ⊢ iprop((dat1 (VR2 m) c).arrays ((dat1 (VR2 m) c).arrAt · 0)
          ∗ Pipeline.unscopedRest (Ix := Unit) (Name := ℕ) (U := UR sig nD τ) (Lvl := ℕ) spec1 c (VR2 m c)) := by
  rw [← Pipeline.unscopedBufs_held c (W2 m c), Pipeline.unscopedBufs_split₀ cfgs 1 winFacts₀1.arr_unscoped c (VR2 m c)]
  show iprop(Pipeline.arrBufs spec1 c (VR2 m c) ∗ Pipeline.unscopedRest spec1 c (VR2 m c)) ⊢ _
  exact sep_mono (split1 (VR2 m) c) .rfl

end Run

/-! ## The regions as segments, and the run -/

section Launch

variable (m : (ℓ : Loc nD τ sig) → Buf (Elt F) ℓ) (ρ : Dev nD → PrngReg)

/-- Both pipelines' proof data, each at its region's entry contents. -/
def kpdats : (p : Fin 2) → (c : Dev nD) → Dat τ (Elt F) Unit ℕ (UR sig nD τ) ℕ (Pipeline.pin (pcfgs (F := F)) adm p) c
  | ⟨0, _⟩ => fun c => dat0 (VR1 m) c
  | ⟨1, _⟩ => fun c => dat1 (VR2 m) c
/-- No core owes another anything: no level is assigned. -/
abbrev kL : GSem nD τ sig → Finset Unit := fun _ => ∅
abbrev klv : GSem nD τ sig → Unit → ℕ := fun _ _ => 0
/-- What rides beside the buffers through every item: the core's generator register at some state, and its debts, none. -/
abbrev kR (c : Dev nD) : sProp 𝕄 := iprop((∃ r, prngReg c r) ∗ ∃ W, owes (c : Thread nD τ) (0 : CellTallies nD τ sig Unit) W)
/-- A stretch of host operations as a segment over every unscoped buffer, from the contents `W`. -/
abbrev khseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none kL klv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W kR

-- a library lemma stated over the pinned configuration unifies with the printed one only when unification may
-- unfold plain definitions in a metavariable's type
set_option backward.isDefEq.respectTransparency.types false in
/-- REGION 0 over the thread state: entered with every unscoped buffer at `W1`, left with them at `W2`; the
    generator register goes into the region's invariant and comes back; nothing is owed; the kernel has no semaphore of
    its own. -/
def kreg0 (hb : ∀ (V : (c : Dev nD) → (b : Ref sig .tc) → Buf (Elt F) ((c : Thread nD τ).loc b)) (c : Dev nD),
      BodyObligation (dat0 (F := F) V c) (defs₀ (F := F)) Variants.none () Set.univ)
    (ho : ∀ (V : (c : Dev nD) → (b : Ref sig .tc) → Buf (Elt F) ((c : Thread nD τ).loc b)) (c : Dev nD),
      (dat0 (F := F) V c).Φ (Fin.last cfg0.N) ⊢ Pipeline.ΦA spec0 c) :
    Pipeline.RegionSeg (pcfgs (F := F)) adm (kpdats m) () defs₀ Variants.none kL klv 0 where
  win := winFacts₀0
  block_pos := block_pos0
  stage_whole := stage_whole0
  K := PEmpty
  osem k := k.elim
  ho := Pipeline.OwnSemFacts.none _
  hbody c := (hb (VR1 m) c).loose
  hwaits := Pipeline.hwaits_of_owed_zero _ _ _ _ kL klv 0 fun _ _ => rfl
  pre c := iprop(StableHlo.held (c : Thread nD τ) (Pipeline.ucRefs τ sig) (W1 m c) ∗ kR c)
  post c := iprop(StableHlo.held (c : Thread nD τ) (Pipeline.ucRefs τ sig) (W2 m c) ∗ kR c)
  X c := iprop(∃ r, prngReg c r)
  Y c := iprop(∃ r, prngReg c r)
  Z c := Pipeline.unscopedRest (Ix := Unit) (Name := ℕ) (U := UR sig nD τ) (Lvl := ℕ) spec0 c (VR1 m c)
  hentry c := by
    rw [Pipeline.ownSems0_none]
    iintro ⟨⟨Hub, Hp, HO⟩, -, -⟩
    ihave H := (entry0 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (kpdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (ho (VR1 m) c).trans ?_
    unfold Pipeline.ΦA
    iintro ⟨Hr, Hp⟩
    isplitl [Hp]; · iexact Hp
    isplitr; · iempintro
    iexact Hr
  hexit c := by
    have hjoin : iprop((kpdats m 0 c).arrays ((kpdats m 0 c).arrAt · cfg0.N)
          ∗ Pipeline.unscopedRest (Ix := Unit) (Name := ℕ) (U := UR sig nD τ) (Lvl := ℕ) spec0 c (VR1 m c))
        ⊢ (StableHlo.held (c : Thread nD τ) (Pipeline.ucRefs τ sig) (W2 m c) : sProp 𝕄) := exit0 m c
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- REGION 1 over the thread state: entered with every unscoped buffer at `W2`, left with them at `W3`; the
    generator register goes into the region's invariant and comes back; nothing is owed; the kernel has no semaphore of
    its own. -/
def kreg1 (hb : ∀ (V : (c : Dev nD) → (b : Ref sig .tc) → Buf (Elt F) ((c : Thread nD τ).loc b)) (c : Dev nD),
      BodyObligation (dat1 (F := F) V c) (defs₀ (F := F)) Variants.none () Set.univ)
    (ho : ∀ (V : (c : Dev nD) → (b : Ref sig .tc) → Buf (Elt F) ((c : Thread nD τ).loc b)) (c : Dev nD),
      (dat1 (F := F) V c).Φ (Fin.last cfg1.N) ⊢ Pipeline.ΦA spec1 c) :
    Pipeline.RegionSeg (pcfgs (F := F)) adm (kpdats m) () defs₀ Variants.none kL klv 1 where
  win := winFacts₀1
  block_pos := block_pos1
  stage_whole := stage_whole1
  K := PEmpty
  osem k := k.elim
  ho := Pipeline.OwnSemFacts.none _
  hbody c := (hb (VR2 m) c).loose
  hwaits := Pipeline.hwaits_of_owed_zero _ _ _ _ kL klv 1 fun _ _ => rfl
  pre c := iprop(StableHlo.held (c : Thread nD τ) (Pipeline.ucRefs τ sig) (W2 m c) ∗ kR c)
  post c := iprop(StableHlo.held (c : Thread nD τ) (Pipeline.ucRefs τ sig) (W3 m c) ∗ kR c)
  X c := iprop(∃ r, prngReg c r)
  Y c := iprop(∃ r, prngReg c r)
  Z c := Pipeline.unscopedRest (Ix := Unit) (Name := ℕ) (U := UR sig nD τ) (Lvl := ℕ) spec1 c (VR2 m c)
  hentry c := by
    rw [Pipeline.ownSems0_none]
    iintro ⟨⟨Hub, Hp, HO⟩, -, -⟩
    ihave H := (entry1 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (kpdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (ho (VR2 m) c).trans ?_
    unfold Pipeline.ΦA
    iintro ⟨Hr, Hp⟩
    isplitl [Hp]; · iexact Hp
    isplitr; · iempintro
    iexact Hr
  hexit c := by
    have hjoin : iprop((kpdats m 1 c).arrays ((kpdats m 1 c).arrAt · cfg1.N)
          ∗ Pipeline.unscopedRest (Ix := Unit) (Name := ℕ) (U := UR sig nD τ) (Lvl := ℕ) spec1 c (VR2 m c))
        ⊢ (StableHlo.held (c : Thread nD τ) (Pipeline.ucRefs τ sig) (W3 m c) : sProp 𝕄) := exit1 m c
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Launch

/-! ## The run -/

section TheRun

variable (m : (ℓ : Loc nD τ sig) → Buf (Elt F) ℓ) (ρ : Dev nD → PrngReg)
variable (hb0 : ∀ (V : (c : Dev nD) → (b : Ref sig .tc) → Buf (Elt F) ((c : Thread nD τ).loc b)) (c : Dev nD),
      BodyObligation (dat0 (F := F) V c) (defs₀ (F := F)) Variants.none () Set.univ)
  (ho0 : ∀ (V : (c : Dev nD) → (b : Ref sig .tc) → Buf (Elt F) ((c : Thread nD τ).loc b)) (c : Dev nD),
      (dat0 (F := F) V c).Φ (Fin.last cfg0.N) ⊢ Pipeline.ΦA spec0 c)
  (hb1 : ∀ (V : (c : Dev nD) → (b : Ref sig .tc) → Buf (Elt F) ((c : Thread nD τ).loc b)) (c : Dev nD),
      BodyObligation (dat1 (F := F) V c) (defs₀ (F := F)) Variants.none () Set.univ)
  (ho1 : ∀ (V : (c : Dev nD) → (b : Ref sig .tc) → Buf (Elt F) ((c : Thread nD τ).loc b)) (c : Dev nD),
      (dat1 (F := F) V c).Φ (Fin.last cfg1.N) ⊢ Pipeline.ΦA spec1 c)

/-- The program's four items in order: the host operations before, the two regions, the host operation after. -/
abbrev kSegs : List (Pipeline.Seg (pcfgs (F := F)) adm (kpdats m) () defs₀ Variants.none kL klv) :=
  [ .host (khseg hostOps0 hostOps0_sub hostOps0_fresh (W0 m)),
    .region (kreg0 m hb0 ho0),
    .region (kreg1 m hb1 ho1),
    .host (khseg hostOps2 hostOps2_sub hostOps2_fresh (W3 m)) ]

/-- The program IS the run of these items. -/
theorem main_run (c : Dev nD) : main (F := F) c = Pipeline.Seg.run (kSegs m hb0 ho0 hb1 ho1) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the debts: every unscoped buffer at the last valuation, the generator register at some state. -/
abbrev kTn (c : Dev nD) : sProp 𝕄 := iprop(StableHlo.held (c : Thread nD τ) (Pipeline.ucRefs τ sig) (W4 m c) ∗ ∃ r, prngReg c r)

-- the launch theorem's implicit arguments are found by unifying its conclusion with this one, which takes unfolding
-- plain definitions in a metavariable's type
include hb0 ho0 hb1 ho1 in
set_option backward.isDefEq.respectTransparency.types false in
/-- THE RUN. From any memory with zero counters every weakly fair execution of the program terminates, nothing faulting,
    and in every final memory every unscoped buffer of every core holds the last valuation `W4`: the launch memory, then
    the host operations' results, then the regions' last write-backs, then the final reshape. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W4 m c b) :=
  Pipeline.θ_run_regions_kit (pcfgs (F := F)) adm (kpdats m) () cellOf_inj emb₁ defs₀ Variants.none kL klv m ρ main (kSegs m hb0 ho0 hb1 ho1)
    (fun c Q => by rw [main_run m hb0 ho0 hb1 ho1 c])
    (by simp only [kSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ kR c)) (Tₙ := kTn m)
    (hch := ⟨fun _ => .rfl, fun _ => .rfl, fun _ => .rfl, fun _ => .rfl, fun c => by
      show iprop(StableHlo.held (c : Thread nD τ) (Pipeline.ucRefs τ sig) (W4 m c) ∗ kR c) ⊢ iprop(kTn m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach kL klv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

end TheRun

end Cert.Kernel.Hand

end
-- ==== Proof.K.Body0.lean ====
/-
  The body of region 0 (the partial sums) at any row tile, and the region's invariant at its two ends.

  At row tile t the body, if t is the first tile, stores zero into its two one-entry cells; it loads its five input
  staging buffers whole; it adds the tile's sum of exp(−|y_i − y_j|) to the first cell and the tile's sum of
  exp(−‖l_i − l_j‖) to the second, and copies each cell to its one-entry output staging buffer.  So after the body
  at tile t the cells, and the two outputs, hold the folds over the first t + 1 tiles, and every input staging
  buffer holds what it held.
-/
import proofs.«122636_j18751827214982_1_alg».proof.Proof.K.Data
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' staging buffers -/

/-- Each input's current staging buffer holds its block at every tile, fetched there or not: unfetched, the block
    index has not moved, and the body leaves the block in place. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
      (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
      (fun t => by rw [after0_4]; unfold Dat.blockOf iblk0; rw [A_eq0]; try rfl) t d).trans
    (by unfold Dat.fetched Dat.blockOf iblk0; rw [A_eq0]; try rfl)

/-! ## The branch on the first tile -/

/-- The condition of the body's one branch, from the grid coordinate: the tile is the first. -/
abbrev cond0 (i : grid0.Coords) : Prop :=
  Scalar.cmpi .ne (Scalar.extui (Scalar.cmpi .eq (BitVec.ofNat 32 (i 0).val) 0#32)) 0#32 = 1#1

/-- It holds at tile 0 only: decided over the 128 tiles. -/
theorem hcond0 : ∀ t : Fin cfg0.N, cond0 (grid0.coords t) ↔ t.val = 0 :=
  (by decide +kernel : ∀ t : Fin grid0.N, cond0 (grid0.coords t) ↔ t.val = 0)

/-! ## One-entry buffers stored and loaded whole -/

theorem hz0 : (![0, 0] : Fin 2 → Nat) = fun _ => 0 := funext fun a => by fin_cases a <;> rfl

/-- The whole rectangle covers a one-entry buffer. -/
theorem cover11_r0 (p : Vec F S1x1 .f32) (y : S1x1.Idx) :
    ∃ pc ∈ ([⟨(Rect.unit (s := S1x1) ![0, 0] S1x1.size inb_S1x1_S1x1_0_0), p⟩] : List (View.Piece (Elt F) S1x1 .f32)), y ∈ pc.1.set :=
  View.cover_of_tiled [⟨(Rect.unit (s := S1x1) ![0, 0] S1x1.size inb_S1x1_S1x1_0_0), p⟩] S1x1.size (by rfl) y

/-- After a whole store, last of any stores, the buffer reads as that store's payload, whatever it held. -/
theorem read_store11_r0 (v : View sig .tc .vmem S1x1 .f32) (f : v.ty.Contents (Elt F)) (p : Vec F S1x1 .f32)
    (L : List (View.Piece (Elt F) S1x1 .f32)) :
    v.read (Elt F) (v.writes (Elt F) f (⟨(Rect.unit (s := S1x1) ![0, 0] S1x1.size inb_S1x1_S1x1_0_0), p⟩ :: L)) = p := by
  rw [View.read_writes_eq_canon _ _ _ (fun y => by
    obtain ⟨pc, hm, hy⟩ := cover11_r0 p y
    rw [List.mem_singleton] at hm; subst hm
    exact ⟨_, List.mem_cons.2 (Or.inl rfl), hy⟩), View.canon_cons_unit_zero hz0]

/-- A whole load after a whole store, last of any stores, reads that store's payload. -/
theorem readCov_store11_r0 (v : View sig .tc .vmem S1x1 .f32) (p : Vec F S1x1 .f32) (L : List (View.Piece (Elt F) S1x1 .f32)) :
    v.readCov (⟨(Rect.unit (s := S1x1) ![0, 0] S1x1.size inb_S1x1_S1x1_0_0), p⟩ :: L) (Rect.unit (s := S1x1) ![0, 0] S1x1.size inb_S1x1_S1x1_0_0).toLoadRect = p := by
  rw [View.readCov_eq_canon', View.canon_cons_unit_zero hz0]
  exact View.ld_unit_zero (S := S1x1) hz0 _ p

/-! ## The body's triple, on any whole memrefs -/

set_option maxHeartbeats 1000000 in
/-- At a tile that is not the first: the cells at `s8`, `s9`, the inputs' buffers at `x0 … x4`, the outputs' at anything;
    the body leaves each cell, and each output, at the cell's update by the tile, and the inputs' as they were. -/
theorem sound_kernel0_next (c : Dev nD) (E : Set ℕ) (i : grid0.Coords)
    (arg1 : Memref sig .tc .vmem S64x1 .f32) (harg1 : arg1.IsWhole) (arg2 : Memref sig .tc .vmem S1x8192 .f32) (harg2 : arg2.IsWhole)
    (arg3 : Memref sig .tc .vmem S64x128 .f32) (harg3 : arg3.IsWhole) (arg4 : Memref sig .tc .vmem S8192x128 .f32) (harg4 : arg4.IsWhole)
    (arg5 : Memref sig .tc .vmem S1x8192 .f32) (harg5 : arg5.IsWhole) (arg6 : Memref sig .tc .vmem S1x1 .f32) (harg6 : arg6.IsWhole)
    (arg7 : Memref sig .tc .vmem S1x1 .f32) (harg7 : arg7.IsWhole) (arg8 : Memref sig .tc .vmem S1x1 .f32) (harg8 : arg8.IsWhole)
    (arg9 : Memref sig .tc .vmem S1x1 .f32) (harg9 : arg9.IsWhole)
    (hc : ¬ cond0 i) (x0 : Vec F S64x1 .f32) (x1 : Vec F S1x8192 .f32) (x2 : Vec F S64x128 .f32) (x3 : Vec F S8192x128 .f32) (x4 : Vec F S1x8192 .f32)
    (s8 s9 : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ owns (c : Thread nD τ) arg8 fullShare s8 ∗ owns (c : Thread nD τ) arg9 fullShare s9
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare (stepY0 x0 x1 s8) ∗ owns (c : Thread nD τ) arg7 fullShare (stepL0 x2 x3 x4 s9)
            ∗ owns (c : Thread nD τ) arg8 fullShare (stepY0 x0 x1 s8) ∗ owns (c : Thread nD τ) arg9 fullShare (stepL0 x2 x3 x4 s9)) -∗ K ⟨⟩))
      ⊢ wp frame (wpE (defs₀ (F := F)) Variants.none c none) E (cc0__partial_sums_kernel i arg1 harg1 arg2 harg2 arg3 harg3 arg4 harg4 arg5 harg5 arg6 harg6 arg7 harg7 arg8 harg8 arg9 harg9) K := by
  simp only [cc0__partial_sums_kernel_eq_skeleton]; unfold cc0__partial_sums_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%f9, %hf9, H9⟩, Hk⟩
  obtain rfl := harg1.eq_unread hf1; obtain rfl := harg2.eq_unread hf2; obtain rfl := harg3.eq_unread hf3
  obtain rfl := harg4.eq_unread hf4; obtain rfl := harg5.eq_unread hf5
  obtain rfl := harg8.eq_unread hf8; obtain rfl := harg9.eq_unread hf9
  sl_exec (disch := first | exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    sl_unfold_words
    rw [read_store11_r0, readCov_store11_r0]
    simp only [View.readAt_eq_ld, harg1.read_unread, harg2.read_unread, harg8.read_unread,
      View.ld_unit_zero (S := S64x1) hz0, View.ld_unit_zero (S := S1x8192) hz0, View.ld_unit_zero (S := S1x1) hz0]
    rfl
  isplitl [H7]
  · iexists _; isplitr
    swap; · iexact H7
    ipureintro
    sl_unfold_words
    rw [read_store11_r0, readCov_store11_r0]
    simp only [View.readAt_eq_ld, harg3.read_unread, harg4.read_unread, harg5.read_unread, harg9.read_unread,
      View.ld_unit_zero (S := S64x128) hz0, View.ld_unit_zero (S := S8192x128) hz0, View.ld_unit_zero (S := S1x8192) hz0,
      View.ld_unit_zero (S := S1x1) hz0]
    rfl
  isplitl [H8]
  · iexists _; isplitr
    swap; · iexact H8
    ipureintro
    sl_unfold_words
    rw [read_store11_r0]
    simp only [View.readAt_eq_ld, harg1.read_unread, harg2.read_unread, harg8.read_unread,
      View.ld_unit_zero (S := S64x1) hz0, View.ld_unit_zero (S := S1x8192) hz0, View.ld_unit_zero (S := S1x1) hz0]
    rfl
  iexists _; isplitr
  swap; · iexact H9
  ipureintro
  sl_unfold_words
  rw [read_store11_r0]
  simp only [View.readAt_eq_ld, harg3.read_unread, harg4.read_unread, harg5.read_unread, harg9.read_unread,
      View.ld_unit_zero (S := S64x128) hz0, View.ld_unit_zero (S := S8192x128) hz0, View.ld_unit_zero (S := S1x8192) hz0,
      View.ld_unit_zero (S := S1x1) hz0]
  rfl

set_option maxHeartbeats 1000000 in
/-- At the first tile: the cells at anything; the body stores zero into them first, so it leaves each cell, and each
    output, at the zero's update by the tile. -/
theorem sound_kernel0_first (c : Dev nD) (E : Set ℕ) (i : grid0.Coords)
    (arg1 : Memref sig .tc .vmem S64x1 .f32) (harg1 : arg1.IsWhole) (arg2 : Memref sig .tc .vmem S1x8192 .f32) (harg2 : arg2.IsWhole)
    (arg3 : Memref sig .tc .vmem S64x128 .f32) (harg3 : arg3.IsWhole) (arg4 : Memref sig .tc .vmem S8192x128 .f32) (harg4 : arg4.IsWhole)
    (arg5 : Memref sig .tc .vmem S1x8192 .f32) (harg5 : arg5.IsWhole) (arg6 : Memref sig .tc .vmem S1x1 .f32) (harg6 : arg6.IsWhole)
    (arg7 : Memref sig .tc .vmem S1x1 .f32) (harg7 : arg7.IsWhole) (arg8 : Memref sig .tc .vmem S1x1 .f32) (harg8 : arg8.IsWhole)
    (arg9 : Memref sig .tc .vmem S1x1 .f32) (harg9 : arg9.IsWhole)
    (hc : cond0 i) (x0 : Vec F S64x1 .f32) (x1 : Vec F S1x8192 .f32) (x2 : Vec F S64x128 .f32) (x3 : Vec F S8192x128 .f32) (x4 : Vec F S1x8192 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare (stepY0 x0 x1 k0_pay2) ∗ owns (c : Thread nD τ) arg7 fullShare (stepL0 x2 x3 x4 k0_pay3)
            ∗ owns (c : Thread nD τ) arg8 fullShare (stepY0 x0 x1 k0_pay2) ∗ owns (c : Thread nD τ) arg9 fullShare (stepL0 x2 x3 x4 k0_pay3)) -∗ K ⟨⟩))
      ⊢ wp frame (wpE (defs₀ (F := F)) Variants.none c none) E (cc0__partial_sums_kernel i arg1 harg1 arg2 harg2 arg3 harg3 arg4 harg4 arg5 harg5 arg6 harg6 arg7 harg7 arg8 harg8 arg9 harg9) K := by
  simp only [cc0__partial_sums_kernel_eq_skeleton]; unfold cc0__partial_sums_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, Hk⟩
  obtain rfl := harg1.eq_unread hf1; obtain rfl := harg2.eq_unread hf2; obtain rfl := harg3.eq_unread hf3
  obtain rfl := harg4.eq_unread hf4; obtain rfl := harg5.eq_unread hf5
  sl_exec (disch := first | exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    sl_unfold_words
    rw [read_store11_r0, readCov_store11_r0, readCov_store11_r0]
    simp only [View.readAt_eq_ld, harg1.read_unread, harg2.read_unread,
      View.ld_unit_zero (S := S64x1) hz0, View.ld_unit_zero (S := S1x8192) hz0, View.ld_unit_zero (S := S1x1) hz0]
    rfl
  isplitl [H7]
  · iexists _; isplitr
    swap; · iexact H7
    ipureintro
    sl_unfold_words
    rw [read_store11_r0, readCov_store11_r0, readCov_store11_r0]
    simp only [View.readAt_eq_ld, harg3.read_unread, harg4.read_unread, harg5.read_unread,
      View.ld_unit_zero (S := S64x128) hz0, View.ld_unit_zero (S := S8192x128) hz0, View.ld_unit_zero (S := S1x8192) hz0,
      View.ld_unit_zero (S := S1x1) hz0]
    rfl
  isplitl [H8]
  · iexists _; isplitr
    swap; · iexact H8
    ipureintro
    sl_unfold_words
    rw [read_store11_r0, readCov_store11_r0]
    simp only [View.readAt_eq_ld, harg1.read_unread, harg2.read_unread,
      View.ld_unit_zero (S := S64x1) hz0, View.ld_unit_zero (S := S1x8192) hz0, View.ld_unit_zero (S := S1x1) hz0]
    rfl
  iexists _; isplitr
  swap; · iexact H9
  ipureintro
  sl_unfold_words
  rw [read_store11_r0, readCov_store11_r0]
  simp only [View.readAt_eq_ld, harg3.read_unread, harg4.read_unread, harg5.read_unread,
      View.ld_unit_zero (S := S64x128) hz0, View.ld_unit_zero (S := S8192x128) hz0, View.ld_unit_zero (S := S1x8192) hz0,
      View.ld_unit_zero (S := S1x1) hz0]
  rfl

/-! ## The region's invariant, opened -/

/-- What the launch hands the region, with the region's two cells as memrefs owned at some contents beside the
    scoped buffers the region never touches. -/
theorem PhiA0_eq (c : Dev nD) :
    (Pipeline.ΦA spec0 c : sProp 𝕄)
      = iprop((((∃ d, owns (c : Thread nD τ) sc0_0 fullShare d) ∗ (∃ d, owns (c : Thread nD τ) sc0_1 fullShare d)) ∗ rest0 c)
          ∗ ∃ r, prngReg c r) := by
  unfold Pipeline.ΦA
  rw [Pipeline.scopedRest_split_of_list spec0 c [cc0_scratch0, cc0_scratch1] (by decide) (by decide)]
  simp only [sc0_0, sc0_1, owns_whole]
  rfl

/-- Before any tile but the first the cells hold the folds. -/
theorem PhiS0_pos (c : Dev nD) (n : ℕ) (hn : n ≠ 0) :
    PhiS0 V c n = iprop(owns (c : Thread nD τ) sc0_0 fullShare (accY0 V c n) ∗ owns (c : Thread nD τ) sc0_1 fullShare (accL0 V c n)
      ∗ rest0 c ∗ ∃ r, prngReg c r) := by
  cases n with
  | zero => exact absurd rfl hn
  | succ n => rfl

/-! ## The body obligation, at a generic tile -/

/-- What the body is called with at tile `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 2000000 in
/-- The body at any tile: the inputs' memrefs hold their blocks; at the first tile the invariant hands the cells at
    anything and the body zeroes them, at a later tile it hands them at the folds over the tiles before; either way
    the body leaves the cells and the outputs at the folds over the tiles up to this one, which is the invariant
    at the next tile and what the outputs' windows are stated to hold; the untouched scoped buffers, the generator
    register and what the core owes pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl,
    after0_0, after0_1, after0_2, after0_3, after0_4, after0_5, after0_6, Phi0_eq, Phi0_eq,
    Fin.val_succ, Fin.coe_castSucc, PhiS0_pos V c (t.val + 1) (Nat.succ_ne_zero _), accY0_succ, accL0_succ]
  by_cases h0 : t.val = 0
  · rw [show PhiS0 V c t.val = Pipeline.ΦA spec0 c from by rw [h0]; rfl, PhiA0_eq,
      show accY0 V c t.val = k0_pay2 from by rw [h0]; rfl, show accL0 V c t.val = k0_pay3 from by rw [h0]; rfl]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply (sound_kernel0_first c Set.univ (grid0.coords t) _ _ _ _ _ _ _ _ _ _ _ _ _ _ _ _ _ _ ((hcond0 t).mpr h0)
      (iblk0 V c 0 t) (iblk0 V c 1 t) (iblk0 V c 2 t) (iblk0 V c 3 t) (iblk0 V c 4 t) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexact HS1
    iintro ⟨H0, H1, H2, H3, H4, H5, H6, HS0, HS1⟩
    isplitl [HS0 HS1 Hrest Hg]
    · isplitl [HS0]; · iexact HS0
      isplitl [HS1]; · iexact HS1
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [PhiS0_pos V c t.val h0]
    iintro ⟨⟨HS0, HS1, Hrest, Hg⟩, Ho, ⟨%d0, H0⟩, ⟨%d1, H1⟩, ⟨%d2, H2⟩, ⟨%d3, H3⟩, ⟨%d4, H4⟩, ⟨%d5, H5⟩, ⟨%d6, H6⟩⟩
    iapply (sound_kernel0_next c Set.univ (grid0.coords t) _ _ _ _ _ _ _ _ _ _ _ _ _ _ _ _ _ _ (fun h => h0 ((hcond0 t).mp h))
      (iblk0 V c 0 t) (iblk0 V c 1 t) (iblk0 V c 2 t) (iblk0 V c 3 t) (iblk0 V c 4 t) (accY0 V c t.val) (accL0 V c t.val) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexact HS1
    iintro ⟨H0, H1, H2, H3, H4, H5, H6, HS0, HS1⟩
    isplitl [HS0 HS1 Hrest Hg]
    · isplitl [HS0]; · iexact HS0
      isplitl [HS1]; · iexact HS1
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body obligation of region 0, at every tile. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first tile. -/
theorem hin0 (c : Dev nD) : Pipeline.ΦA spec0 c ⊢ (dat0 V c).Φ 0 := by
  rw [Phi0_eq]
  exact Idealize.SL.BI.Entails.refl _

/-- After the last tile the invariant gives it back: what the cells hold is forgotten. -/
theorem hout0 (c : Dev nD) : (dat0 V c).Φ (Fin.last cfg0.N) ⊢ Pipeline.ΦA spec0 c := by
  rw [Phi0_eq, Fin.val_last, PhiS0_pos V c cfg0.N (by have : cfg0.N = 128 := N_0; omega), PhiA0_eq]
  iintro ⟨HS0, HS1, Hrest, Hg⟩
  isplitl [HS0 HS1 Hrest]
  · isplitl [HS0 HS1]
    · isplitl [HS0]
      · iexists _; iexact HS0
      iexists _; iexact HS1
    iexact Hrest
  iexact Hg

end Cert.Kernel.Hand

end
-- ==== Proof.K.Body1.lean ====
/-
  The body obligation of region 1 (the divergence), at any float instance.

  At row tile t the body stores zero into its scratch cell if t = 0, loads its seven input staging buffers whole, adds
  the tile's sum to the cell, and copies the cell to the output's staging buffer.  So the cell and the output hold the
  fold `acc1` at t + 1 afterwards, and every input buffer holds what it held.
-/
import proofs.«122636_j18751827214982_1_alg».proof.Proof.K.Data
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Whole-buffer loads and stores -/

/-- The zero offsets of a rank-2 access. -/
theorem hz2 : (![0, 0] : Fin 2 → Nat) = fun _ => 0 := by
  funext a; fin_cases a <;> rfl

/-- A whole-buffer load of a whole memref at contents read `X` reads `X`. -/
theorem readAt_whole {κ : Kind} {sp : Space} {S : Shape} {e : EltTy} {off : Fin S.rank → Nat} (hz : off = fun _ => 0)
    (inb : ∀ a, off a + S.size a ≤ S.size a) (m : Memref sig κ sp S e) (h : m.IsWhole) (X : S.Idx → Elt F e) :
    View.readAt (Elt F) m.view (Rect.unit off S.size inb).toLoadRect (h.unread X) = X := by
  rw [View.readAt_eq_ld, h.read_unread, View.ld_unit_zero hz]

/-- After a last store of the whole one-entry cell, the cell reads that store's payload, whatever was stored before. -/
theorem read_writes_cons_cell {κ : Kind} {sp : Space} (v : View sig κ sp S1x1 .f32) (f : v.ty.Contents (Elt F))
    (w : Vec F S1x1 .f32) (L : List (View.Piece (Elt F) S1x1 .f32)) :
    v.read (Elt F) (v.writes (Elt F) f ((⟨Rect.unit ![0, 0] S1x1.size inb_S1x1_S1x1_0_0, w⟩ : View.Piece (Elt F) S1x1 .f32) :: L)) = w := by
  rw [View.read_writes_eq_canon _ _ _ (fun y => ⟨_, List.mem_cons_self .., View.mem_set_unit_zero hz2 inb_S1x1_S1x1_0_0 y⟩),
    View.canon_cons_unit_zero hz2]

/-- And a whole load of the cell after it reads the same. -/
theorem readCov_cons_cell {κ : Kind} {sp : Space} (v : View sig κ sp S1x1 .f32)
    (w : Vec F S1x1 .f32) (L : List (View.Piece (Elt F) S1x1 .f32)) :
    v.readCov ((⟨Rect.unit ![0, 0] S1x1.size inb_S1x1_S1x1_0_0, w⟩ : View.Piece (Elt F) S1x1 .f32) :: L)
      (Rect.unit ![0, 0] S1x1.size inb_S1x1_S1x1_0_0).toLoadRect = w := by
  rw [View.readCov_eq_canon_ld _ _ _ (fun y => ⟨_, List.mem_cons_self .., View.mem_set_unit_zero hz2 inb_S1x1_S1x1_0_0 y⟩),
    View.canon_cons_unit_zero hz2, View.ld_unit_zero hz2]

/-! ## The branch on the first tile -/

/-- The condition of the body's one branch, from the grid coordinate: it asks whether the tile is the first. -/
abbrev cond1 (i : grid1.Coords) : Prop :=
  (Scalar.cmpi .ne (Scalar.extui (Scalar.cmpi .eq (BitVec.ofNat 32 (i 0).val) 0#32)) 0#32) = 1#1

/-- It holds at the first tile only — decided over the 128 tiles. -/
theorem hcond1 : ∀ t : Fin cfg1.N, cond1 (grid1.coords t) ↔ t.val = 0 :=
  (by decide +kernel : ∀ t : Fin grid1.N, cond1 (grid1.coords t) ↔ t.val = 0)

/-! ## The body's triple, on any whole staging memrefs -/

set_option maxHeartbeats 1000000 in
/-- At the first tile: the cell and the output's buffer at anything; both end at the update of the zero payload. -/
theorem sound_kernel1_first (c : Dev nD) (E : Set ℕ) (i : grid1.Coords) (arg1 : Memref sig .tc .vmem S64x1 .f32) (harg1 : arg1.IsWhole) (arg2 : Memref sig .tc .vmem S1x8192 .f32) (harg2 : arg2.IsWhole) (arg3 : Memref sig .tc .vmem S64x128 .f32) (harg3 : arg3.IsWhole) (arg4 : Memref sig .tc .vmem S8192x128 .f32) (harg4 : arg4.IsWhole) (arg5 : Memref sig .tc .vmem S1x8192 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole)
    (hc : cond1 i) (x0 : Vec F S64x1 .f32) (x1 : Vec F S1x8192 .f32) (x2 : Vec F S64x128 .f32) (x3 : Vec F S8192x128 .f32) (x4 : Vec F S1x8192 .f32) (x5 : Vec F S1x1 .f32) (x6 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (step1 x0 x1 x2 x3 x4 x5 x6 k1_pay2) ∗ owns (c : Thread nD τ) arg9 fullShare (step1 x0 x1 x2 x3 x4 x5 x6 k1_pay2)) -∗ K ⟨⟩))
      ⊢ wp frame (wpE (defs₀ (F := F)) Variants.none c none) E (cc1__kl_kernel i arg1 harg1 arg2 harg2 arg3 harg3 arg4 harg4 arg5 harg5 arg6 harg6 arg7 harg7 arg8 harg8 arg9 harg9) K := by
  simp only [cc1__kl_kernel_eq_skeleton]; unfold cc1__kl_kernel_skel
  simp only [k1_part1_eq_skeleton, k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6
  sl_exec (disch := exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr
    swap; · iexact H7
    ipureintro
    sl_unfold_words
    refine (read_writes_cons_cell _ _ _ _).trans ?_
    refine (readCov_cons_cell _ _ _).trans ?_
    refine (congrArg (k1_pay1 _) (readCov_cons_cell _ _ _)).trans ?_
    unfold step1
    simp only [readAt_whole (S := S64x1) hz2, readAt_whole (S := S1x8192) hz2, readAt_whole (S := S64x128) hz2, readAt_whole (S := S8192x128) hz2, readAt_whole (S := S1x1) hz2]
  · iexists _; isplitr
    swap; · iexact H8
    ipureintro
    sl_unfold_words
    refine (read_writes_cons_cell _ _ _ _).trans ?_
    refine (congrArg (k1_pay1 _) (readCov_cons_cell _ _ _)).trans ?_
    unfold step1
    simp only [readAt_whole (S := S64x1) hz2, readAt_whole (S := S1x8192) hz2, readAt_whole (S := S64x128) hz2, readAt_whole (S := S8192x128) hz2, readAt_whole (S := S1x1) hz2]

set_option maxHeartbeats 1000000 in
/-- At a later tile: the cell at `s`, the output's buffer at anything; both end at the update of `s`. -/
theorem sound_kernel1_later (c : Dev nD) (E : Set ℕ) (i : grid1.Coords) (arg1 : Memref sig .tc .vmem S64x1 .f32) (harg1 : arg1.IsWhole) (arg2 : Memref sig .tc .vmem S1x8192 .f32) (harg2 : arg2.IsWhole) (arg3 : Memref sig .tc .vmem S64x128 .f32) (harg3 : arg3.IsWhole) (arg4 : Memref sig .tc .vmem S8192x128 .f32) (harg4 : arg4.IsWhole) (arg5 : Memref sig .tc .vmem S1x8192 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole)
    (hc : ¬ cond1 i) (x0 : Vec F S64x1 .f32) (x1 : Vec F S1x8192 .f32) (x2 : Vec F S64x128 .f32) (x3 : Vec F S8192x128 .f32) (x4 : Vec F S1x8192 .f32) (x5 : Vec F S1x1 .f32) (x6 : Vec F S1x1 .f32) (s : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare s
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (step1 x0 x1 x2 x3 x4 x5 x6 s) ∗ owns (c : Thread nD τ) arg9 fullShare (step1 x0 x1 x2 x3 x4 x5 x6 s)) -∗ K ⟨⟩))
      ⊢ wp frame (wpE (defs₀ (F := F)) Variants.none c none) E (cc1__kl_kernel i arg1 harg1 arg2 harg2 arg3 harg3 arg4 harg4 arg5 harg5 arg6 harg6 arg7 harg7 arg8 harg8 arg9 harg9) K := by
  simp only [cc1__kl_kernel_eq_skeleton]; unfold cc1__kl_kernel_skel
  simp only [k1_part1_eq_skeleton, k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6; obtain rfl := harg9.eq_unread hf8
  sl_exec (disch := exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr
    swap; · iexact H7
    ipureintro
    sl_unfold_words
    refine (read_writes_cons_cell _ _ _ _).trans ?_
    refine (readCov_cons_cell _ _ _).trans ?_
    unfold step1
    simp only [readAt_whole (S := S64x1) hz2, readAt_whole (S := S1x8192) hz2, readAt_whole (S := S64x128) hz2, readAt_whole (S := S8192x128) hz2, readAt_whole (S := S1x1) hz2]
  · iexists _; isplitr
    swap; · iexact H8
    ipureintro
    sl_unfold_words
    refine (read_writes_cons_cell _ _ _ _).trans ?_
    unfold step1
    simp only [readAt_whole (S := S64x1) hz2, readAt_whole (S := S1x8192) hz2, readAt_whole (S := S64x128) hz2, readAt_whole (S := S8192x128) hz2, readAt_whole (S := S1x1) hz2]

/-! ## The staging memrefs at a tile -/

/-- Each window's current staging memref at tile `t`, spelled as the pipeline passes it to the body, and its wholeness. -/
abbrev ms1_0 (t : Fin cfg1.N) : Memref sig .tc .vmem S64x1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x8192 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S64x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S8192x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x8192 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x1 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x1 .f32 := win1_7.stage (cfg1.slots t 7)
abbrev hs1_7 (t : Fin cfg1.N) : (ms1_7 t).IsWhole := hstage1_7 ((cfg1.slots t 7).cast nbuf1_7)

/-! ## What the input buffers hold when the body runs -/

/-- Each input's current staging buffer holds its block at every tile, fetched there or not: unfetched, the block
    index has not moved and the body left the block in place. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0 V c t]; unfold Dat.blockOf iblk1; rw [A_eq1 V c]; try rfl) t d).trans
    (by unfold Dat.fetched Dat.blockOf iblk1; rw [A_eq1 V c]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1 V c t]; unfold Dat.blockOf iblk1; rw [A_eq1 V c]; try rfl) t d).trans
    (by unfold Dat.fetched Dat.blockOf iblk1; rw [A_eq1 V c]; try rfl)
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2 V c t]; unfold Dat.blockOf iblk1; rw [A_eq1 V c]; try rfl) t d).trans
    (by unfold Dat.fetched Dat.blockOf iblk1; rw [A_eq1 V c]; try rfl)
theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3 V c t]; unfold Dat.blockOf iblk1; rw [A_eq1 V c]; try rfl) t d).trans
    (by unfold Dat.fetched Dat.blockOf iblk1; rw [A_eq1 V c]; try rfl)
theorem before1_4 (c : Dev nD) (t : Fin cfg1.N) (d) : (dat1 V c).before 4 t d = iblk1 V c 4 t :=
  ((dat1 V c).before_in_eq_fetched 4 rfl (fun _ => rfl) (fun _ _ _ => rfl)
      (fun t => by rw [after1_4 V c t]; unfold Dat.blockOf iblk1; rw [A_eq1 V c]; try rfl) t d).trans
    (by unfold Dat.fetched Dat.blockOf iblk1; rw [A_eq1 V c]; try rfl)
theorem before1_5 (c : Dev nD) (t : Fin cfg1.N) (d) : (dat1 V c).before 5 t d = iblk1 V c 5 t :=
  ((dat1 V c).before_in_eq_fetched 5 rfl (fun _ => rfl) (fun _ _ _ => rfl)
      (fun t => by rw [after1_5 V c t]; unfold Dat.blockOf iblk1; rw [A_eq1 V c]; try rfl) t d).trans
    (by unfold Dat.fetched Dat.blockOf iblk1; rw [A_eq1 V c]; try rfl)
theorem before1_6 (c : Dev nD) (t : Fin cfg1.N) (d) : (dat1 V c).before 6 t d = iblk1 V c 6 t :=
  ((dat1 V c).before_in_eq_fetched 6 rfl (fun _ => rfl) (fun _ _ _ => rfl)
      (fun t => by rw [after1_6 V c t]; unfold Dat.blockOf iblk1; rw [A_eq1 V c]; try rfl) t d).trans
    (by unfold Dat.fetched Dat.blockOf iblk1; rw [A_eq1 V c]; try rfl)

/-! ## The invariant, opened at the cell -/

theorem PhiS1_zero (c : Dev nD) : PhiS1 V c 0 = Pipeline.ΦA spec1 c := rfl

theorem PhiS1_succ (c : Dev nD) (n : ℕ) :
    PhiS1 V c (n + 1) = iprop(owns (c : Thread nD τ) sc1_0 fullShare (acc1 V c (n + 1)) ∗ rest1 c ∗ ∃ r, prngReg c r) := rfl

/-- What the launch hands the region: the cell at anything, the scoped buffers the region never touches, and the
    generator register at some state. -/
theorem PhiA1_eq (c : Dev nD) :
    (Pipeline.ΦA spec1 c : sProp 𝕄)
      = iprop((∃ d, owns (c : Thread nD τ) sc1_0 fullShare d) ∗ rest1 c ∗ ∃ r, prngReg c r) := by
  unfold Pipeline.ΦA
  rw [Pipeline.scopedRest_split_of_list spec1 c [cc1_scratch0] (by decide) (by decide)]
  simp only [bigSepL_singleton, sc1_0, owns_whole]
  have h₁ : iprop(((∃ d, ((c : Thread nD τ).loc cc1_scratch0) ↦{fullShare} d) ∗ rest1 c) ∗ ∃ r, prngReg c r)
      ⊢ (iprop((∃ d, ((c : Thread nD τ).loc cc1_scratch0) ↦{fullShare} d) ∗ rest1 c ∗ ∃ r, prngReg c r) : sProp 𝕄) := by
    iintro ⟨⟨HS, Hrest⟩, Hg⟩
    isplitl [HS]; · iexact HS
    isplitl [Hrest]; · iexact Hrest
    iexact Hg
  have h₂ : iprop((∃ d, ((c : Thread nD τ).loc cc1_scratch0) ↦{fullShare} d) ∗ rest1 c ∗ ∃ r, prngReg c r)
      ⊢ (iprop(((∃ d, ((c : Thread nD τ).loc cc1_scratch0) ↦{fullShare} d) ∗ rest1 c) ∗ ∃ r, prngReg c r) : sProp 𝕄) := by
    iintro ⟨HS, Hrest, Hg⟩
    isplitl [HS Hrest]
    · isplitl [HS]; · iexact HS
      iexact Hrest
    iexact Hg
  exact BI.equiv_iff.mp ⟨h₁, h₂⟩

/-! ## The body obligation, at a generic tile -/

/-- What the body is called with at tile `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t))

set_option maxHeartbeats 2000000 in
/-- The body at any tile: the inputs' memrefs hold their blocks; at the first tile the invariant hands the cell at
    anything and the branch is taken, later it hands the cell at the fold so far and the branch is not; either way the
    cell and the output end at the fold one tile on, and the rest of the invariant passes through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0 V, before1_1 V, before1_2 V, before1_3 V, before1_4 V, before1_5 V, before1_6 V]
  rw [show (dat1 V c).owesAt () t.succ = (dat1 V c).owesAt () t.castSucc from rfl,
    after1_0, after1_1, after1_2, after1_3, after1_4, after1_5, after1_6, after1_7, Phi1_eq, Phi1_eq,
    Fin.val_succ, Fin.coe_castSucc, PhiS1_succ, acc1_succ V c t]
  by_cases hz : t.val = 0
  · have hΦ : PhiS1 V c t.val = Pipeline.ΦA spec1 c := by rw [hz]; rfl
    have hacc : acc1 V c t.val = k1_pay2 := by rw [hz]; rfl
    rw [hΦ, hacc, PhiA1_eq]
    iintro ⟨⟨HS, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel1_first c Set.univ (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) sc1_0 (Memref.isWhole_whole _)
      ((hcond1 t).mpr hz) (iblk1 V c 0 t) (iblk1 V c 1 t) (iblk1 V c 2 t) (iblk1 V c 3 t) (iblk1 V c 4 t) (iblk1 V c 5 t) (iblk1 V c 6 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexact HS
    iintro ⟨H0, H1, H2, H3, H4, H5, H6, H7, HS⟩
    isplitl [HS Hrest Hg]
    · isplitl [HS]; · iexact HS
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · obtain ⟨n, hn⟩ : ∃ n, t.val = n + 1 := Nat.exists_eq_succ_of_ne_zero hz
    have hΦ : PhiS1 V c t.val
        = iprop(owns (c : Thread nD τ) sc1_0 fullShare (acc1 V c t.val) ∗ rest1 c ∗ ∃ r, prngReg c r) := by
      rw [hn]; rfl
    rw [hΦ]
    iintro ⟨⟨HS, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel1_later c Set.univ (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) sc1_0 (Memref.isWhole_whole _)
      (fun h => hz ((hcond1 t).mp h)) (iblk1 V c 0 t) (iblk1 V c 1 t) (iblk1 V c 2 t) (iblk1 V c 3 t) (iblk1 V c 4 t) (iblk1 V c 5 t) (iblk1 V c 6 t) (acc1 V c t.val) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexact HS
    iintro ⟨H0, H1, H2, H3, H4, H5, H6, H7, HS⟩
    isplitl [HS Hrest Hg]
    · isplitl [HS]; · iexact HS
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The library's body obligation, at every tile. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first tile. -/
theorem hin1 (c : Dev nD) : Pipeline.ΦA spec1 c ⊢ (dat1 V c).Φ 0 := by
  rw [Phi1_eq]
  exact Idealize.SL.BI.Entails.refl _

/-- After the last tile the invariant gives it back: the cell's named contents are forgotten. -/
theorem hout1 (c : Dev nD) : (dat1 V c).Φ (Fin.last cfg1.N) ⊢ Pipeline.ΦA spec1 c := by
  rw [Phi1_eq, Fin.val_last, show cfg1.N = 127 + 1 from N_1, PhiS1_succ, PhiA1_eq]
  iintro ⟨HS, Hrest, Hg⟩
  isplitl [HS]; · iexists _; iexact HS
  isplitl [Hrest]; · iexact Hrest
  iexact Hg

end Cert.Kernel.Hand

end
-- ==== Proof.K.Final.lean ====
/-
  What the run leaves: the argument arrays as launched (the frame), and in the result buffer the fold of region 1's
  cell over all 128 tiles.

  An output window of either region is the whole of a one-entry array, written back once, after the last tile: so the
  array ends holding what the cell held then.
-/
import proofs.«122636_j18751827214982_1_alg».proof.Proof.K.Run
import proofs.«122636_j18751827214982_1_alg».proof.Proof.K.Body0
import proofs.«122636_j18751827214982_1_alg».proof.Proof.K.Body1
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## A one-entry output array after its one write-back -/

section Outputs

variable (V : (c : Dev nD) → (b : Ref sig .tc) → Buf (Elt F) ((c : Thread nD τ).loc b))

/-- A one-entry array has one index. -/
theorem idx11_eq (a b : S1x1.Idx) : a = b :=
  funext fun d => Fin.ext (by
    have ha : (a d).val < S1x1.size d := (a d).isLt
    have hb : (b d).val < S1x1.size d := (b d).isLt
    have hs : S1x1.size d = 1 := by
      match d with
      | ⟨0, _⟩ => rfl
      | ⟨1, _⟩ => rfl
    omega)

/-- Region 0's first output array ends at the first cell's fold over all tiles. -/
theorem arrAt0_5 (c : Dev nD) (i : S1x1.Idx) : (dat0 V c).arrAt 5 cfg0.N i = accY0 V c 128 i := by
  have hN : cfg0.N = 128 := N_0
  let t : Fin cfg0.N := ⟨127, by rw [hN]; decide⟩
  have hf : (cfg0.win 5).flush t = true := (flush0_5 t).mpr (show (127 : ℕ) % 128 = 127 from rfl)
  have hdisj : ∀ t t' : Fin cfg0.N, (cfg0.win 5).flush t = true → (cfg0.win 5).flush t' = true → t ≠ t' →
      Disjoint ((cfg0.win 5).blk t).view.set ((cfg0.win 5).blk t').view.set := fun a b ha hb hab => by
    exfalso; apply hab; apply Fin.ext
    have h1 := (flush0_5 a).mp ha; have h2 := (flush0_5 b).mp hb
    have := a.isLt; have := b.isLt; omega
  have h := (dat0 V c).arrAt_emb_eq_flushed 5 hdisj t hf i
  rw [idx11_eq (((cfg0.win 5).blk t).view.emb i) i] at h
  refine h.trans ((eq_of_heq (cast_heq _ _)).trans ?_)
  show (dat0 V c).after 5 t i = _
  rw [after0_5]

/-- Region 0's second output array ends at the second cell's fold over all tiles. -/
theorem arrAt0_6 (c : Dev nD) (i : S1x1.Idx) : (dat0 V c).arrAt 6 cfg0.N i = accL0 V c 128 i := by
  have hN : cfg0.N = 128 := N_0
  let t : Fin cfg0.N := ⟨127, by rw [hN]; decide⟩
  have hf : (cfg0.win 6).flush t = true := (flush0_6 t).mpr (show (127 : ℕ) % 128 = 127 from rfl)
  have hdisj : ∀ t t' : Fin cfg0.N, (cfg0.win 6).flush t = true → (cfg0.win 6).flush t' = true → t ≠ t' →
      Disjoint ((cfg0.win 6).blk t).view.set ((cfg0.win 6).blk t').view.set := fun a b ha hb hab => by
    exfalso; apply hab; apply Fin.ext
    have h1 := (flush0_6 a).mp ha; have h2 := (flush0_6 b).mp hb
    have := a.isLt; have := b.isLt; omega
  have h := (dat0 V c).arrAt_emb_eq_flushed 6 hdisj t hf i
  rw [idx11_eq (((cfg0.win 6).blk t).view.emb i) i] at h
  refine h.trans ((eq_of_heq (cast_heq _ _)).trans ?_)
  show (dat0 V c).after 6 t i = _
  rw [after0_6]

/-- Region 1's output array ends at its cell's fold over all tiles. -/
theorem arrAt1_7 (c : Dev nD) (i : S1x1.Idx) : (dat1 V c).arrAt 7 cfg1.N i = acc1 V c 128 i := by
  have hN : cfg1.N = 128 := N_1
  let t : Fin cfg1.N := ⟨127, by rw [hN]; decide⟩
  have hf : (cfg1.win 7).flush t = true := (flush1_7 t).mpr (show (127 : ℕ) % 128 = 127 from rfl)
  have hdisj : ∀ t t' : Fin cfg1.N, (cfg1.win 7).flush t = true → (cfg1.win 7).flush t' = true → t ≠ t' →
      Disjoint ((cfg1.win 7).blk t).view.set ((cfg1.win 7).blk t').view.set := fun a b ha hb hab => by
    exfalso; apply hab; apply Fin.ext
    have h1 := (flush1_7 a).mp ha; have h2 := (flush1_7 b).mp hb
    have := a.isLt; have := b.isLt; omega
  have h := (dat1 V c).arrAt_emb_eq_flushed 7 hdisj t hf i
  rw [idx11_eq (((cfg1.win 7).blk t).view.emb i) i] at h
  refine h.trans ((eq_of_heq (cast_heq _ _)).trans ?_)
  show (dat1 V c).after 7 t i = _
  rw [after1_7]

end Outputs

/-! ## The run, the frame -/

section Frame

variable (m : (ℓ : Loc nD τ sig) → Buf (Elt F) ℓ) (ρ : Dev nD → PrngReg)

/-- The run with both regions' bodies supplied. -/
theorem run : θ_run defs (onTc (τ := τ) (main (F := F))) ⟨m, fun _ => 0, ρ⟩
    (fun r => ∀ c : Dev nD, ∀ b ∈ Pipeline.ucRefs τ sig, r.2.mem (((c : Thread nD τ)).1, b) = W4 m c b) :=
  run_all m ρ (fun V c => body_obligation0 V c) (fun V c => hout0 V c) (fun V c => body_obligation1 V c) (fun V c => hout1 V c)

theorem W4_of (c : Dev nD) (r : Ref sig .tc) (h : r ∉ hostOps2_W) : W4 m c r = W3 m c r :=
  StableHlo.after_of_writes_sub hostOps2 _ hostOps2_writes h

/-- An argument array reaches the end as launched: no host operation writes it and no region may change it. -/
theorem W4_main_arg0 (c : Dev nD) : W4 m c main_arg0 = m ((c : Thread nD τ).loc main_arg0) :=
  (W4_of m c main_arg0 (by decide)).trans <| (W3_of m c main_arg0 (by decide)).trans <| (W2_of m c main_arg0 (by decide)).trans <|
    (V1_of m c main_arg0 (by decide)).trans rfl
theorem W4_main_arg1 (c : Dev nD) : W4 m c main_arg1 = m ((c : Thread nD τ).loc main_arg1) :=
  (W4_of m c main_arg1 (by decide)).trans <| (W3_of m c main_arg1 (by decide)).trans <| (W2_of m c main_arg1 (by decide)).trans <|
    (V1_of m c main_arg1 (by decide)).trans rfl

/-- THE FRAME: every weakly fair execution terminates without a fault and leaves both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W4_main_arg0 m c), (h c _ (mem_uc main_arg1 (by decide))).trans (W4_main_arg1 m c)⟩) (run m ρ)

end Frame

end Cert.Kernel.Hand

end
-- ==== Proof.KI.Data.lean ====
/-
  The proof data of the two pipelined regions, stated once for any float instance.

  Region 0 (the partial sums) visits 128 row tiles.  At tile t it reads rows 64t … 64t+63 of y and of l (windows 0 and 2),
  the whole row vector of y, the whole of l and the whole row vector of the squared norms (windows 1, 3, 4), and adds
  the tile's two sums of exponentials to two one-entry scratch cells, which it copies to the two one-entry outputs
  (windows 5 and 6).  What the cells hold after t tiles is a fold over the tiles (`accY0`, `accL0`), started from
  the zero the first tile stores.  Region 1 (the divergence) is the same walk with one cell (`acc1`), its tile term
  reading the two normalisers region 0 left (windows 5 and 6) besides.

  Windows 2 and 3 of either region read the same array (l): each holds one half of its share.
-/
import proofs.«122636_j18751827214982_1_alg».proof.Proof.Gen.KernelIdeal.Launch
import proofs.«122636_j18751827214982_1_alg».proof.Proof.Gen.KernelIdeal.Skeleton
import proofs.«122636_j18751827214982_1_alg».proof.Proof.Gen.KernelIdeal.Points
import Idealize.ShloMosaic.Lib.Pipeline.FrameBody
import Idealize.ShloMosaic.Lib.Pipeline.Frame
import Idealize.ShloMosaic.Lib.Pipeline.Kit
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the contents of the TensorCore's buffers when a region is entered: the parameter both regions are stated at
variable (V : (c : Dev nD) → (b : Ref sig .tc) → Buf (Elt F) ((c : Thread nD τ).loc b))

/-! ## Region 0 -/

/-- Window `w`'s block at tile `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- One tile's update of the first cell: the cell plus the sum over the tile's 64 × 8192 pairs of exp(−|y_i − y_j|). -/
def stepY0 (x0 : Vec F S64x1 .f32) (x1 : Vec F S1x8192 .f32) (s : Vec F S1x1 .f32) : Vec F S1x1 .f32 :=
  k0_pay7 (k0_pay5 x0 x1) s

/-- One tile's update of the second cell: the cell plus the sum over the tile's pairs of exp(−‖l_i − l_j‖). -/
def stepL0 (x2 : Vec F S64x128 .f32) (x3 : Vec F S8192x128 .f32) (x4 : Vec F S1x8192 .f32) (s : Vec F S1x1 .f32) : Vec F S1x1 .f32 :=
  k0_pay1 s (k0_pay8 x2 x3 (k0_pay4 x4) (k0_pay6 x2))

/-- The first cell after `n` tiles: zero, then one update per tile. -/
def accY0 (c : Dev nD) : ℕ → Vec F S1x1 .f32
  | 0 => k0_pay2
  | n + 1 => if h : n < cfg0.N then stepY0 (iblk0 V c 0 ⟨n, h⟩) (iblk0 V c 1 ⟨n, h⟩) (accY0 c n) else accY0 c n

/-- The second cell after `n` tiles. -/
def accL0 (c : Dev nD) : ℕ → Vec F S1x1 .f32
  | 0 => k0_pay3
  | n + 1 => if h : n < cfg0.N then stepL0 (iblk0 V c 2 ⟨n, h⟩) (iblk0 V c 3 ⟨n, h⟩) (iblk0 V c 4 ⟨n, h⟩) (accL0 c n) else accL0 c n

theorem accY0_succ (c : Dev nD) (t : Fin cfg0.N) :
    accY0 V c (t.val + 1) = stepY0 (iblk0 V c 0 t) (iblk0 V c 1 t) (accY0 V c t.val) := by
  rw [accY0, dif_pos t.isLt]
theorem accL0_succ (c : Dev nD) (t : Fin cfg0.N) :
    accL0 V c (t.val + 1) = stepL0 (iblk0 V c 2 t) (iblk0 V c 3 t) (iblk0 V c 4 t) (accL0 V c t.val) := by
  rw [accL0, dif_pos t.isLt]

/-- The two scratch cells of region 0, as whole memrefs. -/
abbrev sc0_0 : Memref sig .tc .vmem S1x1 .f32 := Memref.whole cc0_scratch0
abbrev sc0_1 : Memref sig .tc .vmem S1x1 .f32 := Memref.whole cc0_scratch1

/-- The core's scoped buffers that region 0 never touches (the other region's staging buffers and scratch). -/
abbrev rest0 (c : Dev nD) : sProp 𝕄 :=
  Pipeline.scopedRestBut (Ix := Unit) (Name := ℕ) (U := UR sig nD τ) (Lvl := ℕ) (Val := Elt F) spec0 c [cc0_scratch0, cc0_scratch1]

/-- The region's invariant before tile `n`: at the start every scratch cell holds anything; after `n ≥ 1` tiles the two
    cells hold the folds. -/
def PhiS0 (c : Dev nD) : ℕ → sProp 𝕄
  | 0 => Pipeline.ΦA spec0 c
  | n + 1 => iprop(owns (c : Thread nD τ) sc0_0 fullShare (accY0 V c (n + 1)) ∗ owns (c : Thread nD τ) sc0_1 fullShare (accL0 V c (n + 1))
      ∗ rest0 c ∗ ∃ r, prngReg c r)

/-- The shares of the windows' arrays: windows 2 and 3 read one array, a half each. -/
def q0 (w : Fin cfg0.W) : PosShare TreeShare :=
  match w with
  | ⟨0, _⟩ => fullShare
  | ⟨1, _⟩ => fullShare
  | ⟨2, _⟩ => fullShare.left
  | ⟨3, _⟩ => fullShare.right
  | ⟨4, _⟩ => fullShare
  | ⟨5, _⟩ => fullShare
  | ⟨6, _⟩ => fullShare

/-- Region 0's proof data on core `c`: every input's staging buffer holds its block after the body as before it; the
    two outputs' hold the folds after this tile; the invariant carries the cells; nothing is owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => accY0 V c (t.val + 1)
    | ⟨6, _⟩ => accL0 V c (t.val + 1)
  Φ j := PhiS0 V c j.val
  q := q0
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = accY0 V c (t.val + 1) := by dsimp only [dat0]
theorem after0_6 (c : Dev nD) (t : Fin cfg0.N) : (dat0 V c).after 6 t = accL0 V c (t.val + 1) := by dsimp only [dat0]
theorem Phi0_eq (c : Dev nD) (j : Fin (cfg0.N + 1)) : (dat0 V c).Φ j = PhiS0 V c j.val := by dsimp only [dat0]
theorem owed0 (c : Dev nD) (j : Fin (cfg0.N + 1)) : (dat0 V c).owed j = 0 := by dsimp only [dat0]

/-! ## Region 1 -/

/-- Window `w`'s block at tile `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- One tile's update of the cell: the cell plus the sum over the tile's pairs of p·(log p − log q), the two
    normalisers read from windows 5 and 6. -/
def step1 (x0 : Vec F S64x1 .f32) (x1 : Vec F S1x8192 .f32) (x2 : Vec F S64x128 .f32) (x3 : Vec F S8192x128 .f32)
    (x4 : Vec F S1x8192 .f32) (x5 : Vec F S1x1 .f32) (x6 : Vec F S1x1 .f32) (s : Vec F S1x1 .f32) : Vec F S1x1 .f32 :=
  k1_pay1 (k1_pay6 x2 x3 (k1_pay3 x4) (k1_pay4 x0 x1) (k1_pay5 x2) x5 x6) s

/-- The cell after `n` tiles. -/
def acc1 (c : Dev nD) : ℕ → Vec F S1x1 .f32
  | 0 => k1_pay2
  | n + 1 => if h : n < cfg1.N then step1 (iblk1 V c 0 ⟨n, h⟩) (iblk1 V c 1 ⟨n, h⟩) (iblk1 V c 2 ⟨n, h⟩) (iblk1 V c 3 ⟨n, h⟩)
      (iblk1 V c 4 ⟨n, h⟩) (iblk1 V c 5 ⟨n, h⟩) (iblk1 V c 6 ⟨n, h⟩) (acc1 c n) else acc1 c n

theorem acc1_succ (c : Dev nD) (t : Fin cfg1.N) :
    acc1 V c (t.val + 1) = step1 (iblk1 V c 0 t) (iblk1 V c 1 t) (iblk1 V c 2 t) (iblk1 V c 3 t) (iblk1 V c 4 t) (iblk1 V c 5 t)
      (iblk1 V c 6 t) (acc1 V c t.val) := by
  rw [acc1, dif_pos t.isLt]

/-- Region 1's scratch cell, as a whole memref. -/
abbrev sc1_0 : Memref sig .tc .vmem S1x1 .f32 := Memref.whole cc1_scratch0

/-- The core's scoped buffers that region 1 never touches. -/
abbrev rest1 (c : Dev nD) : sProp 𝕄 :=
  Pipeline.scopedRestBut (Ix := Unit) (Name := ℕ) (U := UR sig nD τ) (Lvl := ℕ) (Val := Elt F) spec1 c [cc1_scratch0]

def PhiS1 (c : Dev nD) : ℕ → sProp 𝕄
  | 0 => Pipeline.ΦA spec1 c
  | n + 1 => iprop(owns (c : Thread nD τ) sc1_0 fullShare (acc1 V c (n + 1)) ∗ rest1 c ∗ ∃ r, prngReg c r)

def q1 (w : Fin cfg1.W) : PosShare TreeShare :=
  match w with
  | ⟨0, _⟩ => fullShare
  | ⟨1, _⟩ => fullShare
  | ⟨2, _⟩ => fullShare.left
  | ⟨3, _⟩ => fullShare.right
  | ⟨4, _⟩ => fullShare
  | ⟨5, _⟩ => fullShare
  | ⟨6, _⟩ => fullShare
  | ⟨7, _⟩ => fullShare

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => acc1 V c (t.val + 1)
  Φ j := PhiS1 V c j.val
  q := q1
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = acc1 V c (t.val + 1) := by dsimp only [dat1]
theorem Phi1_eq (c : Dev nD) (j : Fin (cfg1.N + 1)) : (dat1 V c).Φ j = PhiS1 V c j.val := by dsimp only [dat1]
theorem owed1 (c : Dev nD) (j : Fin (cfg1.N + 1)) : (dat1 V c).owed j = 0 := by dsimp only [dat1]

end Cert.KernelIdeal.Hand

end
-- ==== Proof.KI.Run.lean ====
/-
  The two pipelined regions as segments of the program's run, and the run itself.

  Between the items of the program (host operations, region 0, region 1, host operations) a core holds every unscoped
  buffer whole at a known valuation: the launch memory, then the host operations' results, then what a region leaves in
  its output arrays.  A region takes out of these buffers its windows' arrays — the array l stands behind two windows,
  and its one buffer is dealt to them a half each —, runs, and puts them back with its outputs at what the last tile
  wrote.  From the last valuation every buffer of the final memory is read.
-/
import proofs.«122636_j18751827214982_1_alg».proof.Proof.KI.Data
import proofs.«122636_j18751827214982_1_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The arrays of a region, one by one -/

section Arrays

variable (V : (c : Dev nD) → (b : Ref sig .tc) → Buf (Elt F) ((c : Thread nD τ).loc b))

theorem share0_0 (c : Dev nD) : (dat0 V c).share 0 = fullShare := rfl
theorem share0_1 (c : Dev nD) : (dat0 V c).share 1 = fullShare := rfl
theorem share0_2 (c : Dev nD) : (dat0 V c).share 2 = fullShare.left := rfl
theorem share0_3 (c : Dev nD) : (dat0 V c).share 3 = fullShare.right := rfl
theorem share0_4 (c : Dev nD) : (dat0 V c).share 4 = fullShare := rfl
theorem share0_5 (c : Dev nD) : (dat0 V c).share 5 = fullShare := rfl
theorem share0_6 (c : Dev nD) : (dat0 V c).share 6 = fullShare := rfl

theorem set0 (w : Fin cfg0.W) : (cfg0.win w).arr.view.set = Finset.univ := (arr_whole0 w).set_eq_univ

/-- Region 0's arrays one by one: the array l is behind windows 2 and 3, a half each. -/
theorem arrays0_eq (c : Dev nD) (Fn : (w : Fin cfg0.W) → Buf (Elt F) ((cfg0.win w).arr.view.loc (c : Thread nD τ))) :
    (dat0 V c).arrays Fn = (iprop((((c : Thread nD τ).loc main_arg0) ↦{fullShare} Fn 0) ∗ (((c : Thread nD τ).loc main_v0) ↦{fullShare} Fn 1)
      ∗ (((c : Thread nD τ).loc main_arg1) ↦{fullShare.left} Fn 2) ∗ (((c : Thread nD τ).loc main_arg1) ↦{fullShare.right} Fn 3)
      ∗ (((c : Thread nD τ).loc main_v4) ↦{fullShare} Fn 4) ∗ (((c : Thread nD τ).loc main_v5_0) ↦{fullShare} Fn 5)
      ∗ (((c : Thread nD τ).loc main_v5_1) ↦{fullShare} Fn 6)) : sProp 𝕄) := by
  unfold Dat.arrays
  rw [bigSep_W0, set0 0, set0 1, set0 2, set0 4, set0 5, set0 6, share0_0, share0_1, share0_2, share0_3, share0_4, share0_5, share0_6]

/-- The buffers behind region 0's arrays, one by one. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_v0) ↦{fullShare} W main_v0)
        ∗ (((c : Thread nD τ).loc main_arg1) ↦{fullShare} W main_arg1) ∗ (((c : Thread nD τ).loc main_v4) ↦{fullShare} W main_v4)
        ∗ (((c : Thread nD τ).loc main_v5_0) ↦{fullShare} W main_v5_0) ∗ (((c : Thread nD τ).loc main_v5_1) ↦{fullShare} W main_v5_1)) := by
  unfold Pipeline.arrBufs
  exact bigSep_eq_bigSepL_of_eq [main_arg0, main_v0, main_arg1, main_v4, main_v5_0, main_v5_1] (by decide) (by decide) _

theorem share1_0 (c : Dev nD) : (dat1 V c).share 0 = fullShare := rfl
theorem share1_1 (c : Dev nD) : (dat1 V c).share 1 = fullShare := rfl
theorem share1_2 (c : Dev nD) : (dat1 V c).share 2 = fullShare.left := rfl
theorem share1_3 (c : Dev nD) : (dat1 V c).share 3 = fullShare.right := rfl
theorem share1_4 (c : Dev nD) : (dat1 V c).share 4 = fullShare := rfl
theorem share1_5 (c : Dev nD) : (dat1 V c).share 5 = fullShare := rfl
theorem share1_6 (c : Dev nD) : (dat1 V c).share 6 = fullShare := rfl
theorem share1_7 (c : Dev nD) : (dat1 V c).share 7 = fullShare := rfl

theorem set1 (w : Fin cfg1.W) : (cfg1.win w).arr.view.set = Finset.univ := (arr_whole1 w).set_eq_univ

/-- Region 1's arrays one by one. -/
theorem arrays1_eq (c : Dev nD) (Fn : (w : Fin cfg1.W) → Buf (Elt F) ((cfg1.win w).arr.view.loc (c : Thread nD τ))) :
    (dat1 V c).arrays Fn = (iprop((((c : Thread nD τ).loc main_arg0) ↦{fullShare} Fn 0) ∗ (((c : Thread nD τ).loc main_v0) ↦{fullShare} Fn 1)
      ∗ (((c : Thread nD τ).loc main_arg1) ↦{fullShare.left} Fn 2) ∗ (((c : Thread nD τ).loc main_arg1) ↦{fullShare.right} Fn 3)
      ∗ (((c : Thread nD τ).loc main_v4) ↦{fullShare} Fn 4) ∗ (((c : Thread nD τ).loc main_v5_0) ↦{fullShare} Fn 5)
      ∗ (((c : Thread nD τ).loc main_v5_1) ↦{fullShare} Fn 6) ∗ (((c : Thread nD τ).loc main_v6) ↦{fullShare} Fn 7)) : sProp 𝕄) := by
  unfold Dat.arrays
  rw [bigSep_W1, set1 0, set1 1, set1 2, set1 4, set1 5, set1 6, set1 7, share1_0, share1_1, share1_2, share1_3, share1_4, share1_5, share1_6, share1_7]

/-- The buffers behind region 1's arrays, one by one. -/
theorem arrBufs1_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_arg0) ↦{fullShare} W main_arg0) ∗ (((c : Thread nD τ).loc main_v0) ↦{fullShare} W main_v0)
        ∗ (((c : Thread nD τ).loc main_arg1) ↦{fullShare} W main_arg1) ∗ (((c : Thread nD τ).loc main_v4) ↦{fullShare} W main_v4)
        ∗ (((c : Thread nD τ).loc main_v5_0) ↦{fullShare} W main_v5_0) ∗ (((c : Thread nD τ).loc main_v5_1) ↦{fullShare} W main_v5_1)
        ∗ (((c : Thread nD τ).loc main_v6) ↦{fullShare} W main_v6)) := by
  unfold Pipeline.arrBufs
  exact bigSep_eq_bigSepL_of_eq [main_arg0, main_v0, main_arg1, main_v4, main_v5_0, main_v5_1, main_v6] (by decide) (by decide) _

/-- A buffer held whole is its two halves, and back. -/
theorem halves (ℓ : Loc nD τ sig) (f : Buf (Elt F) ℓ) :
    ((ℓ ↦{fullShare} f) : sProp 𝕄) ⊣⊢ iprop((ℓ ↦{fullShare.left} f) ∗ ℓ ↦{fullShare.right} f) :=
  pointsTo_share (PosShare.mem_left_op_right fullShare)

/-- ENTRY of region 0: the buffers behind its arrays, at the contents the region is entered with, are its arrays. -/
theorem split0 (c : Dev nD) :
    (Pipeline.arrBufs (Ix := Unit) (Name := ℕ) (U := UR sig nD τ) (Lvl := ℕ) spec0 c (V c) : sProp 𝕄)
      ⊢ (dat0 V c).arrays ((dat0 V c).arrAt · 0) := by
  rw [arrBufs0_eq, arrays0_eq]
  iintro ⟨H0, H1, H2, H4, H5, H6⟩
  ihave H23 := (halves _ _).1 $$ H2
  icases H23 with ⟨H2, H3⟩
  isplitl [H0]; · iexact H0
  isplitl [H1]; · iexact H1
  isplitl [H2]; · iexact H2
  isplitl [H3]; · iexact H3
  isplitl [H4]; · iexact H4
  isplitl [H5]; · iexact H5
  iexact H6

/-- EXIT of region 0: its arrays after the last tile are the buffers behind them at any contents that keep the inputs
    and hold the two outputs' last write-back. -/
theorem join0 (V : (c : Dev nD) → (b : Ref sig .tc) → Buf (Elt F) ((c : Thread nD τ).loc b)) (c : Dev nD)
    (W' : (b : Ref sig .tc) → Buf (Elt F) ((c : Thread nD τ).loc b))
    (h0 : W' main_arg0 = V c main_arg0) (h1 : W' main_v0 = V c main_v0) (h2 : W' main_arg1 = V c main_arg1) (h4 : W' main_v4 = V c main_v4)
    (h5 : W' main_v5_0 = (dat0 V c).arrAt 5 cfg0.N) (h6 : W' main_v5_1 = (dat0 V c).arrAt 6 cfg0.N) :
    (dat0 V c).arrays ((dat0 V c).arrAt · cfg0.N)
      ⊢ (Pipeline.arrBufs (Ix := Unit) (Name := ℕ) (U := UR sig nD τ) (Lvl := ℕ) spec0 c W' : sProp 𝕄) := by
  have e0 : (dat0 V c).arrAt 0 cfg0.N = W' main_arg0 := ((dat0 V c).arrAt_in 0 rfl _).trans ((A_eq0 V c 0).trans h0.symm)
  have e1 : (dat0 V c).arrAt 1 cfg0.N = W' main_v0 := ((dat0 V c).arrAt_in 1 rfl _).trans ((A_eq0 V c 1).trans h1.symm)
  have e2 : (dat0 V c).arrAt 2 cfg0.N = W' main_arg1 := ((dat0 V c).arrAt_in 2 rfl _).trans ((A_eq0 V c 2).trans h2.symm)
  have e3 : (dat0 V c).arrAt 3 cfg0.N = W' main_arg1 := ((dat0 V c).arrAt_in 3 rfl _).trans ((A_eq0 V c 3).trans h2.symm)
  have e4 : (dat0 V c).arrAt 4 cfg0.N = W' main_v4 := ((dat0 V c).arrAt_in 4 rfl _).trans ((A_eq0 V c 4).trans h4.symm)
  rw [arrBufs0_eq, arrays0_eq, e0, e1, e2, e3, e4, ← h5, ← h6]
  iintro ⟨H0, H1, H2, H3, H4, H5, H6⟩
  isplitl [H0]; · iexact H0
  isplitl [H1]; · iexact H1
  isplitl [H2 H3]
  · iapply (halves _ _).2; isplitl [H2]; · iexact H2
    iexact H3
  isplitl [H4]; · iexact H4
  isplitl [H5]; · iexact H5
  iexact H6

/-- ENTRY of region 1: the buffers behind its arrays, at the contents the region is entered with, are its arrays. -/
theorem split1 (V : (c : Dev nD) → (b : Ref sig .tc) → Buf (Elt F) ((c : Thread nD τ).loc b)) (c : Dev nD) :
    (Pipeline.arrBufs (Ix := Unit) (Name := ℕ) (U := UR sig nD τ) (Lvl := ℕ) spec1 c (V c) : sProp 𝕄)
      ⊢ (dat1 V c).arrays ((dat1 V c).arrAt · 0) := by
  rw [arrBufs1_eq, arrays1_eq]
  iintro ⟨H0, H1, H2, H4, H5, H6, H7⟩
  ihave H23 := (halves _ _).1 $$ H2
  icases H23 with ⟨H2, H3⟩
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- EXIT of region 1: its arrays after the last tile are the buffers behind them at any contents that keep the inputs
    and hold the output's last write-back. -/
theorem join1 (V : (c : Dev nD) → (b : Ref sig .tc) → Buf (Elt F) ((c : Thread nD τ).loc b)) (c : Dev nD)
    (W' : (b : Ref sig .tc) → Buf (Elt F) ((c : Thread nD τ).loc b))
    (h0 : W' main_arg0 = V c main_arg0) (h1 : W' main_v0 = V c main_v0) (h2 : W' main_arg1 = V c main_arg1) (h4 : W' main_v4 = V c main_v4)
    (h5 : W' main_v5_0 = V c main_v5_0) (h6 : W' main_v5_1 = V c main_v5_1)
    (h7 : W' main_v6 = (dat1 V c).arrAt 7 cfg1.N) :
    (dat1 V c).arrays ((dat1 V c).arrAt · cfg1.N)
      ⊢ (Pipeline.arrBufs (Ix := Unit) (Name := ℕ) (U := UR sig nD τ) (Lvl := ℕ) spec1 c W' : sProp 𝕄) := by
  have e0 : (dat1 V c).arrAt 0 cfg1.N = W' main_arg0 := ((dat1 V c).arrAt_in 0 rfl _).trans ((A_eq1 V c 0).trans h0.symm)
  have e1 : (dat1 V c).arrAt 1 cfg1.N = W' main_v0 := ((dat1 V c).arrAt_in 1 rfl _).trans ((A_eq1 V c 1).trans h1.symm)
  have e2 : (dat1 V c).arrAt 2 cfg1.N = W' main_arg1 := ((dat1 V c).arrAt_in 2 rfl _).trans ((A_eq1 V c 2).trans h2.symm)
  have e3 : (dat1 V c).arrAt 3 cfg1.N = W' main_arg1 := ((dat1 V c).arrAt_in 3 rfl _).trans ((A_eq1 V c 3).trans h2.symm)
  have e4 : (dat1 V c).arrAt 4 cfg1.N = W' main_v4 := ((dat1 V c).arrAt_in 4 rfl _).trans ((A_eq1 V c 4).trans h4.symm)
  have e5 : (dat1 V c).arrAt 5 cfg1.N = W' main_v5_0 := ((dat1 V c).arrAt_in 5 rfl _).trans ((A_eq1 V c 5).trans h5.symm)
  have e6 : (dat1 V c).arrAt 6 cfg1.N = W' main_v5_1 := ((dat1 V c).arrAt_in 6 rfl _).trans ((A_eq1 V c 6).trans h6.symm)
  rw [arrBufs1_eq, arrays1_eq, e0, e1, e2, e3, e4, e5, e6, ← h7]
  iintro ⟨H0, H1, H2, H3, H4, H5, H6, H7⟩
  isplitl [H0]; · iexact H0
  isplitl [H1]; · iexact H1
  isplitl [H2 H3]
  · iapply (halves _ _).2; isplitl [H2]; · iexact H2
    iexact H3
  isplitl [H4]; · iexact H4
  isplitl [H5]; · iexact H5
  isplitl [H6]; · iexact H6
  iexact H7

end Arrays

/-! ## The buffers' contents between the program's items -/

section Run

variable (m : (ℓ : Loc nD τ sig) → Buf (Elt F) ℓ)

/-- Core `c`'s buffers at launch. -/
abbrev W0 (c : Dev nD) : Valuation τ sig (Elt F) := fun b => m (c, b)
/-- After the host operations before region 0 (y as a row vector; the squared norms of l's rows as a row vector). -/
abbrev W1 (c : Dev nD) : Valuation τ sig (Elt F) := StableHlo.after hostOps0 (W0 m c)
/-- The same read at the TensorCore's references: what region 0 is entered with. -/
abbrev VR1 : (c : Dev nD) → (b : Ref sig .tc) → Buf (Elt F) ((c : Thread nD τ).loc b) := fun c b => W1 m c b
/-- After region 0: its two output arrays at what its last tile wrote back, every other buffer as entered. -/
def W2 (c : Dev nD) : Valuation τ sig (Elt F) :=
  Function.update (Function.update (W1 m c) main_v5_0 ((dat0 (VR1 m) c).arrAt 5 cfg0.N)) main_v5_1 ((dat0 (VR1 m) c).arrAt 6 cfg0.N)
/-- The same read at the TensorCore's references: what region 1 is entered with. -/
abbrev VR2 : (c : Dev nD) → (b : Ref sig .tc) → Buf (Elt F) ((c : Thread nD τ).loc b) := fun c b => W2 m c b
/-- After region 1: its output array at what its last tile wrote back. -/
def W3 (c : Dev nD) : Valuation τ sig (Elt F) :=
  Function.update (W2 m c) main_v6 ((dat1 (VR2 m) c).arrAt 7 cfg1.N)
/-- The same read at the TensorCore's references. -/
abbrev VR3 : (c : Dev nD) → (b : Ref sig .tc) → Buf (Elt F) ((c : Thread nD τ).loc b) := fun c b => W3 m c b
/-- After the last host operation (the result as a scalar). -/
abbrev W4 (c : Dev nD) : Valuation τ sig (Elt F) := StableHlo.after hostOps2 (W3 m c)

theorem W2_v5_0 (c : Dev nD) : W2 m c main_v5_0 = (dat0 (VR1 m) c).arrAt 5 cfg0.N := by
  unfold W2
  rw [Function.update_of_ne (StableHlo.devRef_ne_of_ne (by decide) : (Proc.devRef .tc main_v5_0 : DevRef τ sig) ≠ Proc.devRef .tc main_v5_1), Function.update_self]
theorem W2_v5_1 (c : Dev nD) : W2 m c main_v5_1 = (dat0 (VR1 m) c).arrAt 6 cfg0.N := by
  unfold W2; rw [Function.update_self]
theorem W2_of (c : Dev nD) (r : Ref sig .tc) (h : r ∉ ([main_v5_0, main_v5_1] : List (Ref sig .tc))) : W2 m c r = W1 m c r := by
  unfold W2
  rw [Function.update_of_ne (StableHlo.devRef_ne_of_ne (List.ne_of_not_mem_cons (List.not_mem_of_not_mem_cons h)) : (Proc.devRef .tc r : DevRef τ sig) ≠ Proc.devRef .tc main_v5_1),
    Function.update_of_ne (StableHlo.devRef_ne_of_ne (List.ne_of_not_mem_cons h) : (Proc.devRef .tc r : DevRef τ sig) ≠ Proc.devRef .tc main_v5_0)]
theorem W3_v6 (c : Dev nD) : W3 m c main_v6 = (dat1 (VR2 m) c).arrAt 7 cfg1.N := by
  unfold W3; rw [Function.update_self]
theorem W3_of (c : Dev nD) (r : Ref sig .tc) (h : r ∉ ([main_v6] : List (Ref sig .tc))) : W3 m c r = W2 m c r := by
  unfold W3
  rw [Function.update_of_ne (StableHlo.devRef_ne_of_ne (List.ne_of_not_mem_cons h) : (Proc.devRef .tc r : DevRef τ sig) ≠ Proc.devRef .tc main_v6)]

theorem VR2_of (c : Dev nD) (r : Ref sig .tc) (h : r ∉ ([main_v5_0, main_v5_1] : List (Ref sig .tc))) : VR2 m c r = VR1 m c r := W2_of m c r h
theorem VR3_of (c : Dev nD) (r : Ref sig .tc) (h : r ∉ ([main_v6] : List (Ref sig .tc))) : VR3 m c r = VR2 m c r := W3_of m c r h

/-- The unscoped buffers that are no array of region 0 are the same before and after it. -/
theorem rest0_keep (c : Dev nD) :
    (Pipeline.unscopedRest (Ix := Unit) (Name := ℕ) (U := UR sig nD τ) (Lvl := ℕ) spec0 c (VR2 m c) : sProp 𝕄)
      = Pipeline.unscopedRest (Ix := Unit) (Name := ℕ) (U := UR sig nD τ) (Lvl := ℕ) spec0 c (VR1 m c) := by
  rw [unscopedRest0_eq, unscopedRest0_eq]
  rw [VR2_of m c main_v1 (by decide), VR2_of m c main_cst (by decide), VR2_of m c main_v2 (by decide), VR2_of m c main_v3 (by decide),
    VR2_of m c main_v6 (by decide), VR2_of m c main_v7 (by decide)]

/-- The unscoped buffers that are no array of region 1 are the same before and after it. -/
theorem rest1_keep (c : Dev nD) :
    (Pipeline.unscopedRest (Ix := Unit) (Name := ℕ) (U := UR sig nD τ) (Lvl := ℕ) spec1 c (VR3 m c) : sProp 𝕄)
      = Pipeline.unscopedRest (Ix := Unit) (Name := ℕ) (U := UR sig nD τ) (Lvl := ℕ) spec1 c (VR2 m c) := by
  rw [unscopedRest1_eq, unscopedRest1_eq]
  rw [VR3_of m c main_v1 (by decide), VR3_of m c main_cst (by decide), VR3_of m c main_v2 (by decide), VR3_of m c main_v3 (by decide),
    VR3_of m c main_v7 (by decide)]

/-- EXIT of region 0, whole: its arrays after the last tile beside the buffers it bypassed are every unscoped buffer at
    the valuation after the region. -/
theorem exit0 (c : Dev nD) :
    iprop((dat0 (VR1 m) c).arrays ((dat0 (VR1 m) c).arrAt · cfg0.N)
        ∗ Pipeline.unscopedRest (Ix := Unit) (Name := ℕ) (U := UR sig nD τ) (Lvl := ℕ) spec0 c (VR1 m c))
      ⊢ (StableHlo.held (c : Thread nD τ) (Pipeline.ucRefs τ sig) (W2 m c) : sProp 𝕄) := by
  rw [← Pipeline.unscopedBufs_held c (W2 m c), Pipeline.unscopedBufs_split₀ cfgs 0 winFacts₀0.arr_unscoped c (VR2 m c)]
  show _ ⊢ iprop(Pipeline.arrBufs spec0 c (VR2 m c) ∗ Pipeline.unscopedRest spec0 c (VR2 m c))
  rw [rest0_keep]
  exact sep_mono (join0 (VR1 m) c (VR2 m c) (W2_of m c main_arg0 (by decide)) (W2_of m c main_v0 (by decide)) (W2_of m c main_arg1 (by decide))
    (W2_of m c main_v4 (by decide)) (W2_v5_0 m c) (W2_v5_1 m c)) .rfl

/-- EXIT of region 1, whole. -/
theorem exit1 (c : Dev nD) :
    iprop((dat1 (VR2 m) c).arrays ((dat1 (VR2 m) c).arrAt · cfg1.N)
        ∗ Pipeline.unscopedRest (Ix := Unit) (Name := ℕ) (U := UR sig nD τ) (Lvl := ℕ) spec1 c (VR2 m c))
      ⊢ (StableHlo.held (c : Thread nD τ) (Pipeline.ucRefs τ sig) (W3 m c) : sProp 𝕄) := by
  rw [← Pipeline.unscopedBufs_held c (W3 m c), Pipeline.unscopedBufs_split₀ cfgs 1 winFacts₀1.arr_unscoped c (VR3 m c)]
  show _ ⊢ iprop(Pipeline.arrBufs spec1 c (VR3 m c) ∗ Pipeline.unscopedRest spec1 c (VR3 m c))
  rw [rest1_keep]
  exact sep_mono (join1 (VR2 m) c (VR3 m c) (W3_of m c main_arg0 (by decide)) (W3_of m c main_v0 (by decide)) (W3_of m c main_arg1 (by decide))
    (W3_of m c main_v4 (by decide)) (W3_of m c main_v5_0 (by decide)) (W3_of m c main_v5_1 (by decide)) (W3_v6 m c)) .rfl

/-- ENTRY of a region, whole: every unscoped buffer at the valuation before it is its arrays at their entry contents
    beside the buffers it bypasses. -/
theorem entry0 (c : Dev nD) :
    (StableHlo.held (c : Thread nD τ) (Pipeline.ucRefs τ sig) (W1 m c) : sProp 𝕄)
      ⊢ iprop((dat0 (VR1 m) c).arrays ((dat0 (VR1 m) c).arrAt · 0)
          ∗ Pipeline.unscopedRest (Ix := Unit) (Name := ℕ) (U := UR sig nD τ) (Lvl := ℕ) spec0 c (VR1 m c)) := by
  rw [← Pipeline.unscopedBufs_held c (W1 m c), Pipeline.unscopedBufs_split₀ cfgs 0 winFacts₀0.arr_unscoped c (VR1 m c)]
  show iprop(Pipeline.arrBufs spec0 c (VR1 m c) ∗ Pipeline.unscopedRest spec0 c (VR1 m c)) ⊢ _
  exact sep_mono (split0 (VR1 m) c) .rfl
theorem entry1 (c : Dev nD) :
    (StableHlo.held (c : Thread nD τ) (Pipeline.ucRefs τ sig) (W2 m c) : sProp 𝕄)
      ⊢ iprop((dat1 (VR2 m) c).arrays ((dat1 (VR2 m) c).arrAt · 0)
          ∗ Pipeline.unscopedRest (Ix := Unit) (Name := ℕ) (U := UR sig nD τ) (Lvl := ℕ) spec1 c (VR2 m c)) := by
  rw [← Pipeline.unscopedBufs_held c (W2 m c), Pipeline.unscopedBufs_split₀ cfgs 1 winFacts₀1.arr_unscoped c (VR2 m c)]
  show iprop(Pipeline.arrBufs spec1 c (VR2 m c) ∗ Pipeline.unscopedRest spec1 c (VR2 m c)) ⊢ _
  exact sep_mono (split1 (VR2 m) c) .rfl

end Run

/-! ## The regions as segments, and the run -/

section Launch

variable (m : (ℓ : Loc nD τ sig) → Buf (Elt F) ℓ) (ρ : Dev nD → PrngReg)

/-- Both pipelines' proof data, each at its region's entry contents. -/
def kpdats : (p : Fin 2) → (c : Dev nD) → Dat τ (Elt F) Unit ℕ (UR sig nD τ) ℕ (Pipeline.pin (pcfgs (F := F)) adm p) c
  | ⟨0, _⟩ => fun c => dat0 (VR1 m) c
  | ⟨1, _⟩ => fun c => dat1 (VR2 m) c
/-- No core owes another anything: no level is assigned. -/
abbrev kL : GSem nD τ sig → Finset Unit := fun _ => ∅
abbrev klv : GSem nD τ sig → Unit → ℕ := fun _ _ => 0
/-- What rides beside the buffers through every item: the core's generator register at some state, and its debts, none. -/
abbrev kR (c : Dev nD) : sProp 𝕄 := iprop((∃ r, prngReg c r) ∗ ∃ W, owes (c : Thread nD τ) (0 : CellTallies nD τ sig Unit) W)
/-- A stretch of host operations as a segment over every unscoped buffer, from the contents `W`. -/
abbrev khseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none kL klv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W kR

-- a library lemma stated over the pinned configuration unifies with the printed one only when unification may
-- unfold plain definitions in a metavariable's type
set_option backward.isDefEq.respectTransparency.types false in
/-- REGION 0 over the thread state: entered with every unscoped buffer at `W1`, left with them at `W2`; the
    generator register goes into the region's invariant and comes back; nothing is owed; the kernel has no semaphore of
    its own. -/
def kreg0 (hb : ∀ (V : (c : Dev nD) → (b : Ref sig .tc) → Buf (Elt F) ((c : Thread nD τ).loc b)) (c : Dev nD),
      BodyObligation (dat0 (F := F) V c) (defs₀ (F := F)) Variants.none () Set.univ)
    (ho : ∀ (V : (c : Dev nD) → (b : Ref sig .tc) → Buf (Elt F) ((c : Thread nD τ).loc b)) (c : Dev nD),
      (dat0 (F := F) V c).Φ (Fin.last cfg0.N) ⊢ Pipeline.ΦA spec0 c) :
    Pipeline.RegionSeg (pcfgs (F := F)) adm (kpdats m) () defs₀ Variants.none kL klv 0 where
  win := winFacts₀0
  block_pos := block_pos0
  stage_whole := stage_whole0
  K := PEmpty
  osem k := k.elim
  ho := Pipeline.OwnSemFacts.none _
  hbody c := (hb (VR1 m) c).loose
  hwaits := Pipeline.hwaits_of_owed_zero _ _ _ _ kL klv 0 fun _ _ => rfl
  pre c := iprop(StableHlo.held (c : Thread nD τ) (Pipeline.ucRefs τ sig) (W1 m c) ∗ kR c)
  post c := iprop(StableHlo.held (c : Thread nD τ) (Pipeline.ucRefs τ sig) (W2 m c) ∗ kR c)
  X c := iprop(∃ r, prngReg c r)
  Y c := iprop(∃ r, prngReg c r)
  Z c := Pipeline.unscopedRest (Ix := Unit) (Name := ℕ) (U := UR sig nD τ) (Lvl := ℕ) spec0 c (VR1 m c)
  hentry c := by
    rw [Pipeline.ownSems0_none]
    iintro ⟨⟨Hub, Hp, HO⟩, -, -⟩
    ihave H := (entry0 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (kpdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (ho (VR1 m) c).trans ?_
    unfold Pipeline.ΦA
    iintro ⟨Hr, Hp⟩
    isplitl [Hp]; · iexact Hp
    isplitr; · iempintro
    iexact Hr
  hexit c := by
    have hjoin : iprop((kpdats m 0 c).arrays ((kpdats m 0 c).arrAt · cfg0.N)
          ∗ Pipeline.unscopedRest (Ix := Unit) (Name := ℕ) (U := UR sig nD τ) (Lvl := ℕ) spec0 c (VR1 m c))
        ⊢ (StableHlo.held (c : Thread nD τ) (Pipeline.ucRefs τ sig) (W2 m c) : sProp 𝕄) := exit0 m c
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- REGION 1 over the thread state: entered with every unscoped buffer at `W2`, left with them at `W3`; the
    generator register goes into the region's invariant and comes back; nothing is owed; the kernel has no semaphore of
    its own. -/
def kreg1 (hb : ∀ (V : (c : Dev nD) → (b : Ref sig .tc) → Buf (Elt F) ((c : Thread nD τ).loc b)) (c : Dev nD),
      BodyObligation (dat1 (F := F) V c) (defs₀ (F := F)) Variants.none () Set.univ)
    (ho : ∀ (V : (c : Dev nD) → (b : Ref sig .tc) → Buf (Elt F) ((c : Thread nD τ).loc b)) (c : Dev nD),
      (dat1 (F := F) V c).Φ (Fin.last cfg1.N) ⊢ Pipeline.ΦA spec1 c) :
    Pipeline.RegionSeg (pcfgs (F := F)) adm (kpdats m) () defs₀ Variants.none kL klv 1 where
  win := winFacts₀1
  block_pos := block_pos1
  stage_whole := stage_whole1
  K := PEmpty
  osem k := k.elim
  ho := Pipeline.OwnSemFacts.none _
  hbody c := (hb (VR2 m) c).loose
  hwaits := Pipeline.hwaits_of_owed_zero _ _ _ _ kL klv 1 fun _ _ => rfl
  pre c := iprop(StableHlo.held (c : Thread nD τ) (Pipeline.ucRefs τ sig) (W2 m c) ∗ kR c)
  post c := iprop(StableHlo.held (c : Thread nD τ) (Pipeline.ucRefs τ sig) (W3 m c) ∗ kR c)
  X c := iprop(∃ r, prngReg c r)
  Y c := iprop(∃ r, prngReg c r)
  Z c := Pipeline.unscopedRest (Ix := Unit) (Name := ℕ) (U := UR sig nD τ) (Lvl := ℕ) spec1 c (VR2 m c)
  hentry c := by
    rw [Pipeline.ownSems0_none]
    iintro ⟨⟨Hub, Hp, HO⟩, -, -⟩
    ihave H := (entry1 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (kpdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (ho (VR2 m) c).trans ?_
    unfold Pipeline.ΦA
    iintro ⟨Hr, Hp⟩
    isplitl [Hp]; · iexact Hp
    isplitr; · iempintro
    iexact Hr
  hexit c := by
    have hjoin : iprop((kpdats m 1 c).arrays ((kpdats m 1 c).arrAt · cfg1.N)
          ∗ Pipeline.unscopedRest (Ix := Unit) (Name := ℕ) (U := UR sig nD τ) (Lvl := ℕ) spec1 c (VR2 m c))
        ⊢ (StableHlo.held (c : Thread nD τ) (Pipeline.ucRefs τ sig) (W3 m c) : sProp 𝕄) := exit1 m c
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Launch

/-! ## The run -/

section TheRun

variable (m : (ℓ : Loc nD τ sig) → Buf (Elt F) ℓ) (ρ : Dev nD → PrngReg)
variable (hb0 : ∀ (V : (c : Dev nD) → (b : Ref sig .tc) → Buf (Elt F) ((c : Thread nD τ).loc b)) (c : Dev nD),
      BodyObligation (dat0 (F := F) V c) (defs₀ (F := F)) Variants.none () Set.univ)
  (ho0 : ∀ (V : (c : Dev nD) → (b : Ref sig .tc) → Buf (Elt F) ((c : Thread nD τ).loc b)) (c : Dev nD),
      (dat0 (F := F) V c).Φ (Fin.last cfg0.N) ⊢ Pipeline.ΦA spec0 c)
  (hb1 : ∀ (V : (c : Dev nD) → (b : Ref sig .tc) → Buf (Elt F) ((c : Thread nD τ).loc b)) (c : Dev nD),
      BodyObligation (dat1 (F := F) V c) (defs₀ (F := F)) Variants.none () Set.univ)
  (ho1 : ∀ (V : (c : Dev nD) → (b : Ref sig .tc) → Buf (Elt F) ((c : Thread nD τ).loc b)) (c : Dev nD),
      (dat1 (F := F) V c).Φ (Fin.last cfg1.N) ⊢ Pipeline.ΦA spec1 c)

/-- The program's four items in order: the host operations before, the two regions, the host operation after. -/
abbrev kSegs : List (Pipeline.Seg (pcfgs (F := F)) adm (kpdats m) () defs₀ Variants.none kL klv) :=
  [ .host (khseg hostOps0 hostOps0_sub hostOps0_fresh (W0 m)),
    .region (kreg0 m hb0 ho0),
    .region (kreg1 m hb1 ho1),
    .host (khseg hostOps2 hostOps2_sub hostOps2_fresh (W3 m)) ]

/-- The program IS the run of these items. -/
theorem main_run (c : Dev nD) : main (F := F) c = Pipeline.Seg.run (kSegs m hb0 ho0 hb1 ho1) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the debts: every unscoped buffer at the last valuation, the generator register at some state. -/
abbrev kTn (c : Dev nD) : sProp 𝕄 := iprop(StableHlo.held (c : Thread nD τ) (Pipeline.ucRefs τ sig) (W4 m c) ∗ ∃ r, prngReg c r)

-- the launch theorem's implicit arguments are found by unifying its conclusion with this one, which takes unfolding
-- plain definitions in a metavariable's type
include hb0 ho0 hb1 ho1 in
set_option backward.isDefEq.respectTransparency.types false in
/-- THE RUN. From any memory with zero counters every weakly fair execution of the program terminates, nothing faulting,
    and in every final memory every unscoped buffer of every core holds the last valuation `W4`: the launch memory, then
    the host operations' results, then the regions' last write-backs, then the final reshape. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W4 m c b) :=
  Pipeline.θ_run_regions_kit (pcfgs (F := F)) adm (kpdats m) () cellOf_inj emb₁ defs₀ Variants.none kL klv m ρ main (kSegs m hb0 ho0 hb1 ho1)
    (fun c Q => by rw [main_run m hb0 ho0 hb1 ho1 c])
    (by simp only [kSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ kR c)) (Tₙ := kTn m)
    (hch := ⟨fun _ => .rfl, fun _ => .rfl, fun _ => .rfl, fun _ => .rfl, fun c => by
      show iprop(StableHlo.held (c : Thread nD τ) (Pipeline.ucRefs τ sig) (W4 m c) ∗ kR c) ⊢ iprop(kTn m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach kL klv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

end TheRun

end Cert.KernelIdeal.Hand

end
-- ==== Proof.KI.Body0.lean ====
/-
  The body of region 0 (the partial sums) at any row tile, and the region's invariant at its two ends.

  At row tile t the body, if t is the first tile, stores zero into its two one-entry cells; it loads its five input
  staging buffers whole; it adds the tile's sum of exp(−|y_i − y_j|) to the first cell and the tile's sum of
  exp(−‖l_i − l_j‖) to the second, and copies each cell to its one-entry output staging buffer.  So after the body
  at tile t the cells, and the two outputs, hold the folds over the first t + 1 tiles, and every input staging
  buffer holds what it held.
-/
import proofs.«122636_j18751827214982_1_alg».proof.Proof.KI.Data
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' staging buffers -/

/-- Each input's current staging buffer holds its block at every tile, fetched there or not: unfetched, the block
    index has not moved, and the body leaves the block in place. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
      (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
      (fun t => by rw [after0_4]; unfold Dat.blockOf iblk0; rw [A_eq0]; try rfl) t d).trans
    (by unfold Dat.fetched Dat.blockOf iblk0; rw [A_eq0]; try rfl)

/-! ## The branch on the first tile -/

/-- The condition of the body's one branch, from the grid coordinate: the tile is the first. -/
abbrev cond0 (i : grid0.Coords) : Prop :=
  Scalar.cmpi .ne (Scalar.extui (Scalar.cmpi .eq (BitVec.ofNat 32 (i 0).val) 0#32)) 0#32 = 1#1

/-- It holds at tile 0 only: decided over the 128 tiles. -/
theorem hcond0 : ∀ t : Fin cfg0.N, cond0 (grid0.coords t) ↔ t.val = 0 :=
  (by decide +kernel : ∀ t : Fin grid0.N, cond0 (grid0.coords t) ↔ t.val = 0)

/-! ## One-entry buffers stored and loaded whole -/

theorem hz0 : (![0, 0] : Fin 2 → Nat) = fun _ => 0 := funext fun a => by fin_cases a <;> rfl

/-- The whole rectangle covers a one-entry buffer. -/
theorem cover11_r0 (p : Vec F S1x1 .f32) (y : S1x1.Idx) :
    ∃ pc ∈ ([⟨(Rect.unit (s := S1x1) ![0, 0] S1x1.size inb_S1x1_S1x1_0_0), p⟩] : List (View.Piece (Elt F) S1x1 .f32)), y ∈ pc.1.set :=
  View.cover_of_tiled [⟨(Rect.unit (s := S1x1) ![0, 0] S1x1.size inb_S1x1_S1x1_0_0), p⟩] S1x1.size (by rfl) y

/-- After a whole store, last of any stores, the buffer reads as that store's payload, whatever it held. -/
theorem read_store11_r0 (v : View sig .tc .vmem S1x1 .f32) (f : v.ty.Contents (Elt F)) (p : Vec F S1x1 .f32)
    (L : List (View.Piece (Elt F) S1x1 .f32)) :
    v.read (Elt F) (v.writes (Elt F) f (⟨(Rect.unit (s := S1x1) ![0, 0] S1x1.size inb_S1x1_S1x1_0_0), p⟩ :: L)) = p := by
  rw [View.read_writes_eq_canon _ _ _ (fun y => by
    obtain ⟨pc, hm, hy⟩ := cover11_r0 p y
    rw [List.mem_singleton] at hm; subst hm
    exact ⟨_, List.mem_cons.2 (Or.inl rfl), hy⟩), View.canon_cons_unit_zero hz0]

/-- A whole load after a whole store, last of any stores, reads that store's payload. -/
theorem readCov_store11_r0 (v : View sig .tc .vmem S1x1 .f32) (p : Vec F S1x1 .f32) (L : List (View.Piece (Elt F) S1x1 .f32)) :
    v.readCov (⟨(Rect.unit (s := S1x1) ![0, 0] S1x1.size inb_S1x1_S1x1_0_0), p⟩ :: L) (Rect.unit (s := S1x1) ![0, 0] S1x1.size inb_S1x1_S1x1_0_0).toLoadRect = p := by
  rw [View.readCov_eq_canon', View.canon_cons_unit_zero hz0]
  exact View.ld_unit_zero (S := S1x1) hz0 _ p

/-! ## The body's triple, on any whole memrefs -/

set_option maxHeartbeats 1000000 in
/-- At a tile that is not the first: the cells at `s8`, `s9`, the inputs' buffers at `x0 … x4`, the outputs' at anything;
    the body leaves each cell, and each output, at the cell's update by the tile, and the inputs' as they were. -/
theorem sound_kernel0_next (c : Dev nD) (E : Set ℕ) (i : grid0.Coords)
    (arg1 : Memref sig .tc .vmem S64x1 .f32) (harg1 : arg1.IsWhole) (arg2 : Memref sig .tc .vmem S1x8192 .f32) (harg2 : arg2.IsWhole)
    (arg3 : Memref sig .tc .vmem S64x128 .f32) (harg3 : arg3.IsWhole) (arg4 : Memref sig .tc .vmem S8192x128 .f32) (harg4 : arg4.IsWhole)
    (arg5 : Memref sig .tc .vmem S1x8192 .f32) (harg5 : arg5.IsWhole) (arg6 : Memref sig .tc .vmem S1x1 .f32) (harg6 : arg6.IsWhole)
    (arg7 : Memref sig .tc .vmem S1x1 .f32) (harg7 : arg7.IsWhole) (arg8 : Memref sig .tc .vmem S1x1 .f32) (harg8 : arg8.IsWhole)
    (arg9 : Memref sig .tc .vmem S1x1 .f32) (harg9 : arg9.IsWhole)
    (hc : ¬ cond0 i) (x0 : Vec F S64x1 .f32) (x1 : Vec F S1x8192 .f32) (x2 : Vec F S64x128 .f32) (x3 : Vec F S8192x128 .f32) (x4 : Vec F S1x8192 .f32)
    (s8 s9 : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ owns (c : Thread nD τ) arg8 fullShare s8 ∗ owns (c : Thread nD τ) arg9 fullShare s9
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare (stepY0 x0 x1 s8) ∗ owns (c : Thread nD τ) arg7 fullShare (stepL0 x2 x3 x4 s9)
            ∗ owns (c : Thread nD τ) arg8 fullShare (stepY0 x0 x1 s8) ∗ owns (c : Thread nD τ) arg9 fullShare (stepL0 x2 x3 x4 s9)) -∗ K ⟨⟩))
      ⊢ wp frame (wpE (defs₀ (F := F)) Variants.none c none) E (cc0__partial_sums_kernel i arg1 harg1 arg2 harg2 arg3 harg3 arg4 harg4 arg5 harg5 arg6 harg6 arg7 harg7 arg8 harg8 arg9 harg9) K := by
  simp only [cc0__partial_sums_kernel_eq_skeleton]; unfold cc0__partial_sums_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%f9, %hf9, H9⟩, Hk⟩
  obtain rfl := harg1.eq_unread hf1; obtain rfl := harg2.eq_unread hf2; obtain rfl := harg3.eq_unread hf3
  obtain rfl := harg4.eq_unread hf4; obtain rfl := harg5.eq_unread hf5
  obtain rfl := harg8.eq_unread hf8; obtain rfl := harg9.eq_unread hf9
  sl_exec (disch := first | exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    sl_unfold_words
    rw [read_store11_r0, readCov_store11_r0]
    simp only [View.readAt_eq_ld, harg1.read_unread, harg2.read_unread, harg8.read_unread,
      View.ld_unit_zero (S := S64x1) hz0, View.ld_unit_zero (S := S1x8192) hz0, View.ld_unit_zero (S := S1x1) hz0]
    rfl
  isplitl [H7]
  · iexists _; isplitr
    swap; · iexact H7
    ipureintro
    sl_unfold_words
    rw [read_store11_r0, readCov_store11_r0]
    simp only [View.readAt_eq_ld, harg3.read_unread, harg4.read_unread, harg5.read_unread, harg9.read_unread,
      View.ld_unit_zero (S := S64x128) hz0, View.ld_unit_zero (S := S8192x128) hz0, View.ld_unit_zero (S := S1x8192) hz0,
      View.ld_unit_zero (S := S1x1) hz0]
    rfl
  isplitl [H8]
  · iexists _; isplitr
    swap; · iexact H8
    ipureintro
    sl_unfold_words
    rw [read_store11_r0]
    simp only [View.readAt_eq_ld, harg1.read_unread, harg2.read_unread, harg8.read_unread,
      View.ld_unit_zero (S := S64x1) hz0, View.ld_unit_zero (S := S1x8192) hz0, View.ld_unit_zero (S := S1x1) hz0]
    rfl
  iexists _; isplitr
  swap; · iexact H9
  ipureintro
  sl_unfold_words
  rw [read_store11_r0]
  simp only [View.readAt_eq_ld, harg3.read_unread, harg4.read_unread, harg5.read_unread, harg9.read_unread,
      View.ld_unit_zero (S := S64x128) hz0, View.ld_unit_zero (S := S8192x128) hz0, View.ld_unit_zero (S := S1x8192) hz0,
      View.ld_unit_zero (S := S1x1) hz0]
  rfl

set_option maxHeartbeats 1000000 in
/-- At the first tile: the cells at anything; the body stores zero into them first, so it leaves each cell, and each
    output, at the zero's update by the tile. -/
theorem sound_kernel0_first (c : Dev nD) (E : Set ℕ) (i : grid0.Coords)
    (arg1 : Memref sig .tc .vmem S64x1 .f32) (harg1 : arg1.IsWhole) (arg2 : Memref sig .tc .vmem S1x8192 .f32) (harg2 : arg2.IsWhole)
    (arg3 : Memref sig .tc .vmem S64x128 .f32) (harg3 : arg3.IsWhole) (arg4 : Memref sig .tc .vmem S8192x128 .f32) (harg4 : arg4.IsWhole)
    (arg5 : Memref sig .tc .vmem S1x8192 .f32) (harg5 : arg5.IsWhole) (arg6 : Memref sig .tc .vmem S1x1 .f32) (harg6 : arg6.IsWhole)
    (arg7 : Memref sig .tc .vmem S1x1 .f32) (harg7 : arg7.IsWhole) (arg8 : Memref sig .tc .vmem S1x1 .f32) (harg8 : arg8.IsWhole)
    (arg9 : Memref sig .tc .vmem S1x1 .f32) (harg9 : arg9.IsWhole)
    (hc : cond0 i) (x0 : Vec F S64x1 .f32) (x1 : Vec F S1x8192 .f32) (x2 : Vec F S64x128 .f32) (x3 : Vec F S8192x128 .f32) (x4 : Vec F S1x8192 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare (stepY0 x0 x1 k0_pay2) ∗ owns (c : Thread nD τ) arg7 fullShare (stepL0 x2 x3 x4 k0_pay3)
            ∗ owns (c : Thread nD τ) arg8 fullShare (stepY0 x0 x1 k0_pay2) ∗ owns (c : Thread nD τ) arg9 fullShare (stepL0 x2 x3 x4 k0_pay3)) -∗ K ⟨⟩))
      ⊢ wp frame (wpE (defs₀ (F := F)) Variants.none c none) E (cc0__partial_sums_kernel i arg1 harg1 arg2 harg2 arg3 harg3 arg4 harg4 arg5 harg5 arg6 harg6 arg7 harg7 arg8 harg8 arg9 harg9) K := by
  simp only [cc0__partial_sums_kernel_eq_skeleton]; unfold cc0__partial_sums_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, Hk⟩
  obtain rfl := harg1.eq_unread hf1; obtain rfl := harg2.eq_unread hf2; obtain rfl := harg3.eq_unread hf3
  obtain rfl := harg4.eq_unread hf4; obtain rfl := harg5.eq_unread hf5
  sl_exec (disch := first | exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    sl_unfold_words
    rw [read_store11_r0, readCov_store11_r0, readCov_store11_r0]
    simp only [View.readAt_eq_ld, harg1.read_unread, harg2.read_unread,
      View.ld_unit_zero (S := S64x1) hz0, View.ld_unit_zero (S := S1x8192) hz0, View.ld_unit_zero (S := S1x1) hz0]
    rfl
  isplitl [H7]
  · iexists _; isplitr
    swap; · iexact H7
    ipureintro
    sl_unfold_words
    rw [read_store11_r0, readCov_store11_r0, readCov_store11_r0]
    simp only [View.readAt_eq_ld, harg3.read_unread, harg4.read_unread, harg5.read_unread,
      View.ld_unit_zero (S := S64x128) hz0, View.ld_unit_zero (S := S8192x128) hz0, View.ld_unit_zero (S := S1x8192) hz0,
      View.ld_unit_zero (S := S1x1) hz0]
    rfl
  isplitl [H8]
  · iexists _; isplitr
    swap; · iexact H8
    ipureintro
    sl_unfold_words
    rw [read_store11_r0, readCov_store11_r0]
    simp only [View.readAt_eq_ld, harg1.read_unread, harg2.read_unread,
      View.ld_unit_zero (S := S64x1) hz0, View.ld_unit_zero (S := S1x8192) hz0, View.ld_unit_zero (S := S1x1) hz0]
    rfl
  iexists _; isplitr
  swap; · iexact H9
  ipureintro
  sl_unfold_words
  rw [read_store11_r0, readCov_store11_r0]
  simp only [View.readAt_eq_ld, harg3.read_unread, harg4.read_unread, harg5.read_unread,
      View.ld_unit_zero (S := S64x128) hz0, View.ld_unit_zero (S := S8192x128) hz0, View.ld_unit_zero (S := S1x8192) hz0,
      View.ld_unit_zero (S := S1x1) hz0]
  rfl

/-! ## The region's invariant, opened -/

/-- What the launch hands the region, with the region's two cells as memrefs owned at some contents beside the
    scoped buffers the region never touches. -/
theorem PhiA0_eq (c : Dev nD) :
    (Pipeline.ΦA spec0 c : sProp 𝕄)
      = iprop((((∃ d, owns (c : Thread nD τ) sc0_0 fullShare d) ∗ (∃ d, owns (c : Thread nD τ) sc0_1 fullShare d)) ∗ rest0 c)
          ∗ ∃ r, prngReg c r) := by
  unfold Pipeline.ΦA
  rw [Pipeline.scopedRest_split_of_list spec0 c [cc0_scratch0, cc0_scratch1] (by decide) (by decide)]
  simp only [sc0_0, sc0_1, owns_whole]
  rfl

/-- Before any tile but the first the cells hold the folds. -/
theorem PhiS0_pos (c : Dev nD) (n : ℕ) (hn : n ≠ 0) :
    PhiS0 V c n = iprop(owns (c : Thread nD τ) sc0_0 fullShare (accY0 V c n) ∗ owns (c : Thread nD τ) sc0_1 fullShare (accL0 V c n)
      ∗ rest0 c ∗ ∃ r, prngReg c r) := by
  cases n with
  | zero => exact absurd rfl hn
  | succ n => rfl

/-! ## The body obligation, at a generic tile -/

/-- What the body is called with at tile `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 2000000 in
/-- The body at any tile: the inputs' memrefs hold their blocks; at the first tile the invariant hands the cells at
    anything and the body zeroes them, at a later tile it hands them at the folds over the tiles before; either way
    the body leaves the cells and the outputs at the folds over the tiles up to this one, which is the invariant
    at the next tile and what the outputs' windows are stated to hold; the untouched scoped buffers, the generator
    register and what the core owes pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl,
    after0_0, after0_1, after0_2, after0_3, after0_4, after0_5, after0_6, Phi0_eq, Phi0_eq,
    Fin.val_succ, Fin.coe_castSucc, PhiS0_pos V c (t.val + 1) (Nat.succ_ne_zero _), accY0_succ, accL0_succ]
  by_cases h0 : t.val = 0
  · rw [show PhiS0 V c t.val = Pipeline.ΦA spec0 c from by rw [h0]; rfl, PhiA0_eq,
      show accY0 V c t.val = k0_pay2 from by rw [h0]; rfl, show accL0 V c t.val = k0_pay3 from by rw [h0]; rfl]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply (sound_kernel0_first c Set.univ (grid0.coords t) _ _ _ _ _ _ _ _ _ _ _ _ _ _ _ _ _ _ ((hcond0 t).mpr h0)
      (iblk0 V c 0 t) (iblk0 V c 1 t) (iblk0 V c 2 t) (iblk0 V c 3 t) (iblk0 V c 4 t) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexact HS1
    iintro ⟨H0, H1, H2, H3, H4, H5, H6, HS0, HS1⟩
    isplitl [HS0 HS1 Hrest Hg]
    · isplitl [HS0]; · iexact HS0
      isplitl [HS1]; · iexact HS1
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [PhiS0_pos V c t.val h0]
    iintro ⟨⟨HS0, HS1, Hrest, Hg⟩, Ho, ⟨%d0, H0⟩, ⟨%d1, H1⟩, ⟨%d2, H2⟩, ⟨%d3, H3⟩, ⟨%d4, H4⟩, ⟨%d5, H5⟩, ⟨%d6, H6⟩⟩
    iapply (sound_kernel0_next c Set.univ (grid0.coords t) _ _ _ _ _ _ _ _ _ _ _ _ _ _ _ _ _ _ (fun h => h0 ((hcond0 t).mp h))
      (iblk0 V c 0 t) (iblk0 V c 1 t) (iblk0 V c 2 t) (iblk0 V c 3 t) (iblk0 V c 4 t) (accY0 V c t.val) (accL0 V c t.val) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexact HS1
    iintro ⟨H0, H1, H2, H3, H4, H5, H6, HS0, HS1⟩
    isplitl [HS0 HS1 Hrest Hg]
    · isplitl [HS0]; · iexact HS0
      isplitl [HS1]; · iexact HS1
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body obligation of region 0, at every tile. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first tile. -/
theorem hin0 (c : Dev nD) : Pipeline.ΦA spec0 c ⊢ (dat0 V c).Φ 0 := by
  rw [Phi0_eq]
  exact Idealize.SL.BI.Entails.refl _

/-- After the last tile the invariant gives it back: what the cells hold is forgotten. -/
theorem hout0 (c : Dev nD) : (dat0 V c).Φ (Fin.last cfg0.N) ⊢ Pipeline.ΦA spec0 c := by
  rw [Phi0_eq, Fin.val_last, PhiS0_pos V c cfg0.N (by have : cfg0.N = 128 := N_0; omega), PhiA0_eq]
  iintro ⟨HS0, HS1, Hrest, Hg⟩
  isplitl [HS0 HS1 Hrest]
  · isplitl [HS0 HS1]
    · isplitl [HS0]
      · iexists _; iexact HS0
      iexists _; iexact HS1
    iexact Hrest
  iexact Hg

end Cert.KernelIdeal.Hand

end
-- ==== Proof.KI.Body1.lean ====
/-
  The body obligation of region 1 (the divergence), at any float instance.

  At row tile t the body stores zero into its scratch cell if t = 0, loads its seven input staging buffers whole, adds
  the tile's sum to the cell, and copies the cell to the output's staging buffer.  So the cell and the output hold the
  fold `acc1` at t + 1 afterwards, and every input buffer holds what it held.
-/
import proofs.«122636_j18751827214982_1_alg».proof.Proof.KI.Data
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Whole-buffer loads and stores -/

/-- The zero offsets of a rank-2 access. -/
theorem hz2 : (![0, 0] : Fin 2 → Nat) = fun _ => 0 := by
  funext a; fin_cases a <;> rfl

/-- A whole-buffer load of a whole memref at contents read `X` reads `X`. -/
theorem readAt_whole {κ : Kind} {sp : Space} {S : Shape} {e : EltTy} {off : Fin S.rank → Nat} (hz : off = fun _ => 0)
    (inb : ∀ a, off a + S.size a ≤ S.size a) (m : Memref sig κ sp S e) (h : m.IsWhole) (X : S.Idx → Elt F e) :
    View.readAt (Elt F) m.view (Rect.unit off S.size inb).toLoadRect (h.unread X) = X := by
  rw [View.readAt_eq_ld, h.read_unread, View.ld_unit_zero hz]

/-- After a last store of the whole one-entry cell, the cell reads that store's payload, whatever was stored before. -/
theorem read_writes_cons_cell {κ : Kind} {sp : Space} (v : View sig κ sp S1x1 .f32) (f : v.ty.Contents (Elt F))
    (w : Vec F S1x1 .f32) (L : List (View.Piece (Elt F) S1x1 .f32)) :
    v.read (Elt F) (v.writes (Elt F) f ((⟨Rect.unit ![0, 0] S1x1.size inb_S1x1_S1x1_0_0, w⟩ : View.Piece (Elt F) S1x1 .f32) :: L)) = w := by
  rw [View.read_writes_eq_canon _ _ _ (fun y => ⟨_, List.mem_cons_self .., View.mem_set_unit_zero hz2 inb_S1x1_S1x1_0_0 y⟩),
    View.canon_cons_unit_zero hz2]

/-- And a whole load of the cell after it reads the same. -/
theorem readCov_cons_cell {κ : Kind} {sp : Space} (v : View sig κ sp S1x1 .f32)
    (w : Vec F S1x1 .f32) (L : List (View.Piece (Elt F) S1x1 .f32)) :
    v.readCov ((⟨Rect.unit ![0, 0] S1x1.size inb_S1x1_S1x1_0_0, w⟩ : View.Piece (Elt F) S1x1 .f32) :: L)
      (Rect.unit ![0, 0] S1x1.size inb_S1x1_S1x1_0_0).toLoadRect = w := by
  rw [View.readCov_eq_canon_ld _ _ _ (fun y => ⟨_, List.mem_cons_self .., View.mem_set_unit_zero hz2 inb_S1x1_S1x1_0_0 y⟩),
    View.canon_cons_unit_zero hz2, View.ld_unit_zero hz2]

/-! ## The branch on the first tile -/

/-- The condition of the body's one branch, from the grid coordinate: it asks whether the tile is the first. -/
abbrev cond1 (i : grid1.Coords) : Prop :=
  (Scalar.cmpi .ne (Scalar.extui (Scalar.cmpi .eq (BitVec.ofNat 32 (i 0).val) 0#32)) 0#32) = 1#1

/-- It holds at the first tile only — decided over the 128 tiles. -/
theorem hcond1 : ∀ t : Fin cfg1.N, cond1 (grid1.coords t) ↔ t.val = 0 :=
  (by decide +kernel : ∀ t : Fin grid1.N, cond1 (grid1.coords t) ↔ t.val = 0)

/-! ## The body's triple, on any whole staging memrefs -/

set_option maxHeartbeats 1000000 in
/-- At the first tile: the cell and the output's buffer at anything; both end at the update of the zero payload. -/
theorem sound_kernel1_first (c : Dev nD) (E : Set ℕ) (i : grid1.Coords) (arg1 : Memref sig .tc .vmem S64x1 .f32) (harg1 : arg1.IsWhole) (arg2 : Memref sig .tc .vmem S1x8192 .f32) (harg2 : arg2.IsWhole) (arg3 : Memref sig .tc .vmem S64x128 .f32) (harg3 : arg3.IsWhole) (arg4 : Memref sig .tc .vmem S8192x128 .f32) (harg4 : arg4.IsWhole) (arg5 : Memref sig .tc .vmem S1x8192 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole)
    (hc : cond1 i) (x0 : Vec F S64x1 .f32) (x1 : Vec F S1x8192 .f32) (x2 : Vec F S64x128 .f32) (x3 : Vec F S8192x128 .f32) (x4 : Vec F S1x8192 .f32) (x5 : Vec F S1x1 .f32) (x6 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (step1 x0 x1 x2 x3 x4 x5 x6 k1_pay2) ∗ owns (c : Thread nD τ) arg9 fullShare (step1 x0 x1 x2 x3 x4 x5 x6 k1_pay2)) -∗ K ⟨⟩))
      ⊢ wp frame (wpE (defs₀ (F := F)) Variants.none c none) E (cc1__kl_kernel i arg1 harg1 arg2 harg2 arg3 harg3 arg4 harg4 arg5 harg5 arg6 harg6 arg7 harg7 arg8 harg8 arg9 harg9) K := by
  simp only [cc1__kl_kernel_eq_skeleton]; unfold cc1__kl_kernel_skel
  simp only [k1_part1_eq_skeleton, k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6
  sl_exec (disch := exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr
    swap; · iexact H7
    ipureintro
    sl_unfold_words
    refine (read_writes_cons_cell _ _ _ _).trans ?_
    refine (readCov_cons_cell _ _ _).trans ?_
    refine (congrArg (k1_pay1 _) (readCov_cons_cell _ _ _)).trans ?_
    unfold step1
    simp only [readAt_whole (S := S64x1) hz2, readAt_whole (S := S1x8192) hz2, readAt_whole (S := S64x128) hz2, readAt_whole (S := S8192x128) hz2, readAt_whole (S := S1x1) hz2]
  · iexists _; isplitr
    swap; · iexact H8
    ipureintro
    sl_unfold_words
    refine (read_writes_cons_cell _ _ _ _).trans ?_
    refine (congrArg (k1_pay1 _) (readCov_cons_cell _ _ _)).trans ?_
    unfold step1
    simp only [readAt_whole (S := S64x1) hz2, readAt_whole (S := S1x8192) hz2, readAt_whole (S := S64x128) hz2, readAt_whole (S := S8192x128) hz2, readAt_whole (S := S1x1) hz2]

set_option maxHeartbeats 1000000 in
/-- At a later tile: the cell at `s`, the output's buffer at anything; both end at the update of `s`. -/
theorem sound_kernel1_later (c : Dev nD) (E : Set ℕ) (i : grid1.Coords) (arg1 : Memref sig .tc .vmem S64x1 .f32) (harg1 : arg1.IsWhole) (arg2 : Memref sig .tc .vmem S1x8192 .f32) (harg2 : arg2.IsWhole) (arg3 : Memref sig .tc .vmem S64x128 .f32) (harg3 : arg3.IsWhole) (arg4 : Memref sig .tc .vmem S8192x128 .f32) (harg4 : arg4.IsWhole) (arg5 : Memref sig .tc .vmem S1x8192 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole)
    (hc : ¬ cond1 i) (x0 : Vec F S64x1 .f32) (x1 : Vec F S1x8192 .f32) (x2 : Vec F S64x128 .f32) (x3 : Vec F S8192x128 .f32) (x4 : Vec F S1x8192 .f32) (x5 : Vec F S1x1 .f32) (x6 : Vec F S1x1 .f32) (s : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare s
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (step1 x0 x1 x2 x3 x4 x5 x6 s) ∗ owns (c : Thread nD τ) arg9 fullShare (step1 x0 x1 x2 x3 x4 x5 x6 s)) -∗ K ⟨⟩))
      ⊢ wp frame (wpE (defs₀ (F := F)) Variants.none c none) E (cc1__kl_kernel i arg1 harg1 arg2 harg2 arg3 harg3 arg4 harg4 arg5 harg5 arg6 harg6 arg7 harg7 arg8 harg8 arg9 harg9) K := by
  simp only [cc1__kl_kernel_eq_skeleton]; unfold cc1__kl_kernel_skel
  simp only [k1_part1_eq_skeleton, k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6; obtain rfl := harg9.eq_unread hf8
  sl_exec (disch := exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr
    swap; · iexact H7
    ipureintro
    sl_unfold_words
    refine (read_writes_cons_cell _ _ _ _).trans ?_
    refine (readCov_cons_cell _ _ _).trans ?_
    unfold step1
    simp only [readAt_whole (S := S64x1) hz2, readAt_whole (S := S1x8192) hz2, readAt_whole (S := S64x128) hz2, readAt_whole (S := S8192x128) hz2, readAt_whole (S := S1x1) hz2]
  · iexists _; isplitr
    swap; · iexact H8
    ipureintro
    sl_unfold_words
    refine (read_writes_cons_cell _ _ _ _).trans ?_
    unfold step1
    simp only [readAt_whole (S := S64x1) hz2, readAt_whole (S := S1x8192) hz2, readAt_whole (S := S64x128) hz2, readAt_whole (S := S8192x128) hz2, readAt_whole (S := S1x1) hz2]

/-! ## The staging memrefs at a tile -/

/-- Each window's current staging memref at tile `t`, spelled as the pipeline passes it to the body, and its wholeness. -/
abbrev ms1_0 (t : Fin cfg1.N) : Memref sig .tc .vmem S64x1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x8192 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S64x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S8192x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x8192 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x1 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x1 .f32 := win1_7.stage (cfg1.slots t 7)
abbrev hs1_7 (t : Fin cfg1.N) : (ms1_7 t).IsWhole := hstage1_7 ((cfg1.slots t 7).cast nbuf1_7)

/-! ## What the input buffers hold when the body runs -/

/-- Each input's current staging buffer holds its block at every tile, fetched there or not: unfetched, the block
    index has not moved and the body left the block in place. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0 V c t]; unfold Dat.blockOf iblk1; rw [A_eq1 V c]; try rfl) t d).trans
    (by unfold Dat.fetched Dat.blockOf iblk1; rw [A_eq1 V c]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1 V c t]; unfold Dat.blockOf iblk1; rw [A_eq1 V c]; try rfl) t d).trans
    (by unfold Dat.fetched Dat.blockOf iblk1; rw [A_eq1 V c]; try rfl)
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2 V c t]; unfold Dat.blockOf iblk1; rw [A_eq1 V c]; try rfl) t d).trans
    (by unfold Dat.fetched Dat.blockOf iblk1; rw [A_eq1 V c]; try rfl)
theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3 V c t]; unfold Dat.blockOf iblk1; rw [A_eq1 V c]; try rfl) t d).trans
    (by unfold Dat.fetched Dat.blockOf iblk1; rw [A_eq1 V c]; try rfl)
theorem before1_4 (c : Dev nD) (t : Fin cfg1.N) (d) : (dat1 V c).before 4 t d = iblk1 V c 4 t :=
  ((dat1 V c).before_in_eq_fetched 4 rfl (fun _ => rfl) (fun _ _ _ => rfl)
      (fun t => by rw [after1_4 V c t]; unfold Dat.blockOf iblk1; rw [A_eq1 V c]; try rfl) t d).trans
    (by unfold Dat.fetched Dat.blockOf iblk1; rw [A_eq1 V c]; try rfl)
theorem before1_5 (c : Dev nD) (t : Fin cfg1.N) (d) : (dat1 V c).before 5 t d = iblk1 V c 5 t :=
  ((dat1 V c).before_in_eq_fetched 5 rfl (fun _ => rfl) (fun _ _ _ => rfl)
      (fun t => by rw [after1_5 V c t]; unfold Dat.blockOf iblk1; rw [A_eq1 V c]; try rfl) t d).trans
    (by unfold Dat.fetched Dat.blockOf iblk1; rw [A_eq1 V c]; try rfl)
theorem before1_6 (c : Dev nD) (t : Fin cfg1.N) (d) : (dat1 V c).before 6 t d = iblk1 V c 6 t :=
  ((dat1 V c).before_in_eq_fetched 6 rfl (fun _ => rfl) (fun _ _ _ => rfl)
      (fun t => by rw [after1_6 V c t]; unfold Dat.blockOf iblk1; rw [A_eq1 V c]; try rfl) t d).trans
    (by unfold Dat.fetched Dat.blockOf iblk1; rw [A_eq1 V c]; try rfl)

/-! ## The invariant, opened at the cell -/

theorem PhiS1_zero (c : Dev nD) : PhiS1 V c 0 = Pipeline.ΦA spec1 c := rfl

theorem PhiS1_succ (c : Dev nD) (n : ℕ) :
    PhiS1 V c (n + 1) = iprop(owns (c : Thread nD τ) sc1_0 fullShare (acc1 V c (n + 1)) ∗ rest1 c ∗ ∃ r, prngReg c r) := rfl

/-- What the launch hands the region: the cell at anything, the scoped buffers the region never touches, and the
    generator register at some state. -/
theorem PhiA1_eq (c : Dev nD) :
    (Pipeline.ΦA spec1 c : sProp 𝕄)
      = iprop((∃ d, owns (c : Thread nD τ) sc1_0 fullShare d) ∗ rest1 c ∗ ∃ r, prngReg c r) := by
  unfold Pipeline.ΦA
  rw [Pipeline.scopedRest_split_of_list spec1 c [cc1_scratch0] (by decide) (by decide)]
  simp only [bigSepL_singleton, sc1_0, owns_whole]
  have h₁ : iprop(((∃ d, ((c : Thread nD τ).loc cc1_scratch0) ↦{fullShare} d) ∗ rest1 c) ∗ ∃ r, prngReg c r)
      ⊢ (iprop((∃ d, ((c : Thread nD τ).loc cc1_scratch0) ↦{fullShare} d) ∗ rest1 c ∗ ∃ r, prngReg c r) : sProp 𝕄) := by
    iintro ⟨⟨HS, Hrest⟩, Hg⟩
    isplitl [HS]; · iexact HS
    isplitl [Hrest]; · iexact Hrest
    iexact Hg
  have h₂ : iprop((∃ d, ((c : Thread nD τ).loc cc1_scratch0) ↦{fullShare} d) ∗ rest1 c ∗ ∃ r, prngReg c r)
      ⊢ (iprop(((∃ d, ((c : Thread nD τ).loc cc1_scratch0) ↦{fullShare} d) ∗ rest1 c) ∗ ∃ r, prngReg c r) : sProp 𝕄) := by
    iintro ⟨HS, Hrest, Hg⟩
    isplitl [HS Hrest]
    · isplitl [HS]; · iexact HS
      iexact Hrest
    iexact Hg
  exact BI.equiv_iff.mp ⟨h₁, h₂⟩

/-! ## The body obligation, at a generic tile -/

/-- What the body is called with at tile `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t))

set_option maxHeartbeats 2000000 in
/-- The body at any tile: the inputs' memrefs hold their blocks; at the first tile the invariant hands the cell at
    anything and the branch is taken, later it hands the cell at the fold so far and the branch is not; either way the
    cell and the output end at the fold one tile on, and the rest of the invariant passes through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0 V, before1_1 V, before1_2 V, before1_3 V, before1_4 V, before1_5 V, before1_6 V]
  rw [show (dat1 V c).owesAt () t.succ = (dat1 V c).owesAt () t.castSucc from rfl,
    after1_0, after1_1, after1_2, after1_3, after1_4, after1_5, after1_6, after1_7, Phi1_eq, Phi1_eq,
    Fin.val_succ, Fin.coe_castSucc, PhiS1_succ, acc1_succ V c t]
  by_cases hz : t.val = 0
  · have hΦ : PhiS1 V c t.val = Pipeline.ΦA spec1 c := by rw [hz]; rfl
    have hacc : acc1 V c t.val = k1_pay2 := by rw [hz]; rfl
    rw [hΦ, hacc, PhiA1_eq]
    iintro ⟨⟨HS, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel1_first c Set.univ (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) sc1_0 (Memref.isWhole_whole _)
      ((hcond1 t).mpr hz) (iblk1 V c 0 t) (iblk1 V c 1 t) (iblk1 V c 2 t) (iblk1 V c 3 t) (iblk1 V c 4 t) (iblk1 V c 5 t) (iblk1 V c 6 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexact HS
    iintro ⟨H0, H1, H2, H3, H4, H5, H6, H7, HS⟩
    isplitl [HS Hrest Hg]
    · isplitl [HS]; · iexact HS
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · obtain ⟨n, hn⟩ : ∃ n, t.val = n + 1 := Nat.exists_eq_succ_of_ne_zero hz
    have hΦ : PhiS1 V c t.val
        = iprop(owns (c : Thread nD τ) sc1_0 fullShare (acc1 V c t.val) ∗ rest1 c ∗ ∃ r, prngReg c r) := by
      rw [hn]; rfl
    rw [hΦ]
    iintro ⟨⟨HS, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel1_later c Set.univ (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) sc1_0 (Memref.isWhole_whole _)
      (fun h => hz ((hcond1 t).mp h)) (iblk1 V c 0 t) (iblk1 V c 1 t) (iblk1 V c 2 t) (iblk1 V c 3 t) (iblk1 V c 4 t) (iblk1 V c 5 t) (iblk1 V c 6 t) (acc1 V c t.val) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexact HS
    iintro ⟨H0, H1, H2, H3, H4, H5, H6, H7, HS⟩
    isplitl [HS Hrest Hg]
    · isplitl [HS]; · iexact HS
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The library's body obligation, at every tile. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first tile. -/
theorem hin1 (c : Dev nD) : Pipeline.ΦA spec1 c ⊢ (dat1 V c).Φ 0 := by
  rw [Phi1_eq]
  exact Idealize.SL.BI.Entails.refl _

/-- After the last tile the invariant gives it back: the cell's named contents are forgotten. -/
theorem hout1 (c : Dev nD) : (dat1 V c).Φ (Fin.last cfg1.N) ⊢ Pipeline.ΦA spec1 c := by
  rw [Phi1_eq, Fin.val_last, show cfg1.N = 127 + 1 from N_1, PhiS1_succ, PhiA1_eq]
  iintro ⟨HS, Hrest, Hg⟩
  isplitl [HS]; · iexists _; iexact HS
  isplitl [Hrest]; · iexact Hrest
  iexact Hg

end Cert.KernelIdeal.Hand

end
-- ==== Proof.KI.Final.lean ====
/-
  What the run leaves: the argument arrays as launched (the frame), and in the result buffer the fold of region 1's
  cell over all 128 tiles.

  An output window of either region is the whole of a one-entry array, written back once, after the last tile: so the
  array ends holding what the cell held then.
-/
import proofs.«122636_j18751827214982_1_alg».proof.Proof.KI.Run
import proofs.«122636_j18751827214982_1_alg».proof.Proof.KI.Body0
import proofs.«122636_j18751827214982_1_alg».proof.Proof.KI.Body1
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## A one-entry output array after its one write-back -/

section Outputs

variable (V : (c : Dev nD) → (b : Ref sig .tc) → Buf (Elt F) ((c : Thread nD τ).loc b))

/-- A one-entry array has one index. -/
theorem idx11_eq (a b : S1x1.Idx) : a = b :=
  funext fun d => Fin.ext (by
    have ha : (a d).val < S1x1.size d := (a d).isLt
    have hb : (b d).val < S1x1.size d := (b d).isLt
    have hs : S1x1.size d = 1 := by
      match d with
      | ⟨0, _⟩ => rfl
      | ⟨1, _⟩ => rfl
    omega)

/-- Region 0's first output array ends at the first cell's fold over all tiles. -/
theorem arrAt0_5 (c : Dev nD) (i : S1x1.Idx) : (dat0 V c).arrAt 5 cfg0.N i = accY0 V c 128 i := by
  have hN : cfg0.N = 128 := N_0
  let t : Fin cfg0.N := ⟨127, by rw [hN]; decide⟩
  have hf : (cfg0.win 5).flush t = true := (flush0_5 t).mpr (show (127 : ℕ) % 128 = 127 from rfl)
  have hdisj : ∀ t t' : Fin cfg0.N, (cfg0.win 5).flush t = true → (cfg0.win 5).flush t' = true → t ≠ t' →
      Disjoint ((cfg0.win 5).blk t).view.set ((cfg0.win 5).blk t').view.set := fun a b ha hb hab => by
    exfalso; apply hab; apply Fin.ext
    have h1 := (flush0_5 a).mp ha; have h2 := (flush0_5 b).mp hb
    have := a.isLt; have := b.isLt; omega
  have h := (dat0 V c).arrAt_emb_eq_flushed 5 hdisj t hf i
  rw [idx11_eq (((cfg0.win 5).blk t).view.emb i) i] at h
  refine h.trans ((eq_of_heq (cast_heq _ _)).trans ?_)
  show (dat0 V c).after 5 t i = _
  rw [after0_5]

/-- Region 0's second output array ends at the second cell's fold over all tiles. -/
theorem arrAt0_6 (c : Dev nD) (i : S1x1.Idx) : (dat0 V c).arrAt 6 cfg0.N i = accL0 V c 128 i := by
  have hN : cfg0.N = 128 := N_0
  let t : Fin cfg0.N := ⟨127, by rw [hN]; decide⟩
  have hf : (cfg0.win 6).flush t = true := (flush0_6 t).mpr (show (127 : ℕ) % 128 = 127 from rfl)
  have hdisj : ∀ t t' : Fin cfg0.N, (cfg0.win 6).flush t = true → (cfg0.win 6).flush t' = true → t ≠ t' →
      Disjoint ((cfg0.win 6).blk t).view.set ((cfg0.win 6).blk t').view.set := fun a b ha hb hab => by
    exfalso; apply hab; apply Fin.ext
    have h1 := (flush0_6 a).mp ha; have h2 := (flush0_6 b).mp hb
    have := a.isLt; have := b.isLt; omega
  have h := (dat0 V c).arrAt_emb_eq_flushed 6 hdisj t hf i
  rw [idx11_eq (((cfg0.win 6).blk t).view.emb i) i] at h
  refine h.trans ((eq_of_heq (cast_heq _ _)).trans ?_)
  show (dat0 V c).after 6 t i = _
  rw [after0_6]

/-- Region 1's output array ends at its cell's fold over all tiles. -/
theorem arrAt1_7 (c : Dev nD) (i : S1x1.Idx) : (dat1 V c).arrAt 7 cfg1.N i = acc1 V c 128 i := by
  have hN : cfg1.N = 128 := N_1
  let t : Fin cfg1.N := ⟨127, by rw [hN]; decide⟩
  have hf : (cfg1.win 7).flush t = true := (flush1_7 t).mpr (show (127 : ℕ) % 128 = 127 from rfl)
  have hdisj : ∀ t t' : Fin cfg1.N, (cfg1.win 7).flush t = true → (cfg1.win 7).flush t' = true → t ≠ t' →
      Disjoint ((cfg1.win 7).blk t).view.set ((cfg1.win 7).blk t').view.set := fun a b ha hb hab => by
    exfalso; apply hab; apply Fin.ext
    have h1 := (flush1_7 a).mp ha; have h2 := (flush1_7 b).mp hb
    have := a.isLt; have := b.isLt; omega
  have h := (dat1 V c).arrAt_emb_eq_flushed 7 hdisj t hf i
  rw [idx11_eq (((cfg1.win 7).blk t).view.emb i) i] at h
  refine h.trans ((eq_of_heq (cast_heq _ _)).trans ?_)
  show (dat1 V c).after 7 t i = _
  rw [after1_7]

end Outputs

/-! ## The run, the frame -/

section Frame

variable (m : (ℓ : Loc nD τ sig) → Buf (Elt F) ℓ) (ρ : Dev nD → PrngReg)

/-- The run with both regions' bodies supplied. -/
theorem run : θ_run defs (onTc (τ := τ) (main (F := F))) ⟨m, fun _ => 0, ρ⟩
    (fun r => ∀ c : Dev nD, ∀ b ∈ Pipeline.ucRefs τ sig, r.2.mem (((c : Thread nD τ)).1, b) = W4 m c b) :=
  run_all m ρ (fun V c => body_obligation0 V c) (fun V c => hout0 V c) (fun V c => body_obligation1 V c) (fun V c => hout1 V c)

theorem W4_of (c : Dev nD) (r : Ref sig .tc) (h : r ∉ hostOps2_W) : W4 m c r = W3 m c r :=
  StableHlo.after_of_writes_sub hostOps2 _ hostOps2_writes h

/-- An argument array reaches the end as launched: no host operation writes it and no region may change it. -/
theorem W4_main_arg0 (c : Dev nD) : W4 m c main_arg0 = m ((c : Thread nD τ).loc main_arg0) :=
  (W4_of m c main_arg0 (by decide)).trans <| (W3_of m c main_arg0 (by decide)).trans <| (W2_of m c main_arg0 (by decide)).trans <|
    (V1_of m c main_arg0 (by decide)).trans rfl
theorem W4_main_arg1 (c : Dev nD) : W4 m c main_arg1 = m ((c : Thread nD τ).loc main_arg1) :=
  (W4_of m c main_arg1 (by decide)).trans <| (W3_of m c main_arg1 (by decide)).trans <| (W2_of m c main_arg1 (by decide)).trans <|
    (V1_of m c main_arg1 (by decide)).trans rfl

/-- THE FRAME: every weakly fair execution terminates without a fault and leaves both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W4_main_arg0 m c), (h c _ (mem_uc main_arg1 (by decide))).trans (W4_main_arg1 m c)⟩) (run m ρ)

end Frame

end Cert.KernelIdeal.Hand

end
-- ==== Proof.Spec.lean ====
/-
  The function both programs compute, written once over the extended reals.

  For n = 8192 points with labels y_i (one number each) and predictions l_i (128 numbers each):
    e^Y_{ij} = exp(−d(y_i, y_j)),   e^L_{ij} = exp(−d(l_i, l_j)),
  where d is the Euclidean distance recovered from the squared norms and the inner product,
    d² = max(|a|² + |b|² − 2⟨a, b⟩, 0),   d = √d² if d² > 0 and 0 otherwise
  (the square root is taken of 1 where d² is not positive, so that it is never taken at 0);
    Z^Y = Σ_{ij} e^Y_{ij},   Z^L = Σ_{ij} e^L_{ij},
    p_{ij} = e^Y_{ij} / Z^Y + ε,   q_{ij} = e^L_{ij} / Z^L + ε,
    KL = Σ_{ij} p_{ij} (log p_{ij} − log q_{ij}).
  The scalar steps are stated for any float instance; the sums are those of the extended reals.
-/
import Idealize.ShloMosaic.PureOps
import Idealize.ShloMosaic.PureOps.Ideal
import Idealize.ShloMosaic.Lib.ValueIdx

noncomputable section

namespace Cert.PairKL

open Idealize.ShloMosaic Idealize.ShloMosaic.ValueIdx

abbrev S8192x1 : Shape := ⟨2, ![8192, 1]⟩
abbrev S8192x128 : Shape := ⟨2, ![8192, 128]⟩

section Scalar

variable {F : FTy → Type} [FloatOps F]

/-- |a|² + |b|² − 2⟨a, b⟩ from the two squared norms and the inner product. -/
def sqDist (a b c : F .f32) : F .f32 :=
  FloatOps.subf (FloatOps.addf a b) (FloatOps.mulf (FloatOps.ofBits .f32 0x40000000#32) c)

/-- exp(−d / 1) with d the guarded square root of max(r, 0). -/
def expNeg (r : F .f32) : F .f32 :=
  let z : F .f32 := FloatOps.ofBits .f32 0x00000000#32
  let one : F .f32 := FloatOps.ofBits .f32 0x3F800000#32
  let d2 : F .f32 := FloatOps.maximumf r z
  let pos : BitVec 1 := FloatOps.cmpf .ogt d2 z
  let d : F .f32 := Scalar.select pos (FloatOps.sqrt (Scalar.select pos d2 one)) z
  FloatOps.exp (FloatOps.divf (FloatOps.subf z d) one)

/-- e / Z + ε, with ε the float nearest 1e-8. -/
def plusEps (e Z : F .f32) : F .f32 :=
  FloatOps.addf (FloatOps.divf e Z) (FloatOps.ofBits .f32 0x322BCC77#32)

/-- p (log p − log q). -/
def klTerm (p q : F .f32) : F .f32 :=
  FloatOps.mulf p (FloatOps.subf (FloatOps.log p) (FloatOps.log q))

end Scalar

/-- The squared norm of row i of l. -/
def normL (l : S8192x128.Idx → EReal) (i : Fin 8192) : EReal := ∑ k : Fin 128, l (ix2 i k) * l (ix2 i k)

/-- The inner product of rows i and j of l. -/
def dotL (l : S8192x128.Idx → EReal) (i j : Fin 8192) : EReal := ∑ k : Fin 128, l (ix2 i k) * l (ix2 j k)

/-- e^Y_{ij}. -/
def eY (y : S8192x1.Idx → EReal) (i j : Fin 8192) : EReal :=
  expNeg (F := Ideal) (sqDist (F := Ideal) (y (ix2 i 0) * y (ix2 i 0)) (y (ix2 j 0) * y (ix2 j 0)) (y (ix2 i 0) * y (ix2 j 0)))

/-- e^L_{ij}. -/
def eL (l : S8192x128.Idx → EReal) (i j : Fin 8192) : EReal :=
  expNeg (F := Ideal) (sqDist (F := Ideal) (normL l i) (normL l j) (dotL l i j))

/-- The two normalisers. -/
def ZY (y : S8192x1.Idx → EReal) : EReal := ∑ i : Fin 8192, ∑ j : Fin 8192, eY y i j
def ZL (l : S8192x128.Idx → EReal) : EReal := ∑ i : Fin 8192, ∑ j : Fin 8192, eL l i j

/-- One pair's term of the divergence, the normalisers given. -/
def pairTerm (y : S8192x1.Idx → EReal) (l : S8192x128.Idx → EReal) (zy zl : EReal) (i j : Fin 8192) : EReal :=
  klTerm (F := Ideal) (plusEps (F := Ideal) (eY y i j) zy) (plusEps (F := Ideal) (eL l i j) zl)

/-- The divergence. -/
def kl (y : S8192x1.Idx → EReal) (l : S8192x128.Idx → EReal) : EReal :=
  ∑ i : Fin 8192, ∑ j : Fin 8192, pairTerm y l (ZY y) (ZL l) i j

end Cert.PairKL

end
-- ==== Proof.KI.HostVals.lean ====
/-
  The host operations around the two regions, read at an index.

  Before region 0 the program reshapes the column of labels y into a row vector — entry (0, j) of the row is entry
  (j, 0) of the column —, and computes the squared norms of l's rows: the squares, a sum over the 128 columns started
  from the zero word, spread as a column and reshaped into a row, so that entry (0, j) of that row is the sum of the
  squares of row j of l.  After region 1 the one-entry result is reshaped into a scalar: its one entry.
-/
import proofs.«122636_j18751827214982_1_alg».proof.Proof.Gen.KernelIdeal.Regions
import proofs.«122636_j18751827214982_1_alg».proof.Proof.Spec
import Idealize.ShloMosaic.Lib.ValueIdx
import Idealize.ShloMosaic.Lib.Pipeline.Value
import Idealize.ShloMosaic.PureOps.Ideal.Laws

noncomputable section

namespace Cert.KernelIdeal.Hand

open Cert.KernelIdeal Cert.KernelIdeal.Gen Idealize.ShloMosaic.ValueIdx
open Idealize.ShloMosaic Idealize.ShloMosaic.TcCoe Idealize.SL.Sem

/-! ## The host operations before the first region

Before the first region the program writes, from the labels y [8192, 1] and the predictions l [8192, 128]: y as a row
[1, 8192] (a reshape, the same numbers in the same order), and the squared norms of the rows of l as a row [1, 8192]
(the elementwise square, the sum over the 128 columns from the zero word, a broadcast to a column and a reshape to a row).
After the second region it reshapes the one cell of a [1, 1] array to a scalar. -/

/-- Entry (0, j) of y written as a row is entry (j, 0) of y. -/
theorem V1_v0_at {F : FTy → Type} [FloatOps F] (m : (ℓ : Loc nD τ sig) → Buf (Elt F) ℓ) (c : Dev nD) (j : Fin 8192) :
    Gen.V1 m c main_v0 (ix2 0 j) = m ((c : Thread nD τ).loc main_arg0) (ix2 j 0) := by
  show StableHlo.after hostOps0 _ (Proc.devRef .tc main_v0) _ = _
  after_results
  exact shapeCast_apply _ shapeCasts_S8192x1_S1x8192 (ix2 (0 : Fin 1) j) (ix2 j (0 : Fin 1)) (by
    rw [Shape.rowMajor_val_two, Shape.rowMajor_val_two]; show j.val * 1 + 0 = 0 * 8192 + j.val; omega)

/-- The sum over the 128 columns of the squares of row j of l, from the zero word, is the squared norm of the row. -/
theorem rowSq_at (l : (⟨S8192x128, .f32⟩ : BufTy).Contents (Elt Ideal)) (h' : S8192x128.ReducesTo [1] S8192) (h0 : 0 < S_.numel)
    (j : Fin 8192) :
    Host.reduceAdd (F := Ideal) (mulf l l) (constant (F := Ideal) S_ .f32 0x00000000#32) h' h0 (ix1 j) = Cert.PairKL.normL l j := by
  simp only [Host.reduceAdd, Ideal.hostReduceAdd_def]
  rw [Ideal.hostReduceAdd_single h' (by decide)]
  unfold Cert.PairKL.normL
  refine (congrArg (· + _) (Ideal.ofBits_zero_f32 : _ = (0 : EReal))).trans ((zero_add _).trans (Finset.sum_congr rfl fun k _ => ?_))
  exact congrArg (fun q => l q * l q) (funext fun a => Fin.ext (by match a with | ⟨0, _⟩ => rfl | ⟨1, _⟩ => rfl))

/-- Entry (0, j) of the row of squared norms is the squared norm of row j of l. -/
theorem V1_v4_at (m : (ℓ : Loc nD τ sig) → Buf (Elt Ideal) ℓ) (c : Dev nD) (j : Fin 8192) :
    Gen.V1 (F := Ideal) m c main_v4 (ix2 0 j) = Cert.PairKL.normL (m ((c : Thread nD τ).loc main_arg1)) j := by
  show StableHlo.after hostOps0 _ (Proc.devRef .tc main_v4) _ = _
  after_results
  refine (shapeCast_apply _ shapeCasts_S8192x1_S1x8192 (ix2 (0 : Fin 1) j) (ix2 j (0 : Fin 1)) (by
    rw [Shape.rowMajor_val_two, Shape.rowMajor_val_two]; show j.val * 1 + 0 = 0 * 8192 + j.val; omega)).trans ?_
  refine (broadcastInDim_apply _ bcast_S8192_S8192x1_0 _ (ix2 j (0 : Fin 1)) (ix1 j) (fun a => match a with
    | ⟨0, _⟩ => by show j.val = if (8192 : Nat) = 1 then 0 else j.val; rw [if_neg (by decide)])).trans ?_
  exact rowSq_at _ _ _ j

/-- The scalar read after the second region is the one cell of the [1, 1] array. -/
theorem after2_v7_at {F : FTy → Type} [FloatOps F] (W : Valuation τ sig (Elt F)) (i : S_.Idx) :
    StableHlo.after (hostOps2 (F := F)) W main_v7 i = W main_v6 (ix2 0 0) := by
  after_results
  exact shapeCast_apply _ shapeCasts_S1x1_S_ i (ix2 (0 : Fin 1) (0 : Fin 1)) (by
    rw [Shape.rowMajor_val_two]
    have := (S_.rowMajor i).isLt
    show 0 * 1 + 0 = _
    have h1 : S_.numel = 1 := by decide
    omega)

end Cert.KernelIdeal.Hand

end
-- ==== Proof.LibTileSum.lean ====
/-
  A sum over J consecutive tiles of R entries each is the sum over all J * R entries.

  For `f : ℕ → M` into any additive commutative monoid (the extended reals among them), any tile length `R` and any
  number of tiles `J`:

    `tile_sum` :  Σ_{j < J} Σ_{r : Fin R} f (j * R + r) = Σ_{s : Fin (J * R)} f s.

  This is pure reindexing (the position `s` is `j * R + r` with `j = s / R`, `r = s % R`); no property of the
  summands is used.  `tile_sum_range` is the same with both sides as sums over ranges of naturals, and
  `tile_sum_fin` has the outer sum over `Fin J`.
-/
import Mathlib.Algebra.BigOperators.Fin
import Mathlib.Algebra.BigOperators.Intervals

open scoped BigOperators

namespace Cert.LibTileSum

variable {M : Type*} [AddCommMonoid M]

/-- Both sides over ranges of naturals: Σ_{j < J} Σ_{r < R} f (j * R + r) = Σ_{s < J * R} f s. -/
theorem tile_sum_range (R : ℕ) (f : ℕ → M) (J : ℕ) :
    ∑ j ∈ Finset.range J, ∑ r ∈ Finset.range R, f (j * R + r) = ∑ s ∈ Finset.range (J * R), f s := by
  induction J with
  | zero => simp
  | succ J ih =>
    rw [Finset.sum_range_succ, ih, Nat.succ_mul, Finset.sum_range_add]

/-- A sum over J consecutive tiles of R entries each is the sum over all J * R entries. -/
theorem tile_sum (R : ℕ) (f : ℕ → M) (J : ℕ) :
    (Finset.range J).sum (fun j => ∑ r : Fin R, f (j * R + r.val)) = ∑ s : Fin (J * R), f s.val := by
  rw [Fin.sum_univ_eq_sum_range (fun s => f s) (J * R), ← tile_sum_range R f J]
  refine Finset.sum_congr rfl fun j _ => ?_
  exact Fin.sum_univ_eq_sum_range (fun r => f (j * R + r)) R

/-- The same with the outer sum over `Fin J`. -/
theorem tile_sum_fin (R : ℕ) (f : ℕ → M) (J : ℕ) :
    ∑ j : Fin J, ∑ r : Fin R, f (j.val * R + r.val) = ∑ s : Fin (J * R), f s.val := by
  rw [← tile_sum R f J]
  exact Fin.sum_univ_eq_sum_range (fun j => ∑ r : Fin R, f (j * R + r.val)) J

end Cert.LibTileSum
-- ==== Proof.KI.BridgeLib.lean ====
/-
  Layout operations, lane sums and the pair distance read at an index, for two-axis vectors of literal extents, and the
  regrouping of a sum over row tiles.

  A column [a,1] or a cell [1,1] broadcast over [a,b] reads the column's row, the cell; a vector [a] cast to a column
  [a,1] reads the vector's entry; over the extended reals a sum over the lanes of an [a,b] vector at row r is the sum of
  that row, and a sum over the rows of a column [a,1] is the sum of the column.  The chain of pointwise operations that
  both regions apply to the two squared norms and the inner product is, at every index, exp(−d) of the three entries.
-/
import Idealize.ShloMosaic.Lib.ValueIdx
import Idealize.ShloMosaic.Lib.ValueLayout
import Idealize.ShloMosaic.Lib.Pipeline.Value
import Idealize.ShloMosaic.PureOps.Ideal.Laws
import proofs.«122636_j18751827214982_1_alg».proof.Proof.Spec
import proofs.«122636_j18751827214982_1_alg».proof.Proof.LibTileSum

noncomputable section

namespace Cert.KernelIdeal.Hand

open Idealize.ShloMosaic Idealize.ShloMosaic.ValueIdx
open scoped BigOperators

section Layout
variable {α : Type}

/-- A column [a,1] broadcast to [a,b] reads, at (p, c), the column at row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A cell [1,1] broadcast to [a,b] reads the cell everywhere. -/
theorem broadcastTo_11_ab_apply {a b : ℕ} (v : (⟨2, ![1, 1]⟩ : Shape).Idx → α) (h : (⟨2, ![1, 1]⟩ : Shape).Broadcasts ⟨2, ![a, b]⟩)
    (p : Fin a) (c : Fin b) : broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- A vector [a] cast to a column [a,1] reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Layout

section Sums

/-- Over the extended reals the sum over the lanes of an [a,b] vector, at row r, is the sum of that row. -/
theorem sum_lanes_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  refine Finset.sum_congr rfl fun k _ => congrArg src (funext fun c => Fin.ext ?_)
  match c with
  | ⟨0, _⟩ => rfl
  | ⟨1, _⟩ => rfl

/-- Over the extended reals the sum over the rows of a column [a,1] is the sum of the column. -/
theorem sum_rows_apply {a : ℕ} (src : FVec Ideal ⟨2, ![a, 1]⟩ .f32) (h : (⟨2, ![a, 1]⟩ : Shape).Reduces [0] ⟨1, ![1]⟩)
    (hφ : FKind.Formats .f32) (hacc : (0x00000000#32 : BitVec 32) = FKind.add.neutral .f32 hφ) (u : Fin 1) :
    multiReduction .add [0] ⟨1, ![1]⟩ src 0x00000000#32 h hφ hacc (ix1 u) = ∑ r : Fin a, src (ix2 r (0 : Fin 1)) := by
  refine (Ideal.multiReduction_add_single src 0x00000000#32 h hφ hacc (ix1 u)).trans ?_
  refine Finset.sum_congr rfl fun k _ => congrArg src (funext fun c => Fin.ext ?_)
  match c with
  | ⟨0, _⟩ => rfl
  | ⟨1, _⟩ =>
    show (u : ℕ) = 0
    omega

end Sums

section Cell

/-- The two lane sums a tile ends with: over the extended reals, the cell [1,1] obtained from a [64,8192] vector by
    summing its lanes, casting to a column, summing the column and casting to a cell is the sum of all its entries. -/
theorem sum_all_apply {a b : ℕ} (w : FVec Ideal ⟨2, ![a, b]⟩ .f32)
    (h1 : (⟨2, ![a, b]⟩ : Shape).Reduces [1] ⟨1, ![a]⟩) (c1 : (⟨1, ![a]⟩ : Shape).ShapeCasts ⟨2, ![a, 1]⟩)
    (h0 : (⟨2, ![a, 1]⟩ : Shape).Reduces [0] ⟨1, ![1]⟩) (c0 : (⟨1, ![1]⟩ : Shape).ShapeCasts ⟨2, ![1, 1]⟩)
    (hφ hφ' : FKind.Formats .f32) (hacc : (0x00000000#32 : BitVec 32) = FKind.add.neutral .f32 hφ)
    (hacc' : (0x00000000#32 : BitVec 32) = FKind.add.neutral .f32 hφ') :
    shapeCast ⟨2, ![1, 1]⟩ (multiReduction .add [0] ⟨1, ![1]⟩
        (shapeCast ⟨2, ![a, 1]⟩ (multiReduction .add [1] ⟨1, ![a]⟩ w 0x00000000#32 h1 hφ hacc) c1) 0x00000000#32 h0 hφ' hacc') c0
        (ix2 (0 : Fin 1) (0 : Fin 1))
      = ∑ r : Fin a, ∑ j : Fin b, w (ix2 r j) := by
  refine (shapeCast_a_1a_apply _ c0 (0 : Fin 1) (0 : Fin 1)).trans ?_
  refine (sum_rows_apply _ h0 hφ' hacc' (0 : Fin 1)).trans ?_
  refine Finset.sum_congr rfl fun r _ => ?_
  refine (shapeCast_a_a1_apply _ c1 r (0 : Fin 1)).trans ?_
  exact sum_lanes_apply w h1 hφ hacc r

/-- The column of lane sums of an [a,b] vector, at row r. -/
theorem sum_col_apply {a b : ℕ} (w : FVec Ideal ⟨2, ![a, b]⟩ .f32)
    (h1 : (⟨2, ![a, b]⟩ : Shape).Reduces [1] ⟨1, ![a]⟩) (c1 : (⟨1, ![a]⟩ : Shape).ShapeCasts ⟨2, ![a, 1]⟩)
    (hφ : FKind.Formats .f32) (hacc : (0x00000000#32 : BitVec 32) = FKind.add.neutral .f32 hφ) (r : Fin a) :
    shapeCast ⟨2, ![a, 1]⟩ (multiReduction .add [1] ⟨1, ![a]⟩ w 0x00000000#32 h1 hφ hacc) c1 (ix2 r (0 : Fin 1))
      = ∑ j : Fin b, w (ix2 r j) :=
  (shapeCast_a_a1_apply _ c1 r (0 : Fin 1)).trans (sum_lanes_apply w h1 hφ hacc r)

/-- The sum of a column [a,1], cast to a cell. -/
theorem sum_cell_apply {a : ℕ} (w : FVec Ideal ⟨2, ![a, 1]⟩ .f32)
    (h0 : (⟨2, ![a, 1]⟩ : Shape).Reduces [0] ⟨1, ![1]⟩) (c0 : (⟨1, ![1]⟩ : Shape).ShapeCasts ⟨2, ![1, 1]⟩)
    (hφ : FKind.Formats .f32) (hacc : (0x00000000#32 : BitVec 32) = FKind.add.neutral .f32 hφ) :
    shapeCast ⟨2, ![1, 1]⟩ (multiReduction .add [0] ⟨1, ![1]⟩ w 0x00000000#32 h0 hφ hacc) c0 (ix2 (0 : Fin 1) (0 : Fin 1))
      = ∑ r : Fin a, w (ix2 r (0 : Fin 1)) :=
  (shapeCast_a_1a_apply _ c0 (0 : Fin 1) (0 : Fin 1)).trans (sum_rows_apply w h0 hφ hacc (0 : Fin 1))

end Cell

section Distance

variable {F : FTy → Type} [FloatOps F] {s : Shape}

/-- The pointwise chain both regions apply to the two squared norms A, B and the inner product C: exp(−d) with d the
    guarded square root of max(A + B − 2C, 0). -/
def distExp (A B C : FVec F s .f32) : FVec F s .f32 :=
  have v17 : FVec F s .f32 := addf A B
  have v18 : FVec F s .f32 := broadcast s (Scalar.ofBits .f32 0x40000000#32)
  have v19 : FVec F s .f32 := mulf v18 C
  have v20 : FVec F s .f32 := subf v17 v19
  have v21 : FVec F s .f32 := broadcast s (Scalar.ofBits .f32 0x00000000#32)
  have v22 : FVec F s .f32 := maximumf v20 v21
  have v23 : FVec F s .f32 := broadcast s (Scalar.ofBits .f32 0x00000000#32)
  have v24 : IVec s 1 := cmpf .ogt v22 v23
  have v25 : FVec F s .f32 := broadcast s (Scalar.ofBits .f32 0x3F800000#32)
  have v26 : FVec F s .f32 := select v24 v22 v25
  have v27 : FVec F s .f32 := broadcast s (Scalar.ofBits .f32 0x00000000#32)
  have v28 : IVec s 1 := cmpf .ogt v22 v27
  have v29 : FVec F s .f32 := sqrt v26
  have v30 : FVec F s .f32 := broadcast s (Scalar.ofBits .f32 0x00000000#32)
  have v31 : FVec F s .f32 := select v28 v29 v30
  have v32 : FVec F s .f32 := broadcast s (Scalar.ofBits .f32 0x00000000#32)
  have v33 : FVec F s .f32 := subf v32 v31
  have v34 : FVec F s .f32 := broadcast s (Scalar.ofBits .f32 0x3F800000#32)
  have v35 : FVec F s .f32 := divf v33 v34
  exp v35

/-- At an index the chain is the scalar exp(−d) of the three entries. -/
theorem distExp_apply (A B C : FVec F s .f32) (i : s.Idx) :
    distExp A B C i = Cert.PairKL.expNeg (Cert.PairKL.sqDist (A i) (B i) (C i)) := rfl

theorem expNeg_sqDist_congr {a a' b b' c c' : F .f32} (ha : a = a') (hb : b = b') (hc : c = c') :
    Cert.PairKL.expNeg (Cert.PairKL.sqDist a b c) = Cert.PairKL.expNeg (Cert.PairKL.sqDist a' b' c') := by
  rw [ha, hb, hc]

end Distance

end Cert.KernelIdeal.Hand

end
-- ==== Proof.KI.BridgeBlk.lean ====
/-
  The windows' blocks read off their arrays, for both regions.

  At row tile t the block of window 0 (the labels) and of window 2 (the predictions) is rows 64t … 64t+63 of its array:
  element (r, k) of the block is element (64t + r, k) of the array.  The other input windows hold their whole array at
  every tile: element (p, q) of the block is element (p, q) of the array.
-/
import proofs.«122636_j18751827214982_1_alg».proof.Proof.KI.Data
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable {F : FTy → Type} [FloatOps F]
variable (V : (c : Dev nD) → (b : Ref sig .tc) → Buf (Elt F) ((c : Thread nD τ).loc b))

/-! ## Region 0 -/

/-- The printed index maps of region 0's input windows, decided over the grid: windows 0 and 2 sit at block row t,
    the others at block (0, 0). -/
theorem index0_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- Window 0 at tile t: rows 64t … 64t+63 of the labels. -/
theorem iblk0_0_apply (c : Dev nD) (t : Fin cfg0.N) (r : Fin 64) (k : Fin 1) (i : Fin 8192) (hi : i.val = 64 * t.val + r.val) :
    (iblk0 V c 0 t : Vec F S64x1 .f32) (ix2 r k) = (V c main_arg0 : S8192x1.Idx → Elt F .f32) (ix2 i k) := by
  have hf := index0_facts t
  show V c main_arg0 (((cfg0.win 0).blk t).view.emb (ix2 r k)) = V c main_arg0 (ix2 i k)
  refine congrArg (V c main_arg0) (funext fun a => Fin.ext ?_)
  match a with
  | ⟨0, _⟩ =>
    show win0_0.index t (0 : Fin 2) * 64 + 1 * r.val = i.val
    omega
  | ⟨1, _⟩ =>
    show win0_0.index t (1 : Fin 2) * 1 + 1 * k.val = k.val
    omega

/-- Window 1 at every tile: the whole row vector of the labels. -/
theorem iblk0_1_apply (c : Dev nD) (t : Fin cfg0.N) (p : Fin 1) (q : Fin 8192) :
    (iblk0 V c 1 t : Vec F S1x8192 .f32) (ix2 p q) = (V c main_v0 : S1x8192.Idx → Elt F .f32) (ix2 p q) := by
  have hf := index0_facts t
  show V c main_v0 (((cfg0.win 1).blk t).view.emb (ix2 p q)) = V c main_v0 (ix2 p q)
  refine congrArg (V c main_v0) (funext fun a => Fin.ext ?_)
  match a with
  | ⟨0, _⟩ =>
    show win0_1.index t (0 : Fin 2) * 1 + 1 * p.val = p.val
    omega
  | ⟨1, _⟩ =>
    show win0_1.index t (1 : Fin 2) * 8192 + 1 * q.val = q.val
    omega

/-- Window 2 at tile t: rows 64t … 64t+63 of the predictions. -/
theorem iblk0_2_apply (c : Dev nD) (t : Fin cfg0.N) (r : Fin 64) (k : Fin 128) (i : Fin 8192) (hi : i.val = 64 * t.val + r.val) :
    (iblk0 V c 2 t : Vec F S64x128 .f32) (ix2 r k) = (V c main_arg1 : S8192x128.Idx → Elt F .f32) (ix2 i k) := by
  have hf := index0_facts t
  show V c main_arg1 (((cfg0.win 2).blk t).view.emb (ix2 r k)) = V c main_arg1 (ix2 i k)
  refine congrArg (V c main_arg1) (funext fun a => Fin.ext ?_)
  match a with
  | ⟨0, _⟩ =>
    show win0_2.index t (0 : Fin 2) * 64 + 1 * r.val = i.val
    omega
  | ⟨1, _⟩ =>
    show win0_2.index t (1 : Fin 2) * 128 + 1 * k.val = k.val
    omega

/-- Window 3 at every tile: the whole of the predictions. -/
theorem iblk0_3_apply (c : Dev nD) (t : Fin cfg0.N) (p : Fin 8192) (q : Fin 128) :
    (iblk0 V c 3 t : Vec F S8192x128 .f32) (ix2 p q) = (V c main_arg1 : S8192x128.Idx → Elt F .f32) (ix2 p q) := by
  have hf := index0_facts t
  show V c main_arg1 (((cfg0.win 3).blk t).view.emb (ix2 p q)) = V c main_arg1 (ix2 p q)
  refine congrArg (V c main_arg1) (funext fun a => Fin.ext ?_)
  match a with
  | ⟨0, _⟩ =>
    show win0_3.index t (0 : Fin 2) * 8192 + 1 * p.val = p.val
    omega
  | ⟨1, _⟩ =>
    show win0_3.index t (1 : Fin 2) * 128 + 1 * q.val = q.val
    omega

/-- Window 4 at every tile: the whole row vector of the squared norms. -/
theorem iblk0_4_apply (c : Dev nD) (t : Fin cfg0.N) (p : Fin 1) (q : Fin 8192) :
    (iblk0 V c 4 t : Vec F S1x8192 .f32) (ix2 p q) = (V c main_v4 : S1x8192.Idx → Elt F .f32) (ix2 p q) := by
  have hf := index0_facts t
  show V c main_v4 (((cfg0.win 4).blk t).view.emb (ix2 p q)) = V c main_v4 (ix2 p q)
  refine congrArg (V c main_v4) (funext fun a => Fin.ext ?_)
  match a with
  | ⟨0, _⟩ =>
    show win0_4.index t (0 : Fin 2) * 1 + 1 * p.val = p.val
    omega
  | ⟨1, _⟩ =>
    show win0_4.index t (1 : Fin 2) * 8192 + 1 * q.val = q.val
    omega

/-! ## Region 1 -/

/-- The printed index maps of region 1's input windows, decided over the grid: windows 0 and 2 sit at block row t,
    the others at block (0, 0). -/
theorem index1_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

/-- Window 0 at tile t: rows 64t … 64t+63 of the labels. -/
theorem iblk1_0_apply (c : Dev nD) (t : Fin cfg1.N) (r : Fin 64) (k : Fin 1) (i : Fin 8192) (hi : i.val = 64 * t.val + r.val) :
    (iblk1 V c 0 t : Vec F S64x1 .f32) (ix2 r k) = (V c main_arg0 : S8192x1.Idx → Elt F .f32) (ix2 i k) := by
  have hf := index1_facts t
  show V c main_arg0 (((cfg1.win 0).blk t).view.emb (ix2 r k)) = V c main_arg0 (ix2 i k)
  refine congrArg (V c main_arg0) (funext fun a => Fin.ext ?_)
  match a with
  | ⟨0, _⟩ =>
    show win1_0.index t (0 : Fin 2) * 64 + 1 * r.val = i.val
    omega
  | ⟨1, _⟩ =>
    show win1_0.index t (1 : Fin 2) * 1 + 1 * k.val = k.val
    omega

/-- Window 1 at every tile: the whole row vector of the labels. -/
theorem iblk1_1_apply (c : Dev nD) (t : Fin cfg1.N) (p : Fin 1) (q : Fin 8192) :
    (iblk1 V c 1 t : Vec F S1x8192 .f32) (ix2 p q) = (V c main_v0 : S1x8192.Idx → Elt F .f32) (ix2 p q) := by
  have hf := index1_facts t
  show V c main_v0 (((cfg1.win 1).blk t).view.emb (ix2 p q)) = V c main_v0 (ix2 p q)
  refine congrArg (V c main_v0) (funext fun a => Fin.ext ?_)
  match a with
  | ⟨0, _⟩ =>
    show win1_1.index t (0 : Fin 2) * 1 + 1 * p.val = p.val
    omega
  | ⟨1, _⟩ =>
    show win1_1.index t (1 : Fin 2) * 8192 + 1 * q.val = q.val
    omega

/-- Window 2 at tile t: rows 64t … 64t+63 of the predictions. -/
theorem iblk1_2_apply (c : Dev nD) (t : Fin cfg1.N) (r : Fin 64) (k : Fin 128) (i : Fin 8192) (hi : i.val = 64 * t.val + r.val) :
    (iblk1 V c 2 t : Vec F S64x128 .f32) (ix2 r k) = (V c main_arg1 : S8192x128.Idx → Elt F .f32) (ix2 i k) := by
  have hf := index1_facts t
  show V c main_arg1 (((cfg1.win 2).blk t).view.emb (ix2 r k)) = V c main_arg1 (ix2 i k)
  refine congrArg (V c main_arg1) (funext fun a => Fin.ext ?_)
  match a with
  | ⟨0, _⟩ =>
    show win1_2.index t (0 : Fin 2) * 64 + 1 * r.val = i.val
    omega
  | ⟨1, _⟩ =>
    show win1_2.index t (1 : Fin 2) * 128 + 1 * k.val = k.val
    omega

/-- Window 3 at every tile: the whole of the predictions. -/
theorem iblk1_3_apply (c : Dev nD) (t : Fin cfg1.N) (p : Fin 8192) (q : Fin 128) :
    (iblk1 V c 3 t : Vec F S8192x128 .f32) (ix2 p q) = (V c main_arg1 : S8192x128.Idx → Elt F .f32) (ix2 p q) := by
  have hf := index1_facts t
  show V c main_arg1 (((cfg1.win 3).blk t).view.emb (ix2 p q)) = V c main_arg1 (ix2 p q)
  refine congrArg (V c main_arg1) (funext fun a => Fin.ext ?_)
  match a with
  | ⟨0, _⟩ =>
    show win1_3.index t (0 : Fin 2) * 8192 + 1 * p.val = p.val
    omega
  | ⟨1, _⟩ =>
    show win1_3.index t (1 : Fin 2) * 128 + 1 * q.val = q.val
    omega

/-- Window 4 at every tile: the whole row vector of the squared norms. -/
theorem iblk1_4_apply (c : Dev nD) (t : Fin cfg1.N) (p : Fin 1) (q : Fin 8192) :
    (iblk1 V c 4 t : Vec F S1x8192 .f32) (ix2 p q) = (V c main_v4 : S1x8192.Idx → Elt F .f32) (ix2 p q) := by
  have hf := index1_facts t
  show V c main_v4 (((cfg1.win 4).blk t).view.emb (ix2 p q)) = V c main_v4 (ix2 p q)
  refine congrArg (V c main_v4) (funext fun a => Fin.ext ?_)
  match a with
  | ⟨0, _⟩ =>
    show win1_4.index t (0 : Fin 2) * 1 + 1 * p.val = p.val
    omega
  | ⟨1, _⟩ =>
    show win1_4.index t (1 : Fin 2) * 8192 + 1 * q.val = q.val
    omega

/-- Window 5 at every tile: the first normaliser's cell. -/
theorem iblk1_5_apply (c : Dev nD) (t : Fin cfg1.N) (p : Fin 1) (q : Fin 1) :
    (iblk1 V c 5 t : Vec F S1x1 .f32) (ix2 p q) = (V c main_v5_0 : S1x1.Idx → Elt F .f32) (ix2 p q) := by
  have hf := index1_facts t
  show V c main_v5_0 (((cfg1.win 5).blk t).view.emb (ix2 p q)) = V c main_v5_0 (ix2 p q)
  refine congrArg (V c main_v5_0) (funext fun a => Fin.ext ?_)
  match a with
  | ⟨0, _⟩ =>
    show win1_5.index t (0 : Fin 2) * 1 + 1 * p.val = p.val
    omega
  | ⟨1, _⟩ =>
    show win1_5.index t (1 : Fin 2) * 1 + 1 * q.val = q.val
    omega

/-- Window 6 at every tile: the second normaliser's cell. -/
theorem iblk1_6_apply (c : Dev nD) (t : Fin cfg1.N) (p : Fin 1) (q : Fin 1) :
    (iblk1 V c 6 t : Vec F S1x1 .f32) (ix2 p q) = (V c main_v5_1 : S1x1.Idx → Elt F .f32) (ix2 p q) := by
  have hf := index1_facts t
  show V c main_v5_1 (((cfg1.win 6).blk t).view.emb (ix2 p q)) = V c main_v5_1 (ix2 p q)
  refine congrArg (V c main_v5_1) (funext fun a => Fin.ext ?_)
  match a with
  | ⟨0, _⟩ =>
    show win1_6.index t (0 : Fin 2) * 1 + 1 * p.val = p.val
    omega
  | ⟨1, _⟩ =>
    show win1_6.index t (1 : Fin 2) * 1 + 1 * q.val = q.val
    omega

end Cert.KernelIdeal.Hand

end
-- ==== Proof.KI.BridgePay0.lean ====
/-
  Region 0's per-tile updates read at the cell, over the extended reals.

  One tile's update of the first cell adds, to the cell, the sum over the tile's 64 rows r and all 8192 columns j of
  exp(−d) of the squared norms x0(r)², x1(j)² and the product x0(r)·x1(j); one tile's update of the second cell adds
  the same sum with the squared norm of row r of the tile's block of l, the given squared norm of row j, and the inner
  product of row r of the block with row j of l.  The cells start at zero.
-/
import proofs.«122636_j18751827214982_1_alg».proof.Proof.KI.Data
import proofs.«122636_j18751827214982_1_alg».proof.Proof.KI.BridgeLib

set_option maxRecDepth 16384

noncomputable section

namespace Cert.KernelIdeal.Hand

open Idealize.ShloMosaic Idealize.ShloMosaic.ValueIdx
open Cert.KernelIdeal Cert.KernelIdeal.Gen
open Cert.PairKL (expNeg sqDist)
open scoped BigOperators

/-! ## The cells' starting value -/

theorem k0_pay2_apply : k0_pay2 (F := Ideal) (ix2 0 0) = 0 := by
  have e : k0_pay2 (F := Ideal)
      = shapeCast S1x1 (broadcast S1x1 (Scalar.ofBits (F := Ideal) .f32 0x00000000#32)) shapeCasts_S1x1_S1x1 := rfl
  rw [e, shapeCast_self]
  exact Ideal.ofBits_zero_f32

theorem k0_pay3_apply : k0_pay3 (F := Ideal) (ix2 0 0) = 0 := by
  have e : k0_pay3 (F := Ideal)
      = shapeCast S1x1 (broadcast S1x1 (Scalar.ofBits (F := Ideal) .f32 0x00000000#32)) shapeCasts_S1x1_S1x1 := rfl
  rw [e, shapeCast_self]
  exact Ideal.ofBits_zero_f32

/-! ## The first cell -/

/-- The 64 × 8192 block of exp(−|x0(r) − x1(j)|), at (r, j). -/
theorem k0_pay5_apply (x0 : Vec Ideal S64x1 .f32) (x1 : Vec Ideal S1x8192 .f32) (r : Fin 64) (j : Fin 8192) :
    k0_pay5 (F := Ideal) x0 x1 (ix2 r j)
      = expNeg (F := Ideal) (sqDist (F := Ideal) (x0 (ix2 r 0) * x0 (ix2 r 0)) (x1 (ix2 0 j) * x1 (ix2 0 j))
          (x0 (ix2 r 0) * x1 (ix2 0 j))) := by
  have e : k0_pay5 (F := Ideal) x0 x1
      = distExp (broadcastTo S64x8192 (mulf (F := Ideal) (φ := .f32) x0 x0) broadcasts_S64x1_S64x8192)
          (broadcastTo S64x8192 (mulf (F := Ideal) (φ := .f32) (shapeCast S1x8192 x1 shapeCasts_S1x8192_S1x8192)
            (shapeCast S1x8192 x1 shapeCasts_S1x8192_S1x8192)) broadcasts_S1x8192_S64x8192)
          (mulf (F := Ideal) (φ := .f32) (broadcastTo S64x8192 x0 broadcasts_S64x1_S64x8192)
            (broadcastTo S64x8192 (shapeCast S1x8192 x1 shapeCasts_S1x8192_S1x8192) broadcasts_S1x8192_S64x8192)) := rfl
  have e1 : shapeCast S1x8192 x1 shapeCasts_S1x8192_S1x8192 = x1 := shapeCast_self x1 _
  rw [e, e1]
  refine (distExp_apply _ _ _ _).trans (expNeg_sqDist_congr ?_ ?_ ?_)
  · exact broadcastTo_a1_ab_apply (mulf (F := Ideal) (φ := .f32) x0 x0) broadcasts_S64x1_S64x8192 r j
  · exact broadcastTo_1b_ab_apply (mulf (F := Ideal) (φ := .f32) x1 x1) broadcasts_S1x8192_S64x8192 r j
  · exact congrArg₂ (fun a b : EReal => a * b) (broadcastTo_a1_ab_apply x0 broadcasts_S64x1_S64x8192 r j)
      (broadcastTo_1b_ab_apply x1 broadcasts_S1x8192_S64x8192 r j)

/-- The cell plus the sum of all entries of a 64 × 8192 block. -/
theorem k0_pay7_apply (v36 : FVec Ideal S64x8192 .f32) (v65 : Vec Ideal S1x1 .f32) :
    k0_pay7 (F := Ideal) v36 v65 (ix2 0 0) = v65 (ix2 0 0) + ∑ r : Fin 64, ∑ j : Fin 8192, v36 (ix2 r j) := by
  have e : k0_pay7 (F := Ideal) v36 v65
      = shapeCast S1x1 (addf (F := Ideal) (φ := .f32) v65 (shapeCast S1x1 (multiReduction .add [0] S1
          (shapeCast S64x1 (multiReduction .add [1] S64 v36 0x00000000#32 reduces_S64x8192_S64 (.inl rfl) rfl) shapeCasts_S64_S64x1)
          0x00000000#32 reduces_S64x1_S1 (.inl rfl) rfl) shapeCasts_S1_S1x1)) shapeCasts_S1x1_S1x1 := rfl
  rw [e, shapeCast_self]
  exact congrArg (fun z : EReal => v65 (ix2 0 0) + z) (sum_all_apply v36 _ _ _ _ _ _ _ _)

/-- One tile's update of the first cell, at the cell. -/
theorem stepY0_apply (x0 : Vec Ideal S64x1 .f32) (x1 : Vec Ideal S1x8192 .f32) (s : Vec Ideal S1x1 .f32) :
    stepY0 (F := Ideal) x0 x1 s (ix2 0 0)
      = s (ix2 0 0) + ∑ r : Fin 64, ∑ j : Fin 8192,
          expNeg (F := Ideal) (sqDist (F := Ideal) (x0 (ix2 r 0) * x0 (ix2 r 0)) (x1 (ix2 0 j) * x1 (ix2 0 j))
            (x0 (ix2 r 0) * x1 (ix2 0 j))) := by
  unfold stepY0
  refine (k0_pay7_apply _ s).trans ?_
  exact congrArg (fun z : EReal => s (ix2 0 0) + z)
    (Finset.sum_congr rfl fun r _ => Finset.sum_congr rfl fun j _ => k0_pay5_apply x0 x1 r j)

/-! ## The second cell -/

/-- The contraction's operand indices: at output (r, j) and contraction coordinate k the left operand is read at
    (r, k) and the right at (j, k). -/
theorem dot_lhs_0 (i : S64x8192.Idx) (q : dot_S64x128_S8192x128_S64x8192_1_1_0_0_n_n.contr.Idx) :
    (dot_S64x128_S8192x128_S64x8192_1_1_0_0_n_n.lhsIdx i q 0).val = (i 0).val := by
  unfold DotDims.lhsIdx
  rw [dif_neg (show ¬(0 : Fin S64x128.rank) ∈ dot_S64x128_S8192x128_S64x8192_1_1_0_0_n_n.lhsBatch by decide),
    dif_pos (show (0 : Fin S64x128.rank) ∈ dot_S64x128_S8192x128_S64x8192_1_1_0_0_n_n.lhsNonContracting by decide)]
  rfl
theorem dot_lhs_1 (i : S64x8192.Idx) (q : dot_S64x128_S8192x128_S64x8192_1_1_0_0_n_n.contr.Idx) :
    (dot_S64x128_S8192x128_S64x8192_1_1_0_0_n_n.lhsIdx i q 1).val = (q ⟨0, by decide⟩).val :=
  dot_S64x128_S8192x128_S64x8192_1_1_0_0_n_n.lhsIdx_val_of_single rfl i q
theorem dot_rhs_0 (i : S64x8192.Idx) (q : dot_S64x128_S8192x128_S64x8192_1_1_0_0_n_n.contr.Idx) :
    (dot_S64x128_S8192x128_S64x8192_1_1_0_0_n_n.rhsIdx i q 0).val = (i 1).val := by
  unfold DotDims.rhsIdx
  rw [dif_neg (show ¬(0 : Fin S8192x128.rank) ∈ dot_S64x128_S8192x128_S64x8192_1_1_0_0_n_n.rhsBatch by decide),
    dif_pos (show (0 : Fin S8192x128.rank) ∈ dot_S64x128_S8192x128_S64x8192_1_1_0_0_n_n.rhsNonContracting by decide)]
  rfl
theorem dot_rhs_1 (i : S64x8192.Idx) (q : dot_S64x128_S8192x128_S64x8192_1_1_0_0_n_n.contr.Idx) :
    (dot_S64x128_S8192x128_S64x8192_1_1_0_0_n_n.rhsIdx i q 1).val = (q ⟨0, by decide⟩).val :=
  dot_S64x128_S8192x128_S64x8192_1_1_0_0_n_n.rhsIdx_val_of_single rfl i q

/-- The matrix product into the zero accumulator, at (r, j): the inner product of row r of the left operand and row j
    of the right one. -/
theorem matmul_rows_apply (lhs : FVec Ideal S64x128 .bf16) (rhs : FVec Ideal S8192x128 .bf16) (r : Fin 64) (j : Fin 8192) :
    matmul (F := Ideal) dot_S64x128_S8192x128_S64x8192_1_1_0_0_n_n none lhs rhs (constant (F := Ideal) S64x8192 .f32 0x00000000#32) (ix2 r j)
      = ∑ k : Fin 128, lhs (ix2 r k) * rhs (ix2 j k) := by
  show FloatOps.matmul dot_S64x128_S8192x128_S64x8192_1_1_0_0_n_n none lhs rhs (constant (F := Ideal) S64x8192 .f32 0x00000000#32) (ix2 r j) = _
  rw [Ideal.matmul_constant_zero_apply, ← Equiv.sum_comp (contrEquiv1 dot_S64x128_S8192x128_S64x8192_1_1_0_0_n_n 128 rfl rfl).symm]
  refine Finset.sum_congr rfl fun k _ => ?_
  have hk := contrEquiv1_symm_val dot_S64x128_S8192x128_S64x8192_1_1_0_0_n_n 128 rfl rfl k
  have el : dot_S64x128_S8192x128_S64x8192_1_1_0_0_n_n.lhsIdx (ix2 r j) ((contrEquiv1 dot_S64x128_S8192x128_S64x8192_1_1_0_0_n_n 128 rfl rfl).symm k) = ix2 r k :=
    funext fun a => Fin.ext (by
      match a with
      | ⟨0, _⟩ => exact dot_lhs_0 _ _
      | ⟨1, _⟩ => exact (dot_lhs_1 _ _).trans hk)
  have er : dot_S64x128_S8192x128_S64x8192_1_1_0_0_n_n.rhsIdx (ix2 r j) ((contrEquiv1 dot_S64x128_S8192x128_S64x8192_1_1_0_0_n_n 128 rfl rfl).symm k) = ix2 j k :=
    funext fun a => Fin.ext (by
      match a with
      | ⟨0, _⟩ => exact dot_rhs_0 _ _
      | ⟨1, _⟩ => exact (dot_rhs_1 _ _).trans hk)
  rw [el, er]

/-- The cell plus the sum of a 64-row column. -/
theorem k0_pay1_apply (v74 : Vec Ideal S1x1 .f32) (v76 : FVec Ideal S64x1 .f32) :
    k0_pay1 (F := Ideal) v74 v76 (ix2 0 0) = v74 (ix2 0 0) + ∑ r : Fin 64, v76 (ix2 r 0) := by
  have e : k0_pay1 (F := Ideal) v74 v76
      = shapeCast S1x1 (addf (F := Ideal) (φ := .f32) v74 (shapeCast S1x1 (multiReduction .add [0] S1 v76
          0x00000000#32 reduces_S64x1_S1 (.inl rfl) rfl) shapeCasts_S1_S1x1)) shapeCasts_S1x1_S1x1 := rfl
  rw [e, shapeCast_self]
  exact congrArg (fun z : EReal => v74 (ix2 0 0) + z) (sum_cell_apply v76 _ _ _ _)

/-- The column of the tile's row sums: at row r, the sum over all 8192 columns j of exp(−d) of the row's squared norm
    (the sum of the squares given), the given squared norm of column j, and the inner product of row r with row j. -/
theorem k0_pay8_apply (v6 : Vec Ideal S64x128 .f32) (v7 : Vec Ideal S8192x128 .f32) (v9 : FVec Ideal S1x8192 .f32)
    (v37 : FVec Ideal S64x128 .f32) (r : Fin 64) :
    k0_pay8 (F := Ideal) v6 v7 v9 v37 (ix2 r 0)
      = ∑ j : Fin 8192, expNeg (F := Ideal) (sqDist (F := Ideal) (∑ k : Fin 128, v37 (ix2 r k)) (v9 (ix2 0 j))
          (∑ k : Fin 128, v6 (ix2 r k) * v7 (ix2 j k))) := by
  have e : k0_pay8 (F := Ideal) v6 v7 v9 v37
      = shapeCast S64x1 (multiReduction .add [1] S64
          (distExp
            (broadcastTo S64x8192 (shapeCast S64x1 (multiReduction .add [1] S64 v37 0x00000000#32 reduces_S64x128_S64 (.inl rfl) rfl)
              shapeCasts_S64_S64x1) broadcasts_S64x1_S64x8192)
            (broadcastTo S64x8192 v9 broadcasts_S1x8192_S64x8192)
            (matmul (F := Ideal) dot_S64x128_S8192x128_S64x8192_1_1_0_0_n_n none (truncf (F := Ideal) .bf16 v6 bitsLt_bf16_f32)
              (truncf (F := Ideal) .bf16 v7 bitsLt_bf16_f32) (constant (F := Ideal) S64x8192 .f32 0x00000000#32)))
          0x00000000#32 reduces_S64x8192_S64 (.inl rfl) rfl) shapeCasts_S64_S64x1 := rfl
  rw [e]
  refine (sum_col_apply _ _ _ _ _ r).trans (Finset.sum_congr rfl fun j _ => ?_)
  refine (distExp_apply _ _ _ _).trans (expNeg_sqDist_congr ?_ ?_ ?_)
  · exact (broadcastTo_a1_ab_apply _ broadcasts_S64x1_S64x8192 r j).trans (sum_col_apply v37 _ _ _ _ r)
  · exact broadcastTo_1b_ab_apply v9 broadcasts_S1x8192_S64x8192 r j
  · exact matmul_rows_apply (truncf (F := Ideal) .bf16 v6 bitsLt_bf16_f32) (truncf (F := Ideal) .bf16 v7 bitsLt_bf16_f32) r j

/-- One tile's update of the second cell, at the cell. -/
theorem stepL0_apply (x2 : Vec Ideal S64x128 .f32) (x3 : Vec Ideal S8192x128 .f32) (x4 : Vec Ideal S1x8192 .f32)
    (s : Vec Ideal S1x1 .f32) :
    stepL0 (F := Ideal) x2 x3 x4 s (ix2 0 0)
      = s (ix2 0 0) + ∑ r : Fin 64, ∑ j : Fin 8192,
          expNeg (F := Ideal) (sqDist (F := Ideal) (∑ k : Fin 128, x2 (ix2 r k) * x2 (ix2 r k)) (x4 (ix2 0 j))
            (∑ k : Fin 128, x2 (ix2 r k) * x3 (ix2 j k))) := by
  have e4 : k0_pay4 (F := Ideal) x4 = x4 := shapeCast_self x4 _
  unfold stepL0
  rw [e4]
  refine (k0_pay1_apply s _).trans ?_
  exact congrArg (fun z : EReal => s (ix2 0 0) + z)
    (Finset.sum_congr rfl fun r _ => k0_pay8_apply x2 x3 x4 (k0_pay6 (F := Ideal) x2) r)

end Cert.KernelIdeal.Hand

end
-- ==== Proof.KI.Bridge.lean ====
/-
  Region 0's two cells after all 128 row tiles are the two normalisers.

  After n tiles a cell holds the sum, over the first 64n rows i and all columns j, of the pair's exponential: each
  tile adds its 64 rows' sums to the cell, the cell starts at zero, and the 128 tiles of 64 consecutive rows are the
  8192 rows.
-/
import proofs.«122636_j18751827214982_1_alg».proof.Proof.KI.Data
import proofs.«122636_j18751827214982_1_alg».proof.Proof.KI.BridgeLib
import proofs.«122636_j18751827214982_1_alg».proof.Proof.KI.BridgeBlk
import proofs.«122636_j18751827214982_1_alg».proof.Proof.KI.BridgePay0

set_option maxRecDepth 16384

noncomputable section

namespace Cert.KernelIdeal.Hand

open Idealize.ShloMosaic Idealize.ShloMosaic.TcCoe Idealize.ShloMosaic.ValueIdx
open Idealize.SL.Sem
open Cert.KernelIdeal Cert.KernelIdeal.Gen
open Cert.PairKL (expNeg sqDist)
open scoped BigOperators

variable (V : (c : Dev nD) → (b : Ref sig .tc) → Buf (Elt Ideal) ((c : Thread nD τ).loc b))

/-- Row s's sum of the label exponentials, as a function of the natural number s (zero past the last row). -/
def rowY (y : Cert.PairKL.S8192x1.Idx → EReal) (s : ℕ) : EReal :=
  if h : s < 8192 then ∑ j : Fin 8192, Cert.PairKL.eY y ⟨s, h⟩ j else 0

/-- Row s's sum of the prediction exponentials. -/
def rowL (l : Cert.PairKL.S8192x128.Idx → EReal) (s : ℕ) : EReal :=
  if h : s < 8192 then ∑ j : Fin 8192, Cert.PairKL.eL l ⟨s, h⟩ j else 0

/-- One more tile adds its 64 rows' sums to the first cell. -/
theorem accY0_step (c : Dev nD) (y : Cert.PairKL.S8192x1.Idx → EReal)
    (hy : ∀ i : Fin 8192, (V c main_arg0 : S8192x1.Idx → EReal) (ix2 i 0) = y (ix2 i 0))
    (hv0 : ∀ j : Fin 8192, (V c main_v0 : S1x8192.Idx → EReal) (ix2 0 j) = y (ix2 j 0)) (n : ℕ) (hn : n < cfg0.N) :
    accY0 (F := Ideal) V c (n + 1) (ix2 0 0)
      = accY0 (F := Ideal) V c n (ix2 0 0) + ∑ r : Fin 64, rowY y (n * 64 + r.val) := by
  have hn' : n < 128 := hn
  refine (congrFun (accY0_succ V c ⟨n, hn⟩) (ix2 0 0)).trans ((stepY0_apply _ _ _).trans ?_)
  refine congrArg (fun z : EReal => accY0 (F := Ideal) V c n (ix2 0 0) + z) (Finset.sum_congr rfl fun r _ => ?_)
  have hlt : n * 64 + r.val < 8192 := by have := r.isLt; omega
  unfold rowY
  rw [dif_pos hlt]
  refine Finset.sum_congr rfl fun j _ => ?_
  have h0 := (iblk0_0_apply V c ⟨n, hn⟩ r 0 ⟨n * 64 + r.val, hlt⟩ (by show n * 64 + r.val = 64 * n + r.val; omega)).trans (hy _)
  have h1 := (iblk0_1_apply V c ⟨n, hn⟩ 0 j).trans (hv0 j)
  exact expNeg_sqDist_congr (congrArg₂ (fun a b : EReal => a * b) h0 h0) (congrArg₂ (fun a b : EReal => a * b) h1 h1)
    (congrArg₂ (fun a b : EReal => a * b) h0 h1)

/-- The first cell after all tiles is the labels' normaliser. -/
theorem accY0_total (c : Dev nD) (y : Cert.PairKL.S8192x1.Idx → EReal)
    (hy : ∀ i : Fin 8192, (V c main_arg0 : S8192x1.Idx → EReal) (ix2 i 0) = y (ix2 i 0))
    (hv0 : ∀ j : Fin 8192, (V c main_v0 : S1x8192.Idx → EReal) (ix2 0 j) = y (ix2 j 0)) :
    accY0 (F := Ideal) V c 128 (ix2 0 0) = Cert.PairKL.ZY y := by
  have hsum : ∀ n, n ≤ 128 → accY0 (F := Ideal) V c n (ix2 0 0)
      = (Finset.range n).sum (fun t => ∑ r : Fin 64, rowY y (t * 64 + r.val)) := by
    intro n
    induction n with
    | zero =>
      intro _
      rw [Finset.sum_range_zero]
      exact k0_pay2_apply
    | succ n ih =>
      intro h
      rw [Finset.sum_range_succ, ← ih (by omega)]
      exact accY0_step V c y hy hv0 n (show n < 128 by omega)
  rw [hsum 128 le_rfl, Cert.LibTileSum.tile_sum 64 (rowY y) 128]
  unfold Cert.PairKL.ZY
  show ∑ s : Fin 8192, rowY y s.val = _
  refine Finset.sum_congr rfl fun i _ => ?_
  unfold rowY
  rw [dif_pos i.isLt]

/-- One more tile adds its 64 rows' sums to the second cell. -/
theorem accL0_step (c : Dev nD) (l : Cert.PairKL.S8192x128.Idx → EReal)
    (hl : ∀ (i : Fin 8192) (k : Fin 128), (V c main_arg1 : S8192x128.Idx → EReal) (ix2 i k) = l (ix2 i k))
    (hv4 : ∀ j : Fin 8192, (V c main_v4 : S1x8192.Idx → EReal) (ix2 0 j) = Cert.PairKL.normL l j) (n : ℕ) (hn : n < cfg0.N) :
    accL0 (F := Ideal) V c (n + 1) (ix2 0 0)
      = accL0 (F := Ideal) V c n (ix2 0 0) + ∑ r : Fin 64, rowL l (n * 64 + r.val) := by
  have hn' : n < 128 := hn
  refine (congrFun (accL0_succ V c ⟨n, hn⟩) (ix2 0 0)).trans ((stepL0_apply _ _ _ _).trans ?_)
  refine congrArg (fun z : EReal => accL0 (F := Ideal) V c n (ix2 0 0) + z) (Finset.sum_congr rfl fun r _ => ?_)
  have hlt : n * 64 + r.val < 8192 := by have := r.isLt; omega
  unfold rowL
  rw [dif_pos hlt]
  refine Finset.sum_congr rfl fun j _ => ?_
  have h2 : ∀ k : Fin 128, (iblk0 V c 2 ⟨n, hn⟩ : Vec Ideal S64x128 .f32) (ix2 r k) = l (ix2 ⟨n * 64 + r.val, hlt⟩ k) := fun k =>
    (iblk0_2_apply V c ⟨n, hn⟩ r k ⟨n * 64 + r.val, hlt⟩ (by show n * 64 + r.val = 64 * n + r.val; omega)).trans (hl _ k)
  have h3 : ∀ k : Fin 128, (iblk0 V c 3 ⟨n, hn⟩ : Vec Ideal S8192x128 .f32) (ix2 j k) = l (ix2 j k) := fun k =>
    (iblk0_3_apply V c ⟨n, hn⟩ j k).trans (hl j k)
  have h4 := (iblk0_4_apply V c ⟨n, hn⟩ 0 j).trans (hv4 j)
  exact expNeg_sqDist_congr (Finset.sum_congr rfl fun k _ => congrArg₂ (fun a b : EReal => a * b) (h2 k) (h2 k)) h4
    (Finset.sum_congr rfl fun k _ => congrArg₂ (fun a b : EReal => a * b) (h2 k) (h3 k))

/-- The second cell after all tiles is the predictions' normaliser. -/
theorem accL0_total (c : Dev nD) (l : Cert.PairKL.S8192x128.Idx → EReal)
    (hl : ∀ (i : Fin 8192) (k : Fin 128), (V c main_arg1 : S8192x128.Idx → EReal) (ix2 i k) = l (ix2 i k))
    (hv4 : ∀ j : Fin 8192, (V c main_v4 : S1x8192.Idx → EReal) (ix2 0 j) = Cert.PairKL.normL l j) :
    accL0 (F := Ideal) V c 128 (ix2 0 0) = Cert.PairKL.ZL l := by
  have hsum : ∀ n, n ≤ 128 → accL0 (F := Ideal) V c n (ix2 0 0)
      = (Finset.range n).sum (fun t => ∑ r : Fin 64, rowL l (t * 64 + r.val)) := by
    intro n
    induction n with
    | zero =>
      intro _
      rw [Finset.sum_range_zero]
      exact k0_pay3_apply
    | succ n ih =>
      intro h
      rw [Finset.sum_range_succ, ← ih (by omega)]
      exact accL0_step V c l hl hv4 n (show n < 128 by omega)
  rw [hsum 128 le_rfl, Cert.LibTileSum.tile_sum 64 (rowL l) 128]
  unfold Cert.PairKL.ZL
  show ∑ s : Fin 8192, rowL l s.val = _
  refine Finset.sum_congr rfl fun i _ => ?_
  unfold rowL
  rw [dif_pos i.isLt]

end Cert.KernelIdeal.Hand

end
-- ==== Proof.KI.BridgePay1.lean ====
/-
  The second region's per-tile update read at the cell, over the extended reals.

  One tile's update adds, to the cell, the sum over the tile's 64 rows r and all 8192 columns j of p (log p − log q),
  where p = e^Y / Z^Y + ε with e^Y = exp(−d) of the squared norms x0(r)², x1(j)² and the product x0(r)·x1(j), and
  q = e^L / Z^L + ε with e^L = exp(−d) of the squared norm of row r of the tile's block of l (the sum of its squares),
  the given squared norm of row j, and the inner product of row r of the block with row j of l (a matrix product into
  a zero accumulator, the narrowing of the operands being the identity on extended reals); Z^Y and Z^L are the two
  given cells.  The cell starts at zero.
-/
import proofs.«122636_j18751827214982_1_alg».proof.Proof.KI.Data
import proofs.«122636_j18751827214982_1_alg».proof.Proof.KI.BridgeLib

set_option maxRecDepth 16384

noncomputable section

namespace Cert.KernelIdeal.Hand

open Idealize.ShloMosaic Idealize.ShloMosaic.ValueIdx
open Cert.KernelIdeal Cert.KernelIdeal.Gen
open Cert.PairKL (expNeg sqDist plusEps klTerm)
open scoped BigOperators

/-! ## The cell's starting value -/

theorem k1_pay2_apply : k1_pay2 (F := Ideal) (ix2 0 0) = 0 := by
  have e : k1_pay2 (F := Ideal)
      = shapeCast S1x1 (broadcast S1x1 (Scalar.ofBits (F := Ideal) .f32 0x00000000#32)) shapeCasts_S1x1_S1x1 := rfl
  rw [e, shapeCast_self]
  exact Ideal.ofBits_zero_f32

/-! ## The labels' exponentials -/

/-- The 64 × 8192 block of exp(−|x0(r) − x1(j)|), at (r, j). -/
theorem k1_pay4_apply (x0 : Vec Ideal S64x1 .f32) (x1 : Vec Ideal S1x8192 .f32) (r : Fin 64) (j : Fin 8192) :
    k1_pay4 (F := Ideal) x0 x1 (ix2 r j)
      = expNeg (F := Ideal) (sqDist (F := Ideal) (x0 (ix2 r 0) * x0 (ix2 r 0)) (x1 (ix2 0 j) * x1 (ix2 0 j))
          (x0 (ix2 r 0) * x1 (ix2 0 j))) := by
  have e : k1_pay4 (F := Ideal) x0 x1
      = distExp (broadcastTo S64x8192 (mulf (F := Ideal) (φ := .f32) x0 x0) broadcasts_S64x1_S64x8192)
          (broadcastTo S64x8192 (mulf (F := Ideal) (φ := .f32) (shapeCast S1x8192 x1 shapeCasts_S1x8192_S1x8192)
            (shapeCast S1x8192 x1 shapeCasts_S1x8192_S1x8192)) broadcasts_S1x8192_S64x8192)
          (mulf (F := Ideal) (φ := .f32) (broadcastTo S64x8192 x0 broadcasts_S64x1_S64x8192)
            (broadcastTo S64x8192 (shapeCast S1x8192 x1 shapeCasts_S1x8192_S1x8192) broadcasts_S1x8192_S64x8192)) := rfl
  have e1 : shapeCast S1x8192 x1 shapeCasts_S1x8192_S1x8192 = x1 := shapeCast_self x1 _
  rw [e, e1]
  refine (distExp_apply _ _ _ _).trans (expNeg_sqDist_congr ?_ ?_ ?_)
  · exact broadcastTo_a1_ab_apply (mulf (F := Ideal) (φ := .f32) x0 x0) broadcasts_S64x1_S64x8192 r j
  · exact broadcastTo_1b_ab_apply (mulf (F := Ideal) (φ := .f32) x1 x1) broadcasts_S1x8192_S64x8192 r j
  · exact congrArg₂ (fun a b : EReal => a * b) (broadcastTo_a1_ab_apply x0 broadcasts_S64x1_S64x8192 r j)
      (broadcastTo_1b_ab_apply x1 broadcasts_S1x8192_S64x8192 r j)

/-! ## The cell's update -/

/-- The cell plus the sum of all entries of a 64 × 8192 block. -/
theorem k1_pay1_apply (v80 : FVec Ideal S64x8192 .f32) (v81 : Vec Ideal S1x1 .f32) :
    k1_pay1 (F := Ideal) v80 v81 (ix2 0 0) = v81 (ix2 0 0) + ∑ r : Fin 64, ∑ j : Fin 8192, v80 (ix2 r j) := by
  have e : k1_pay1 (F := Ideal) v80 v81
      = shapeCast S1x1 (addf (F := Ideal) (φ := .f32) v81 (shapeCast S1x1 (multiReduction .add [0] S1
          (shapeCast S64x1 (multiReduction .add [1] S64 v80 0x00000000#32 reduces_S64x8192_S64 (.inl rfl) rfl) shapeCasts_S64_S64x1)
          0x00000000#32 reduces_S64x1_S1 (.inl rfl) rfl) shapeCasts_S1_S1x1)) shapeCasts_S1x1_S1x1 := rfl
  rw [e, shapeCast_self]
  exact congrArg (fun z : EReal => v81 (ix2 0 0) + z) (sum_all_apply v80 _ _ _ _ _ _ _ _)

/-! ## The matrix product -/

/-- The contraction's operand indices: at output (r, j) and contraction coordinate k the left operand is read at
    (r, k) and the right at (j, k). -/
theorem mm1_lhs_0 (i : S64x8192.Idx) (q : dot_S64x128_S8192x128_S64x8192_1_1_0_0_n_n.contr.Idx) :
    (dot_S64x128_S8192x128_S64x8192_1_1_0_0_n_n.lhsIdx i q 0).val = (i 0).val := by
  unfold DotDims.lhsIdx
  rw [dif_neg (show ¬(0 : Fin S64x128.rank) ∈ dot_S64x128_S8192x128_S64x8192_1_1_0_0_n_n.lhsBatch by decide),
    dif_pos (show (0 : Fin S64x128.rank) ∈ dot_S64x128_S8192x128_S64x8192_1_1_0_0_n_n.lhsNonContracting by decide)]
  rfl
theorem mm1_lhs_1 (i : S64x8192.Idx) (q : dot_S64x128_S8192x128_S64x8192_1_1_0_0_n_n.contr.Idx) :
    (dot_S64x128_S8192x128_S64x8192_1_1_0_0_n_n.lhsIdx i q 1).val = (q ⟨0, by decide⟩).val :=
  dot_S64x128_S8192x128_S64x8192_1_1_0_0_n_n.lhsIdx_val_of_single rfl i q
theorem mm1_rhs_0 (i : S64x8192.Idx) (q : dot_S64x128_S8192x128_S64x8192_1_1_0_0_n_n.contr.Idx) :
    (dot_S64x128_S8192x128_S64x8192_1_1_0_0_n_n.rhsIdx i q 0).val = (i 1).val := by
  unfold DotDims.rhsIdx
  rw [dif_neg (show ¬(0 : Fin S8192x128.rank) ∈ dot_S64x128_S8192x128_S64x8192_1_1_0_0_n_n.rhsBatch by decide),
    dif_pos (show (0 : Fin S8192x128.rank) ∈ dot_S64x128_S8192x128_S64x8192_1_1_0_0_n_n.rhsNonContracting by decide)]
  rfl
theorem mm1_rhs_1 (i : S64x8192.Idx) (q : dot_S64x128_S8192x128_S64x8192_1_1_0_0_n_n.contr.Idx) :
    (dot_S64x128_S8192x128_S64x8192_1_1_0_0_n_n.rhsIdx i q 1).val = (q ⟨0, by decide⟩).val :=
  dot_S64x128_S8192x128_S64x8192_1_1_0_0_n_n.rhsIdx_val_of_single rfl i q

/-- The matrix product into the zero accumulator, at (r, j): the inner product of row r of the left operand and row j
    of the right one. -/
theorem mm1_rows_apply (lhs : FVec Ideal S64x128 .bf16) (rhs : FVec Ideal S8192x128 .bf16) (r : Fin 64) (j : Fin 8192) :
    matmul (F := Ideal) dot_S64x128_S8192x128_S64x8192_1_1_0_0_n_n none lhs rhs (constant (F := Ideal) S64x8192 .f32 0x00000000#32) (ix2 r j)
      = ∑ k : Fin 128, lhs (ix2 r k) * rhs (ix2 j k) := by
  show FloatOps.matmul dot_S64x128_S8192x128_S64x8192_1_1_0_0_n_n none lhs rhs (constant (F := Ideal) S64x8192 .f32 0x00000000#32) (ix2 r j) = _
  rw [Ideal.matmul_constant_zero_apply, ← Equiv.sum_comp (contrEquiv1 dot_S64x128_S8192x128_S64x8192_1_1_0_0_n_n 128 rfl rfl).symm]
  refine Finset.sum_congr rfl fun k _ => ?_
  have hk := contrEquiv1_symm_val dot_S64x128_S8192x128_S64x8192_1_1_0_0_n_n 128 rfl rfl k
  have el : dot_S64x128_S8192x128_S64x8192_1_1_0_0_n_n.lhsIdx (ix2 r j) ((contrEquiv1 dot_S64x128_S8192x128_S64x8192_1_1_0_0_n_n 128 rfl rfl).symm k) = ix2 r k :=
    funext fun a => Fin.ext (by
      match a with
      | ⟨0, _⟩ => exact mm1_lhs_0 _ _
      | ⟨1, _⟩ => exact (mm1_lhs_1 _ _).trans hk)
  have er : dot_S64x128_S8192x128_S64x8192_1_1_0_0_n_n.rhsIdx (ix2 r j) ((contrEquiv1 dot_S64x128_S8192x128_S64x8192_1_1_0_0_n_n 128 rfl rfl).symm k) = ix2 j k :=
    funext fun a => Fin.ext (by
      match a with
      | ⟨0, _⟩ => exact mm1_rhs_0 _ _
      | ⟨1, _⟩ => exact (mm1_rhs_1 _ _).trans hk)
  rw [el, er]

/-! ## The term -/

section Term

variable {F : FTy → Type} [FloatOps F] {s : Shape}

/-- The pointwise chain from the two blocks of exponentials E1, E2 and the two broadcast normalisers Z1, Z2 to the
    term: p (log p − log q) with p = E1 / Z1 + ε and q = E2 / Z2 + ε. -/
def klVec (E1 Z1 E2 Z2 : FVec F s .f32) : FVec F s .f32 :=
  have v68 : FVec F s .f32 := divf E1 Z1
  have v69 : FVec F s .f32 := broadcast s (Scalar.ofBits .f32 0x322BCC77#32)
  have v70 : FVec F s .f32 := addf v68 v69
  have v74 : FVec F s .f32 := divf E2 Z2
  have v75 : FVec F s .f32 := broadcast s (Scalar.ofBits .f32 0x322BCC77#32)
  have v76 : FVec F s .f32 := addf v74 v75
  have v77 : FVec F s .f32 := log v70
  have v78 : FVec F s .f32 := log v76
  have v79 : FVec F s .f32 := subf v77 v78
  mulf v70 v79

/-- At an index the chain is the scalar term of the four entries. -/
theorem klVec_apply (E1 Z1 E2 Z2 : FVec F s .f32) (i : s.Idx) :
    klVec E1 Z1 E2 Z2 i = klTerm (plusEps (E1 i) (Z1 i)) (plusEps (E2 i) (Z2 i)) := rfl

theorem klTerm_plusEps_congr {e1 e1' z1 z1' e2 e2' z2 z2' : F .f32} (h1 : e1 = e1') (h2 : z1 = z1') (h3 : e2 = e2')
    (h4 : z2 = z2') :
    klTerm (plusEps e1 z1) (plusEps e2 z2) = klTerm (plusEps e1' z1') (plusEps e2' z2') := by
  rw [h1, h2, h3, h4]

end Term

/-- The 64 × 8192 block of terms, at (r, j). -/
theorem k1_pay6_apply (v6 : Vec Ideal S64x128 .f32) (v7 : Vec Ideal S8192x128 .f32) (v9 : FVec Ideal S1x8192 .f32)
    (v36 : FVec Ideal S64x8192 .f32) (v37 : FVec Ideal S64x128 .f32) (v65 v71 : Vec Ideal S1x1 .f32) (r : Fin 64) (j : Fin 8192) :
    k1_pay6 (F := Ideal) v6 v7 v9 v36 v37 v65 v71 (ix2 r j)
      = klTerm (F := Ideal) (plusEps (F := Ideal) (v36 (ix2 r j)) (v65 (ix2 0 0)))
          (plusEps (F := Ideal) (expNeg (F := Ideal) (sqDist (F := Ideal) (∑ k : Fin 128, v37 (ix2 r k)) (v9 (ix2 0 j))
            (∑ k : Fin 128, v6 (ix2 r k) * v7 (ix2 j k)))) (v71 (ix2 0 0))) := by
  have e : k1_pay6 (F := Ideal) v6 v7 v9 v36 v37 v65 v71
      = klVec v36 (broadcastTo S64x8192 (shapeCast S1x1 v65 shapeCasts_S1x1_S1x1) broadcasts_S1x1_S64x8192)
          (distExp
            (broadcastTo S64x8192 (shapeCast S64x1 (multiReduction .add [1] S64 v37 0x00000000#32 reduces_S64x128_S64 (.inl rfl) rfl)
              shapeCasts_S64_S64x1) broadcasts_S64x1_S64x8192)
            (broadcastTo S64x8192 v9 broadcasts_S1x8192_S64x8192)
            (matmul (F := Ideal) dot_S64x128_S8192x128_S64x8192_1_1_0_0_n_n none (truncf (F := Ideal) .bf16 v6 bitsLt_bf16_f32)
              (truncf (F := Ideal) .bf16 v7 bitsLt_bf16_f32) (constant (F := Ideal) S64x8192 .f32 0x00000000#32)))
          (broadcastTo S64x8192 (shapeCast S1x1 v71 shapeCasts_S1x1_S1x1) broadcasts_S1x1_S64x8192) := rfl
  have e65 : shapeCast S1x1 v65 shapeCasts_S1x1_S1x1 = v65 := shapeCast_self v65 _
  have e71 : shapeCast S1x1 v71 shapeCasts_S1x1_S1x1 = v71 := shapeCast_self v71 _
  rw [e, e65, e71]
  refine (klVec_apply _ _ _ _ _).trans (klTerm_plusEps_congr rfl ?_ ?_ ?_)
  · exact broadcastTo_11_ab_apply v65 broadcasts_S1x1_S64x8192 r j
  · refine (distExp_apply _ _ _ _).trans (expNeg_sqDist_congr ?_ ?_ ?_)
    · exact (broadcastTo_a1_ab_apply _ broadcasts_S64x1_S64x8192 r j).trans (sum_col_apply v37 _ _ _ _ r)
    · exact broadcastTo_1b_ab_apply v9 broadcasts_S1x8192_S64x8192 r j
    · exact mm1_rows_apply (truncf (F := Ideal) .bf16 v6 bitsLt_bf16_f32) (truncf (F := Ideal) .bf16 v7 bitsLt_bf16_f32) r j
  · exact broadcastTo_11_ab_apply v71 broadcasts_S1x1_S64x8192 r j

/-- One tile's update of the cell, at the cell. -/
theorem step1_apply (x0 : Vec Ideal S64x1 .f32) (x1 : Vec Ideal S1x8192 .f32) (x2 : Vec Ideal S64x128 .f32)
    (x3 : Vec Ideal S8192x128 .f32) (x4 : Vec Ideal S1x8192 .f32) (x5 x6 s : Vec Ideal S1x1 .f32) :
    step1 (F := Ideal) x0 x1 x2 x3 x4 x5 x6 s (ix2 0 0)
      = s (ix2 0 0) + ∑ r : Fin 64, ∑ j : Fin 8192,
          klTerm (F := Ideal)
            (plusEps (F := Ideal) (expNeg (F := Ideal) (sqDist (F := Ideal) (x0 (ix2 r 0) * x0 (ix2 r 0))
              (x1 (ix2 0 j) * x1 (ix2 0 j)) (x0 (ix2 r 0) * x1 (ix2 0 j)))) (x5 (ix2 0 0)))
            (plusEps (F := Ideal) (expNeg (F := Ideal) (sqDist (F := Ideal) (∑ k : Fin 128, x2 (ix2 r k) * x2 (ix2 r k))
              (x4 (ix2 0 j)) (∑ k : Fin 128, x2 (ix2 r k) * x3 (ix2 j k)))) (x6 (ix2 0 0))) := by
  have e4 : k1_pay3 (F := Ideal) x4 = x4 := shapeCast_self x4 _
  unfold step1
  rw [e4]
  refine (k1_pay1_apply _ s).trans ?_
  refine congrArg (fun z : EReal => s (ix2 0 0) + z) (Finset.sum_congr rfl fun r _ => Finset.sum_congr rfl fun j _ => ?_)
  refine (k1_pay6_apply x2 x3 x4 (k1_pay4 (F := Ideal) x0 x1) (k1_pay5 (F := Ideal) x2) x5 x6 r j).trans ?_
  exact klTerm_plusEps_congr (k1_pay4_apply x0 x1 r j) rfl rfl rfl

end Cert.KernelIdeal.Hand

end
-- ==== Proof.LibFoldRange.lean ====
/-
  Two general facts about finite sums over an initial segment of the natural numbers.

  (1) A sequence that starts at zero and whose every step adds one term is the sequence of partial sums: if acc 0 = 0
      and acc (n + 1) = acc n + g n for every n below N, then acc N is the sum of g over the first N naturals.
  (2) A sum over J consecutive groups of R consecutive terms is the sum over the first J · R terms: the term with group
      number t and place r inside its group is the term numbered t · R + r.
-/
import Mathlib.Algebra.BigOperators.Fin
import Mathlib.Algebra.BigOperators.Intervals

namespace Cert.LibFoldRange

variable {M : Type*} [AddCommMonoid M]

/-- A sequence with `acc 0 = 0` and `acc (n + 1) = acc n + g n` for every `n` below `N` is, at `N`, the sum of the
    first `N` terms of `g`. -/
theorem acc_eq_sum_range (acc g : ℕ → M) (N : ℕ) (h0 : acc 0 = 0) (hs : ∀ n < N, acc (n + 1) = acc n + g n) :
    acc N = ∑ t ∈ Finset.range N, g t := by
  induction N with
  | zero => rw [Finset.range_zero, Finset.sum_empty]; exact h0
  | succ n ih =>
    rw [Finset.sum_range_succ, hs n (Nat.lt_succ_self n), ih fun k hk => hs k (Nat.lt_succ_of_lt hk)]

/-- A sum over `J` groups of `R` consecutive terms is the sum over the first `J * R` terms. -/
theorem sum_range_groups (f : ℕ → M) (J R : ℕ) :
    ∑ t ∈ Finset.range J, ∑ r : Fin R, f (t * R + r) = ∑ i ∈ Finset.range (J * R), f i := by
  induction J with
  | zero => rw [Finset.range_zero, Finset.sum_empty, Nat.zero_mul, Finset.range_zero, Finset.sum_empty]
  | succ n ih =>
    rw [Finset.sum_range_succ, ih, Nat.succ_mul, Finset.sum_range_add, Finset.sum_range fun x => f (n * R + x)]

end Cert.LibFoldRange
-- ==== Proof.KI.Bridge1.lean ====
/-
  The second region's cell after all 128 tiles is the divergence, the normalisers given.

  One more tile adds to the cell the terms of its 64 rows: the tile's blocks of y and of l are rows 64t … 64t+63 of the
  arrays, the other windows hold their whole arrays, so the tile's sum over its rows r and all columns j is the sum of
  the pair terms of rows 64t + r.  A cell that starts at zero and gains one tile's sum per step holds, after 128 steps,
  the sum over the tiles; and 128 tiles of 64 rows are the 8192 rows.
-/
import proofs.«122636_j18751827214982_1_alg».proof.Proof.KI.Data
import proofs.«122636_j18751827214982_1_alg».proof.Proof.KI.BridgeLib
import proofs.«122636_j18751827214982_1_alg».proof.Proof.KI.BridgeBlk
import proofs.«122636_j18751827214982_1_alg».proof.Proof.KI.BridgePay1
import proofs.«122636_j18751827214982_1_alg».proof.Proof.LibFoldRange

set_option maxRecDepth 16384

noncomputable section

namespace Cert.KernelIdeal.Hand

open Idealize.ShloMosaic Idealize.ShloMosaic.TcCoe Idealize.ShloMosaic.ValueIdx
open Idealize.SL.Sem
open Cert.KernelIdeal Cert.KernelIdeal.Gen
open Cert.PairKL (expNeg sqDist plusEps klTerm)
open scoped BigOperators

variable (V : (c : Dev nD) → (b : Ref sig .tc) → Buf (Elt Ideal) ((c : Thread nD τ).loc b))

/-- Row s's sum of the pair terms, as a function of the natural number s (zero past the last row). -/
def rowKL (y : Cert.PairKL.S8192x1.Idx → EReal) (l : Cert.PairKL.S8192x128.Idx → EReal) (zy zl : EReal) (s : ℕ) : EReal :=
  if h : s < 8192 then ∑ j : Fin 8192, Cert.PairKL.pairTerm y l zy zl ⟨s, h⟩ j else 0

/-- One more tile adds its 64 rows' sums of terms to the cell. -/
theorem acc1_step (c : Dev nD) (y : Cert.PairKL.S8192x1.Idx → EReal) (l : Cert.PairKL.S8192x128.Idx → EReal) (zy zl : EReal)
    (hy : ∀ i : Fin 8192, V c main_arg0 (ix2 i 0) = y (ix2 i 0)) (hv0 : ∀ j : Fin 8192, V c main_v0 (ix2 0 j) = y (ix2 j 0))
    (hl : ∀ (i : Fin 8192) (k : Fin 128), V c main_arg1 (ix2 i k) = l (ix2 i k))
    (hv4 : ∀ j : Fin 8192, V c main_v4 (ix2 0 j) = Cert.PairKL.normL l j)
    (h5 : V c main_v5_0 (ix2 0 0) = zy) (h6 : V c main_v5_1 (ix2 0 0) = zl) (n : ℕ) (hn : n < cfg1.N) :
    acc1 (F := Ideal) V c (n + 1) (ix2 0 0)
      = acc1 (F := Ideal) V c n (ix2 0 0) + ∑ r : Fin 64, rowKL y l zy zl (n * 64 + r.val) := by
  have hn' : n < 128 := hn
  refine (congrFun (acc1_succ V c ⟨n, hn⟩) (ix2 0 0)).trans ((step1_apply _ _ _ _ _ _ _ _).trans ?_)
  refine congrArg (fun z : EReal => acc1 (F := Ideal) V c n (ix2 0 0) + z) (Finset.sum_congr rfl fun r _ => ?_)
  have hlt : n * 64 + r.val < 8192 := by have := r.isLt; omega
  unfold rowKL
  rw [dif_pos hlt]
  refine Finset.sum_congr rfl fun j _ => ?_
  have hi : (⟨n * 64 + r.val, hlt⟩ : Fin 8192).val = 64 * (⟨n, hn⟩ : Fin cfg1.N).val + r.val := by
    show n * 64 + r.val = 64 * n + r.val; omega
  have h0 := (iblk1_0_apply V c ⟨n, hn⟩ r 0 ⟨n * 64 + r.val, hlt⟩ hi).trans (hy _)
  have h1 := (iblk1_1_apply V c ⟨n, hn⟩ 0 j).trans (hv0 j)
  have h2 := fun k : Fin 128 => (iblk1_2_apply V c ⟨n, hn⟩ r k ⟨n * 64 + r.val, hlt⟩ hi).trans (hl _ k)
  have h3 := fun k : Fin 128 => (iblk1_3_apply V c ⟨n, hn⟩ j k).trans (hl j k)
  have h4 := (iblk1_4_apply V c ⟨n, hn⟩ 0 j).trans (hv4 j)
  have h5' := (iblk1_5_apply V c ⟨n, hn⟩ 0 0).trans h5
  have h6' := (iblk1_6_apply V c ⟨n, hn⟩ 0 0).trans h6
  exact klTerm_plusEps_congr
    (expNeg_sqDist_congr (congrArg₂ (fun a b : EReal => a * b) h0 h0) (congrArg₂ (fun a b : EReal => a * b) h1 h1)
      (congrArg₂ (fun a b : EReal => a * b) h0 h1)) h5'
    (expNeg_sqDist_congr (Finset.sum_congr rfl fun k _ => congrArg₂ (fun a b : EReal => a * b) (h2 k) (h2 k)) h4
      (Finset.sum_congr rfl fun k _ => congrArg₂ (fun a b : EReal => a * b) (h2 k) (h3 k))) h6'

/-- The cell after all tiles is the sum of all the pair terms. -/
theorem acc1_total (c : Dev nD) (y : Cert.PairKL.S8192x1.Idx → EReal) (l : Cert.PairKL.S8192x128.Idx → EReal) (zy zl : EReal)
    (hy : ∀ i : Fin 8192, V c main_arg0 (ix2 i 0) = y (ix2 i 0)) (hv0 : ∀ j : Fin 8192, V c main_v0 (ix2 0 j) = y (ix2 j 0))
    (hl : ∀ (i : Fin 8192) (k : Fin 128), V c main_arg1 (ix2 i k) = l (ix2 i k))
    (hv4 : ∀ j : Fin 8192, V c main_v4 (ix2 0 j) = Cert.PairKL.normL l j)
    (h5 : V c main_v5_0 (ix2 0 0) = zy) (h6 : V c main_v5_1 (ix2 0 0) = zl) :
    acc1 (F := Ideal) V c 128 (ix2 0 0) = ∑ i : Fin 8192, ∑ j : Fin 8192, Cert.PairKL.pairTerm y l zy zl i j := by
  refine (Cert.LibFoldRange.acc_eq_sum_range (fun n => acc1 (F := Ideal) V c n (ix2 0 0))
    (fun t => ∑ r : Fin 64, rowKL y l zy zl (t * 64 + r.val)) 128 k1_pay2_apply
    (fun n hn => acc1_step V c y l zy zl hy hv0 hl hv4 h5 h6 n hn)).trans ?_
  rw [Cert.LibFoldRange.sum_range_groups (rowKL y l zy zl) 128 64, Finset.sum_range]
  show ∑ s : Fin 8192, rowKL y l zy zl s.val = _
  refine Finset.sum_congr rfl fun i _ => ?_
  unfold rowKL
  rw [dif_pos i.isLt]

end Cert.KernelIdeal.Hand

end
-- ==== Proof.KI.Value.lean ====
/-
  The result of the kernel's program at the ideal instance: the divergence of Spec.lean, of the launch arrays.

  The host operations before region 0 turn y into a row vector and compute the squared norms of l's rows; region 0's two
  cells fold the two normalisers over the 128 tiles of 64 rows, which are all 8192 rows; region 1's cell folds the
  pairs' terms with those normalisers; the last host operation reads the one-entry result as a scalar.
-/
import proofs.«122636_j18751827214982_1_alg».proof.Proof.KI.Final
import proofs.«122636_j18751827214982_1_alg».proof.Proof.KI.HostVals
import proofs.«122636_j18751827214982_1_alg».proof.Proof.KI.Bridge
import proofs.«122636_j18751827214982_1_alg».proof.Proof.KI.Bridge1
import proofs.«122636_j18751827214982_1_alg».proof.Proof.Spec

set_option maxRecDepth 16384

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ)

/-- The labels and the predictions as launched on core `c`. -/
abbrev yOf (c : Dev nD) : Cert.PairKL.S8192x1.Idx → EReal := m ((c : Thread nD τ).loc main_arg0)
abbrev lOf (c : Dev nD) : Cert.PairKL.S8192x128.Idx → EReal := m ((c : Thread nD τ).loc main_arg1)

theorem VR1_arg0 (c : Dev nD) : VR1 m c main_arg0 = m ((c : Thread nD τ).loc main_arg0) := (V1_of m c main_arg0 (by decide)).trans rfl
theorem VR1_arg1 (c : Dev nD) : VR1 m c main_arg1 = m ((c : Thread nD τ).loc main_arg1) := (V1_of m c main_arg1 (by decide)).trans rfl
theorem VR2_arg0 (c : Dev nD) : VR2 m c main_arg0 = m ((c : Thread nD τ).loc main_arg0) := (W2_of m c main_arg0 (by decide)).trans (VR1_arg0 m c)
theorem VR2_arg1 (c : Dev nD) : VR2 m c main_arg1 = m ((c : Thread nD τ).loc main_arg1) := (W2_of m c main_arg1 (by decide)).trans (VR1_arg1 m c)
theorem VR2_v0 (c : Dev nD) : VR2 m c main_v0 = VR1 m c main_v0 := W2_of m c main_v0 (by decide)
theorem VR2_v4 (c : Dev nD) : VR2 m c main_v4 = VR1 m c main_v4 := W2_of m c main_v4 (by decide)

/-- Region 0 leaves Z^Y in its first output. -/
theorem zy_eq (c : Dev nD) : VR2 m c main_v5_0 (ix2 0 0) = Cert.PairKL.ZY (yOf m c) := by
  show W2 m c main_v5_0 (ix2 0 0) = _
  rw [W2_v5_0, arrAt0_5]
  exact accY0_total (VR1 m) c (yOf m c) (fun i => congrFun (VR1_arg0 m c) _) (fun j => V1_v0_at m c j)

/-- Region 0 leaves Z^L in its second output. -/
theorem zl_eq (c : Dev nD) : VR2 m c main_v5_1 (ix2 0 0) = Cert.PairKL.ZL (lOf m c) := by
  show W2 m c main_v5_1 (ix2 0 0) = _
  rw [W2_v5_1, arrAt0_6]
  exact accL0_total (VR1 m) c (lOf m c) (fun i k => congrFun (VR1_arg1 m c) _) (fun j => V1_v4_at m c j)

/-- THE RESULT: the scalar the program returns is the divergence of the launch arrays. -/
theorem result_eq (c : Dev nD) (i : S_.Idx) : W4 m c main_v7 i = Cert.PairKL.kl (yOf m c) (lOf m c) := by
  rw [show W4 m c main_v7 i = W3 m c main_v6 (ix2 0 0) from after2_v7_at (W3 m c) i, W3_v6, arrAt1_7]
  rw [acc1_total (VR2 m) c (yOf m c) (lOf m c) (Cert.PairKL.ZY (yOf m c)) (Cert.PairKL.ZL (lOf m c))
    (fun i => congrFun (VR2_arg0 m c) _) (fun j => (congrFun (VR2_v0 m c) _).trans (V1_v0_at m c j))
    (fun i k => congrFun (VR2_arg1 m c) _) (fun j => (congrFun (VR2_v4 m c) _).trans (V1_v4_at m c j))
    (zy_eq m c) (zl_eq m c)]
  rfl

end Cert.KernelIdeal.Hand

end
-- ==== Proof.RefValue.lean ====
/-
  The reference program at the ideal instance computes the pairwise divergence of the specification.

  Reading the reference one operation at a time, at an index (i, j) of the 8192 × 8192 arrays:
    • the squared norm of a row of y is a sum over one column, so it is y_i · y_i, and the inner product of rows i and j
      of y is likewise y_i · y_j; for l the two are sums over the 128 columns;
    • the squared distance is |a|² + |b|² − 2⟨a, b⟩, and the exponential of minus its guarded square root is the
      specification's scalar step: on the extended reals the host's square root, exponential, logarithm, quotient and
      negation are the same functions the specification names, and 0 − d = −d;
    • a float sum is the zero word plus the sum of the elements, that is the sum; a sum over all pairs of indices is the
      double sum over the two coordinates;
    • the two normalisers are the double sums of the two kernels of exponentials, every term of the divergence is
      p (log p − log q) with p = e^Y / Z^Y + ε and q = e^L / Z^L + ε, and the result is the double sum of the terms.
-/
import proofs.«122636_j18751827214982_1_alg».proof.Proof.Gen.ReferenceIdeal.Read
import proofs.«122636_j18751827214982_1_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Read Idealize.ShloMosaic Idealize.ShloMosaic.ValueIdx
open Cert.PairKL (sqDist expNeg plusEps klTerm normL dotL eY eL ZY ZL pairTerm kl)

/-! ## The scalar step shared by the two kernels of exponentials -/

/-- From the clamped squared distance on, the labels' chain of host operations is the specification's scalar step. -/
theorem expY_of_sq (y : (⟨S8192x1, .f32⟩ : BufTy).Contents (Elt Ideal)) (p : S8192x8192.Idx) :
    val_main_v45 (F := Ideal) y p = expNeg (F := Ideal) (val_main_v11 (F := Ideal) y p) := by
  rw [val_main_v45_apply, val_main_v44_apply, val_main_v43_apply, val_main_cst_13_apply, val_main_v42_apply,
    val_main_v20_apply, val_main_call1_v1_apply, val_main_call1_v0_apply, val_main_cst_5_apply, val_main_v18_apply,
    val_main_v17_apply, val_main_cst_4_apply, val_main_v19_apply, val_main_v16_apply, val_main_call0_v1_apply,
    val_main_call0_v0_apply, val_main_cst_3_apply, val_main_v15_apply, val_main_v14_apply, val_main_cst_2_apply,
    val_main_v13_apply, val_main_v12_apply, val_main_cst_1_apply]
  generalize val_main_v11 (F := Ideal) y p = r
  simp only [expNeg, Ideal.hostUnary_exp_def, Ideal.hostUnary_sqrt_def, Ideal.hostDivf_def, Ideal.hostNegf_def,
    Ideal.negf_def, Ideal.exp_def, Ideal.sqrt_def, Ideal.divf_def, Ideal.subf_def, Ideal.ofBits_def, Ideal.ofBits_zero_f32,
    zero_sub]

/-! ## The labels: squared norms, inner products, squared distances -/

/-- The squared norm of a row of y is a sum over its one column. -/
theorem normY_at (y : (⟨S8192x1, .f32⟩ : BufTy).Contents (Elt Ideal)) (a : Fin 8192) :
    val_main_v1 (F := Ideal) y (ix1 a) = y (ix2 a 0) * y (ix2 a 0) := by
  rw [val_main_v1_apply, val_main_cst_apply, Fin.sum_univ_one, val_main_v0_apply]
  have e : idx_main_v1 (ix1 a) (0 : Fin 1) = ix2 a 0 := funext fun a => Fin.ext (by match a with | ⟨0, _⟩ => rfl | ⟨1, _⟩ => rfl)
  rw [e]
  simp only [Ideal.ofBits_def, Ideal.ofBits_zero_f32, zero_add, Ideal.mulf_def]

/-- The sum of the two squared norms at a pair of rows. -/
theorem normsY_at (y : (⟨S8192x1, .f32⟩ : BufTy).Contents (Elt Ideal)) (i j : Fin 8192) :
    val_main_v6 (F := Ideal) y (ix2 i j) = y (ix2 i 0) * y (ix2 i 0) + y (ix2 j 0) * y (ix2 j 0) := by
  rw [val_main_v6_apply, val_main_v4_apply, val_main_v2_apply, val_main_v5_apply, val_main_v3_apply]
  have e1 : idx_main_v2 (idx_main_v4 (ix2 i j)) = ix1 i := funext fun a => Fin.ext (by match a with | ⟨0, _⟩ => rfl)
  have e2 : idx_main_v3 (idx_main_v5 (ix2 i j)) = ix1 j := funext fun a => Fin.ext (by match a with | ⟨0, _⟩ => rfl)
  rw [e1, e2, normY_at, normY_at]
  simp only [Ideal.addf_def]

/-- The inner product of two rows of y is a sum over the one column. -/
theorem dotY_at (y : (⟨S8192x1, .f32⟩ : BufTy).Contents (Elt Ideal)) (i j : Fin 8192) :
    val_main_v8 (F := Ideal) y (ix2 i j) = y (ix2 i 0) * y (ix2 j 0) := by
  rw [val_main_v8_apply, Fin.sum_univ_one, val_main_v7_apply]
  have e1 : lidx_main_v8 (ix2 i j) (0 : Fin 1) = ix2 i 0 := funext fun a => Fin.ext (by match a with | ⟨0, _⟩ => rfl | ⟨1, _⟩ => rfl)
  have e2 : idx_main_v7 (ridx_main_v8 (ix2 i j) (0 : Fin 1)) = ix2 j 0 := funext fun a => Fin.ext (by match a with | ⟨0, _⟩ => rfl | ⟨1, _⟩ => rfl)
  rw [e1, e2]

/-- The squared distance between two labels. -/
theorem sqY_at (y : (⟨S8192x1, .f32⟩ : BufTy).Contents (Elt Ideal)) (i j : Fin 8192) :
    val_main_v11 (F := Ideal) y (ix2 i j)
      = sqDist (F := Ideal) (y (ix2 i 0) * y (ix2 i 0)) (y (ix2 j 0) * y (ix2 j 0)) (y (ix2 i 0) * y (ix2 j 0)) := by
  rw [val_main_v11_apply, val_main_v10_apply, val_main_v9_apply, val_main_cst_0_apply, normsY_at, dotY_at]
  simp only [sqDist, Ideal.addf_def]

/-- The labels' kernel of exponentials. -/
theorem eY_at (y : (⟨S8192x1, .f32⟩ : BufTy).Contents (Elt Ideal)) (i j : Fin 8192) :
    val_main_v45 (F := Ideal) y (ix2 i j) = eY y i j := by
  rw [expY_of_sq, sqY_at]
  rfl

/-! ## The predictions: the same chain over 128 columns -/

/-- From the clamped squared distance on, the predictions' chain of host operations is the specification's scalar step. -/
theorem expL_of_sq (l : (⟨S8192x128, .f32⟩ : BufTy).Contents (Elt Ideal)) (p : S8192x8192.Idx) :
    val_main_v49 (F := Ideal) l p = expNeg (F := Ideal) (val_main_v32 (F := Ideal) l p) := by
  rw [val_main_v49_apply, val_main_v48_apply, val_main_v47_apply, val_main_cst_14_apply, val_main_v46_apply,
    val_main_v41_apply, val_main_call3_v1_apply, val_main_call3_v0_apply, val_main_cst_12_apply, val_main_v39_apply,
    val_main_v38_apply, val_main_cst_11_apply, val_main_v40_apply, val_main_v37_apply, val_main_call2_v1_apply,
    val_main_call2_v0_apply, val_main_cst_10_apply, val_main_v36_apply, val_main_v35_apply, val_main_cst_9_apply,
    val_main_v34_apply, val_main_v33_apply, val_main_cst_8_apply]
  generalize val_main_v32 (F := Ideal) l p = r
  simp only [expNeg, Ideal.hostUnary_exp_def, Ideal.hostUnary_sqrt_def, Ideal.hostDivf_def, Ideal.hostNegf_def,
    Ideal.negf_def, Ideal.exp_def, Ideal.sqrt_def, Ideal.divf_def, Ideal.subf_def, Ideal.ofBits_def, Ideal.ofBits_zero_f32,
    zero_sub]

/-- The squared norm of a row of l. -/
theorem normL_at (l : (⟨S8192x128, .f32⟩ : BufTy).Contents (Elt Ideal)) (a : Fin 8192) :
    val_main_v22 (F := Ideal) l (ix1 a) = normL l a := by
  rw [val_main_v22_apply, val_main_cst_6_apply]
  simp only [Ideal.ofBits_def, Ideal.ofBits_zero_f32, zero_add]
  unfold normL
  refine Finset.sum_congr rfl fun k _ => ?_
  rw [val_main_v21_apply]
  have e : idx_main_v22 (ix1 a) k = ix2 a k := funext fun a => Fin.ext (by match a with | ⟨0, _⟩ => rfl | ⟨1, _⟩ => rfl)
  rw [e]
  simp only [Ideal.mulf_def]

/-- The sum of the two squared norms at a pair of rows. -/
theorem normsL_at (l : (⟨S8192x128, .f32⟩ : BufTy).Contents (Elt Ideal)) (i j : Fin 8192) :
    val_main_v27 (F := Ideal) l (ix2 i j) = normL l i + normL l j := by
  rw [val_main_v27_apply, val_main_v25_apply, val_main_v23_apply, val_main_v26_apply, val_main_v24_apply]
  have e1 : idx_main_v23 (idx_main_v25 (ix2 i j)) = ix1 i := funext fun a => Fin.ext (by match a with | ⟨0, _⟩ => rfl)
  have e2 : idx_main_v24 (idx_main_v26 (ix2 i j)) = ix1 j := funext fun a => Fin.ext (by match a with | ⟨0, _⟩ => rfl)
  rw [e1, e2, normL_at, normL_at]
  simp only [Ideal.addf_def]

/-- The inner product of two rows of l. -/
theorem dotL_at (l : (⟨S8192x128, .f32⟩ : BufTy).Contents (Elt Ideal)) (i j : Fin 8192) :
    val_main_v29 (F := Ideal) l (ix2 i j) = dotL l i j := by
  rw [val_main_v29_apply]
  unfold dotL
  refine Finset.sum_congr rfl fun k _ => ?_
  rw [val_main_v28_apply]
  have e1 : lidx_main_v29 (ix2 i j) k = ix2 i k := funext fun a => Fin.ext (by match a with | ⟨0, _⟩ => rfl | ⟨1, _⟩ => rfl)
  have e2 : idx_main_v28 (ridx_main_v29 (ix2 i j) k) = ix2 j k := funext fun a => Fin.ext (by match a with | ⟨0, _⟩ => rfl | ⟨1, _⟩ => rfl)
  rw [e1, e2]

/-- The squared distance between two predictions. -/
theorem sqL_at (l : (⟨S8192x128, .f32⟩ : BufTy).Contents (Elt Ideal)) (i j : Fin 8192) :
    val_main_v32 (F := Ideal) l (ix2 i j) = sqDist (F := Ideal) (normL l i) (normL l j) (dotL l i j) := by
  rw [val_main_v32_apply, val_main_v31_apply, val_main_v30_apply, val_main_cst_7_apply, normsL_at, dotL_at]
  simp only [sqDist, Ideal.addf_def]

/-- The predictions' kernel of exponentials. -/
theorem eL_at (l : (⟨S8192x128, .f32⟩ : BufTy).Contents (Elt Ideal)) (i j : Fin 8192) :
    val_main_v49 (F := Ideal) l (ix2 i j) = eL l i j := by
  rw [expL_of_sq, sqL_at]
  rfl

/-! ## The two normalisers -/

/-- The labels' normaliser is the double sum of their kernel. -/
theorem ZY_at (y : (⟨S8192x1, .f32⟩ : BufTy).Contents (Elt Ideal)) (i : S_.Idx) :
    val_main_v50 (F := Ideal) y i = ZY y := by
  rw [val_main_v50_apply, val_main_cst_15_apply]
  simp only [Ideal.ofBits_def, Ideal.ofBits_zero_f32, zero_add]
  refine (sum_idx2 _).trans ?_
  unfold ZY
  exact Finset.sum_congr rfl fun a _ => Finset.sum_congr rfl fun b _ => eY_at y a b

/-- The predictions' normaliser is the double sum of their kernel. -/
theorem ZL_at (l : (⟨S8192x128, .f32⟩ : BufTy).Contents (Elt Ideal)) (i : S_.Idx) :
    val_main_v51 (F := Ideal) l i = ZL l := by
  rw [val_main_v51_apply, val_main_cst_16_apply]
  simp only [Ideal.ofBits_def, Ideal.ofBits_zero_f32, zero_add]
  refine (sum_idx2 _).trans ?_
  unfold ZL
  exact Finset.sum_congr rfl fun a _ => Finset.sum_congr rfl fun b _ => eL_at l a b

/-! ## The terms and their sum -/

/-- One pair's term of the divergence. -/
theorem term_at (y : (⟨S8192x1, .f32⟩ : BufTy).Contents (Elt Ideal)) (l : (⟨S8192x128, .f32⟩ : BufTy).Contents (Elt Ideal))
    (i j : Fin 8192) :
    val_main_v63 (F := Ideal) y l (ix2 i j) = pairTerm y l (ZY y) (ZL l) i j := by
  rw [val_main_v63_apply, val_main_v62_apply, val_main_v60_apply, val_main_v61_apply, val_main_v55_apply,
    val_main_v59_apply, val_main_v53_apply, val_main_v57_apply, val_main_v54_apply, val_main_cst_17_apply,
    val_main_v58_apply, val_main_cst_18_apply, val_main_v52_apply, val_main_v56_apply, ZY_at, ZL_at, eY_at, eL_at]
  simp only [pairTerm, klTerm, plusEps, Ideal.hostUnary_log_def, Ideal.log_def, Ideal.hostDivf_def, Ideal.divf_def]

/-- The reference's result is the divergence of the specification. -/
theorem ref_is_kl (y : (⟨S8192x1, .f32⟩ : BufTy).Contents (Elt Ideal)) (l : (⟨S8192x128, .f32⟩ : BufTy).Contents (Elt Ideal)) (i : S_.Idx) :
    Cert.ReferenceIdeal.Read.val_main_v64 (F := Ideal) y l i = Cert.PairKL.kl y l := by
  rw [val_main_v64_apply, val_main_cst_19_apply]
  simp only [Ideal.ofBits_def, Ideal.ofBits_zero_f32, zero_add]
  refine (sum_idx2 _).trans ?_
  unfold kl
  exact Finset.sum_congr rfl fun a _ => Finset.sum_congr rfl fun b _ => term_at y l a b

end Cert.ReferenceIdeal.RefValue

end
-- ==== Proof.lean ====
/-
  Pairwise-distance KL divergence: a two-pass tiled kernel against its plain reference, over the extended reals.

  Both programs take n = 8192 labels y_i (one number each) and predictions l_i (128 numbers each) and return
      KL = Σ_{ij} p_{ij} (log p_{ij} − log q_{ij}),   p_{ij} = e^Y_{ij} / Z^Y + ε,   q_{ij} = e^L_{ij} / Z^L + ε,
  with e^Y_{ij} = exp(−|y_i − y_j|), e^L_{ij} = exp(−‖l_i − l_j‖) (distances recovered from squared norms and inner
  products, the square root guarded at 0) and Z^Y, Z^L the sums of all n² exponentials (Spec.lean).

  The reference computes the n × n tables whole and sums them (RefValue.lean, over its generated run).  The kernel
  walks 128 tiles of 64 rows twice: the first pass accumulates Z^Y and Z^L in two one-entry cells, the second pass the
  divergence in one, each pass copying its cells to one-entry outputs (KI/Data.lean: the folds; KI/Body0.lean,
  KI/Body1.lean: one tile's step on the machine; KI/Run.lean: the two passes as segments of the program's run;
  KI/Bridge*.lean: a tile's step is the tile's sum; KI/Value.lean: the result).  On the extended reals addition is
  commutative and associative everywhere, so the 128 tile sums of 64 row sums are the sum over all 8192 rows and no
  finiteness of the inputs is used.  The word-level program is the same text read at machine words; its frame is the
  same proof (K/*.lean).  The ideal pass rewrote nothing, so `preserves` has nothing to state.
-/
import proofs.«122636_j18751827214982_1_alg».proof.Defs
import proofs.«122636_j18751827214982_1_alg».proof.Proof.Gen.Kernel
import proofs.«122636_j18751827214982_1_alg».proof.Proof.Gen.KernelIdeal
import proofs.«122636_j18751827214982_1_alg».proof.Proof.Gen.ReferenceIdeal
import proofs.«122636_j18751827214982_1_alg».proof.Proof.Gen.ReferenceIdeal.Run
import proofs.«122636_j18751827214982_1_alg».proof.Proof.Gen.ReferenceIdeal.Read
import proofs.«122636_j18751827214982_1_alg».proof.Proof.Gen.Pre_finite_inputs
import proofs.«122636_j18751827214982_1_alg».proof.Proof.K.Final
import proofs.«122636_j18751827214982_1_alg».proof.Proof.KI.Value
import proofs.«122636_j18751827214982_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_k : Cert.frame_Kernel := fun m ρ _ => Cert.Kernel.Hand.frame m ρ

/-- So does the kernel read over the extended reals. -/
theorem frame_ki : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Over the extended reals both programs end with the divergence of the launch arrays in their result. -/
theorem algebraic : Cert.algebraic_KernelIdeal_ReferenceIdeal := by
  intro m ρ m' ρ' _ hagree
  refine ⟨fun c _ => Cert.PairKL.kl (Cert.KernelIdeal.Hand.yOf m c) (Cert.KernelIdeal.Hand.lOf m c), ?_, ?_⟩
  · refine (θ_run Cert.KernelIdeal.defs _ _).mono (fun r h c => ⟨?_, ?_, ?_⟩) (Cert.KernelIdeal.Hand.run m ρ)
    · exact (h c _ (Cert.KernelIdeal.Hand.mem_uc Cert.KernelIdeal.main_v7 (by decide))).trans
        (funext fun i => Cert.KernelIdeal.Hand.result_eq m c i)
    · exact (h c _ (Cert.KernelIdeal.Hand.mem_uc Cert.KernelIdeal.main_arg0 (by decide))).trans (Cert.KernelIdeal.Hand.W4_main_arg0 m c)
    · exact (h c _ (Cert.KernelIdeal.Hand.mem_uc Cert.KernelIdeal.main_arg1 (by decide))).trans (Cert.KernelIdeal.Hand.W4_main_arg1 m c)
  · refine (θ_run Cert.ReferenceIdeal.defs _ _).mono (fun _ h c => ⟨?_, (h c).2⟩) (Cert.ReferenceIdeal.Value.run (F := Ideal) m' ρ')
    rw [(h c).1, Cert.ReferenceIdeal.Read.val_main_v64_eq]
    funext i
    rw [Cert.ReferenceIdeal.RefValue.ref_is_kl, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
